-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S4x16x2048x2048 : Shape := ⟨4, ![4, 16, 2048, 2048]⟩
abbrev S1x512x128 : Shape := ⟨3, ![1, 512, 128]⟩
abbrev S1x2048x128 : Shape := ⟨3, ![1, 2048, 128]⟩
abbrev S1x2x512x2048 : Shape := ⟨4, ![1, 2, 512, 2048]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S1x1x512x2048 : Shape := ⟨4, ![1, 1, 512, 2048]⟩
abbrev S1x512x64 : Shape := ⟨3, ![1, 512, 64]⟩

abbrev nBuf : Space → Nat
  | .hbm => 37
  | .vmem => 38
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1x1024, .f32⟩
  | .hbm, ⟨21, _⟩ => ⟨S8192x1024, .bf16⟩
  | .hbm, ⟨22, _⟩ => ⟨S1x1024, .f32⟩
  | .hbm, ⟨23, _⟩ => ⟨S8192x1024, .bf16⟩
  | .hbm, ⟨24, _⟩ => ⟨S1x1024, .f32⟩
  | .hbm, ⟨25, _⟩ => ⟨S8192x1024, .bf16⟩
  | .hbm, ⟨26, _⟩ => ⟨S4x2048x1024, .bf16⟩
  | .hbm, ⟨27, _⟩ => ⟨S4x2048x1024, .bf16⟩
  | .hbm, ⟨28, _⟩ => ⟨S4x2048x1024, .bf16⟩
  | .hbm, ⟨29, _⟩ => ⟨S4x2048x1024, .bf16⟩
  | .hbm, ⟨30, _⟩ => ⟨S4x16x2048x2048, .f32⟩
  | .hbm, ⟨31, _⟩ => ⟨S8192x1024, .bf16⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x512x128, .bf16⟩
  | .local _ .vmem, ⟨19, _⟩ => ⟨S1x512x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x2048x128, .bf16⟩
  | .local _ .vmem, ⟨23, _⟩ => ⟨S1x2048x128, .bf16⟩
  | .local _ .vmem, ⟨24, _⟩ => ⟨S1x512x128, .bf16⟩
  | .local _ .vmem, ⟨25, _⟩ => ⟨S1x512x128, .bf16⟩
  | .local _ .vmem, ⟨26, _⟩ => ⟨S1x2x512x2048, .f32⟩
  | .local _ .vmem, ⟨27, _⟩ => ⟨S1x2x512x2048, .f32⟩
  | .local _ .vmem, ⟨28, _⟩ => ⟨S512x1024, .bf16⟩
  | .local _ .vmem, ⟨29, _⟩ => ⟨S512x1024, .bf16⟩
  | .local _ .vmem, ⟨30, _⟩ => ⟨S1024x1024, .bf16⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | .local _ .vmem, ⟨34, _⟩ => ⟨S1x1024, .f32⟩
  | .local _ .vmem, ⟨35, _⟩ => ⟨S1x1024, .f32⟩
  | .local _ .vmem, ⟨36, _⟩ => ⟨S512x1024, .f32⟩
  | .local _ .vmem, ⟨37, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc4_sem4_0 : DmaSem sig := 34
abbrev cc4_sem5_0 : DmaSem sig := 35
abbrev cc4_sem6_0 : DmaSem sig := 36
abbrev cc4_sem6_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![32, 4], ![false, false]⟩

def cc3_transform_0 (i : grid3.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc3_transform_1 (i : grid3.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc3_transform_2 (i : grid3.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc3_transform_3 (i : grid3.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc3_transform_4 (i : grid3.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

abbrev stage3_0 : Fin 2 → Memref sig .tc .vmem S1x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x2x512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S512x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  inb_S1x2x512x2048_S1x1x512x2048_0_0_0_0 : ∀ a, (![0, 0, 0, 0] : Fin 4 → Nat) a + S1x1x512x2048.size a ≤ S1x2x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  shapeCasts_S512x64_S1x512x64 : S512x64.ShapeCasts S1x512x64
  packedbf16_S1x512x128_S1x512x64_0_0_0 : (Rect.unit (s := S1x512x128) ![0, 0, 0] S1x512x64.size inb_S1x512x128_S1x512x64_0_0_0).PackedRows (EltTy.packing .bf16)
  slices_S512x128_o0_64_S512x64 : S512x128.Slices ![0, 64] S512x64
  slices_S2048x128_o0_64_S2048x64 : S2048x128.Slices ![0, 64] S2048x64
  inb_S1x2x512x2048_S1x1x512x2048_0_1_0_0 : ∀ a, (![0, 1, 0, 0] : Fin 4 → Nat) a + S1x1x512x2048.size a ≤ S1x2x512x2048.size a
  inb_S1x512x128_S1x512x64_0_0_64 : ∀ a, (![0, 0, 64] : Fin 3 → Nat) a + S1x512x64.size a ≤ S1x512x128.size a
  packedbf16_S1x512x128_S1x512x64_0_0_64 : (Rect.unit (s := S1x512x128) ![0, 0, 64] S1x512x64.size inb_S1x512x128_S1x512x64_0_0_64).PackedRows (EltTy.packing .bf16)
  reduces_S512x1024_S512 : S512x1024.Reduces [1] S512
  broadcasts_S512x1_S512x1024 : S512x1.Broadcasts S512x1024
  dot_S512x1024_S1024x1024_S512x1024_1_0_0_1_n_n_wf : DotDims.WF S512x1024 S1024x1024 S512x1024 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .bf16 = 32 ∨ (Rect.block (s := S8192x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .bf16 = 32 ∨ (Rect.block (s := S8192x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x128.size a ≤ S4x2048x1024.size a
  hwx3_0 : ∀ i : grid3.Coords, EltTy.bits .bf16 = 32 ∨ (Rect.block (s := S4x2048x1024) S1x512x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x128.size a ≤ S4x2048x1024.size a
  hwx3_1 : ∀ i : grid3.Coords, EltTy.bits .bf16 = 32 ∨ (Rect.block (s := S4x2048x1024) S1x2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x128.size a ≤ S4x2048x1024.size a
  hwx3_2 : ∀ i : grid3.Coords, EltTy.bits .bf16 = 32 ∨ (Rect.block (s := S4x2048x1024) S1x2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x128.size a ≤ S4x2048x1024.size a
  hwx3_3 : ∀ i : grid3.Coords, EltTy.bits .bf16 = 32 ∨ (Rect.block (s := S4x2048x1024) S1x512x128.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2x512x2048.size a ≤ S4x16x2048x2048.size a
  hwx3_4 : ∀ i : grid3.Coords, EltTy.bits .f32 = 32 ∨ (Rect.block (s := S4x16x2048x2048) S1x2x512x2048.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x1024.size a
  hwx4_0 : ∀ i : grid4.Coords, EltTy.bits .bf16 = 32 ∨ (Rect.block (s := S8192x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x1024.size a
  hwx4_3 : ∀ i : grid4.Coords, EltTy.bits .f32 = 32 ∨ (Rect.block (s := S8192x1024) S512x1024.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x1024.size a
  hwx4_4 : ∀ i : grid4.Coords, EltTy.bits .f32 = 32 ∨ (Rect.block (s := S1x1024) S1x1024.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1024.size a ≤ S1x1024.size a
  hwx4_5 : ∀ i : grid4.Coords, EltTy.bits .f32 = 32 ∨ (Rect.block (s := S1x1024) S1x1024.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S512x1024.size a ≤ S8192x1024.size a
  hwx4_6 : ∀ i : grid4.Coords, EltTy.bits .f32 = 32 ∨ (Rect.block (s := S8192x1024) S512x1024.size (cc4_transform_6 i) (hinb4_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v13) S1x512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16_0) S1x512x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v16_1) S1x2x512x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v17) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v0) S512x1024.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v19) S1x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v20) S1x1024.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v21) S512x1024.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048 : Shape := ⟨2, ![4, 2048]⟩
abbrev S4x2048x1 : Shape := ⟨3, ![4, 2048, 1]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x16x64, .f32⟩
  | .hbm, ⟨18, _⟩ => ⟨S4x16x2048x64, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x16x64, .f32⟩
  | .hbm, ⟨24, _⟩ => ⟨S4x16x2048x64, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x2048x16x64, .f32⟩
  | .hbm, ⟨30, _⟩ => ⟨S4x16x2048x64, .f32⟩
  | .hbm, ⟨31, _⟩ => ⟨S4x16x2048x2048, .f32⟩
  | .hbm, ⟨32, _⟩ => ⟨S_, .f32⟩
  | .hbm, ⟨33, _⟩ => ⟨S4x16x2048x2048, .f32⟩
  | .hbm, ⟨34, _⟩ => ⟨S4x16x2048x2048, .f32⟩
  | .hbm, ⟨35, _⟩ => ⟨S_, .f32⟩
  | .hbm, ⟨36, _⟩ => ⟨S4x16x2048, .f32⟩
  | .hbm, ⟨37, _⟩ => ⟨S_, .f32⟩
  | .hbm, ⟨38, _⟩ => ⟨S4x16x2048, .f32⟩
  | .hbm, ⟨39, _⟩ => ⟨S4x16x2048, .f32⟩
  | .hbm, ⟨40, _⟩ => ⟨S4x16x2048x1, .f32⟩
  | .hbm, ⟨41, _⟩ => ⟨S4x16x2048x2048, .f32⟩
  | .hbm, ⟨42, _⟩ => ⟨S4x16x2048x2048, .f32⟩
  | .hbm, ⟨43, _⟩ => ⟨S4x16x2048x2048, .f32⟩
  | .hbm, ⟨44, _⟩ => ⟨S_, .f32⟩
  | .hbm, ⟨45, _⟩ => ⟨S4x16x2048, .f32⟩
  | .hbm, ⟨46, _⟩ => ⟨S4x16x2048x1, .f32⟩
  | .hbm, ⟨47, _⟩ => ⟨S4x16x2048x2048, .f32⟩
  | .hbm, ⟨48, _⟩ => ⟨S4x16x2048x2048, .f32⟩
  | .hbm, ⟨49, _⟩ => ⟨S4x16x2048x64, .f32⟩
  | .hbm, ⟨50, _⟩ => ⟨S4x2048x16x64, .f32⟩
  | .hbm, ⟨51, _⟩ => ⟨S4x2048x1024, .f32⟩
  | .hbm, ⟨52, _⟩ => ⟨S4x2048x1024, .f32⟩
  | .hbm, ⟨53, _⟩ => ⟨S1x1x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S_, .f32⟩
  | .hbm, ⟨58, _⟩ => ⟨S4x2048, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S4x2048x1024, .f32⟩
  | .hbm, ⟨73, _⟩ => ⟨S4x2048x1024, .f32⟩
  | .hbm, ⟨74, _⟩ => ⟨S_, .f32⟩
  | .hbm, ⟨75, _⟩ => ⟨S4x2048x1, .f32⟩
  | .hbm, ⟨76, _⟩ => ⟨S4x2048x1, .f32⟩
  | .hbm, ⟨77, _⟩ => ⟨S4x2048x1, .f32⟩
  | .hbm, ⟨78, _⟩ => ⟨S4x2048x1024, .f32⟩
  | .hbm, ⟨79, _⟩ => ⟨S4x2048x1024, .f32⟩
  | .hbm, ⟨80, _⟩ => ⟨S1x1x1024, .f32⟩
  | .hbm, ⟨81, _⟩ => ⟨S4x2048x1024, .f32⟩
  | .hbm, ⟨82, _⟩ => ⟨S4x2048x1024, .f32⟩
  | .hbm, ⟨83, _⟩ => ⟨S1x1x1024, .f32⟩
  | .hbm, ⟨84, _⟩ => ⟨S4x2048x1024, .f32⟩
  | .hbm, ⟨85, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  dot_S4x2048x1024_S1024x1024_S4x2048x1024_2_0_01_1_n_n_wf : DotDims.WF S4x2048x1024 S1024x1024 S4x2048x1024 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.RunValue.lean ====
/-
  The idealized kernel's run with its two results named.

  @main is eleven segments: six stretches of host operations and five kernel regions between them. Every weakly fair
  execution runs them in order, nothing faulting, and the last boundary's buffer contents (`W11`: the fold of every
  stretch's operations and every region's write-backs over the launch memory) are what the final state holds at every
  buffer that is not scoped to a region. Read at the two result buffers this names each result as that fold's value
  there; the argument arrays end as launched.
-/
import proofs.«132381_j65798898974762_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result buffer at the last boundary's
    contents and the argument arrays as launched. -/
theorem run_results : θ_run defs (onTc (τ := τ) (main (F := F))) ⟨m, fun _ => 0, ρ⟩ (fun r => ∀ c : Dev nD,
      r.2.mem ((c.tc : Thread nD τ).loc main_v22) = W11 m ρ c (Proc.devRef .tc main_v22)
      ∧ r.2.mem ((c.tc : Thread nD τ).loc main_v16_1) = W11 m ρ c (Proc.devRef .tc main_v16_1)
      ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v22 (by decide)), h c _ (mem_uc main_v16_1 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.RunValue

end
-- ==== Proof.Chain.lean ====
/-
  What each kernel region finds in its operands' buffers, read back to the argument arrays.

  Between the regions the host only reshapes and changes float formats. So when the three projection regions are
  entered their operands are an argument array viewed as [8192, 1024], a weight matrix after a change of format, and a
  bias viewed as one row [1, 1024]; the attention region's three operands are the projection regions' outputs viewed
  as [4, 2048, 1024]; and the last region's operands are the attention output viewed as [8192, 1024], the fourth
  weight matrix, its bias row, the first argument viewed as [8192, 1024], and the gain and offset rows. The two
  results are the last region's output viewed as [4, 2048, 1024] and the attention region's weights. Each fact is a walk
  backwards through the boundaries: a host stretch rewrites the buffer it writes and leaves every other one, a region
  rewrites its output arrays and leaves every other buffer.
-/
import proofs.«132381_j65798898974762_2_alg».proof.Proof.Gen.KernelIdeal.Frame
import Idealize.ShloMosaic.Lib.StableHlo.Run
import Idealize.ShloMosaic.PureOps.Ideal

set_option maxRecDepth 16384

noncomputable section

namespace Cert.KernelIdeal.ChainValue

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- One host stretch: the buffer it writes at the operation's value of its operand, any other buffer as before. -/
macro "stretch" : tactic =>
  `(tactic| ((try dsimp only [V1, V3, V5, V7, V9, W1, W3, W5, W7, W9, W11, hostOps0, hostOps1, hostOps2, hostOps3, hostOps4, hostOps5]); after_results))

/-! ## Region 0's operands -/

theorem V1_v0 (c : Dev nD) : V1 m ρ c main_v0
    = shapeCast S8192x1024 (m ((c : Thread nD τ).loc main_arg0)) shapeCasts_S4x2048x1024_S8192x1024 := by
  stretch; all_goals rfl

theorem V1_v3 (c : Dev nD) : V1 m ρ c main_v3 = (m ((c : Thread nD τ).loc main_arg3) : S1024x1024.Idx → EReal) := by
  stretch; all_goals rfl

theorem V1_v7 (c : Dev nD) : V1 m ρ c main_v7
    = shapeCast S1x1024 (m ((c : Thread nD τ).loc main_arg4)) shapeCasts_S1024_S1x1024 := by
  stretch; all_goals rfl

/-! ## Region 1's operands -/

theorem V3_v1 (c : Dev nD) : V3 m ρ c main_v1
    = shapeCast S8192x1024 (m ((c : Thread nD τ).loc main_arg1)) shapeCasts_S4x2048x1024_S8192x1024 := by
  stretch; rw [W2_of_ne m ρ c main_v1 (by decide)]; stretch; all_goals rfl

theorem V3_v4 (c : Dev nD) : V3 m ρ c main_v4 = (m ((c : Thread nD τ).loc main_arg5) : S1024x1024.Idx → EReal) := by
  stretch; rw [W2_of_ne m ρ c main_v4 (by decide)]; stretch; all_goals rfl

theorem V3_v9 (c : Dev nD) : V3 m ρ c main_v9
    = shapeCast S1x1024 (m ((c : Thread nD τ).loc main_arg6)) shapeCasts_S1024_S1x1024 := by
  stretch; rw [W2_of_ne m ρ c main_arg6 (by decide)]; stretch; all_goals rfl

/-! ## Region 2's operands -/

theorem V5_v2 (c : Dev nD) : V5 m ρ c main_v2
    = shapeCast S8192x1024 (m ((c : Thread nD τ).loc main_arg2)) shapeCasts_S4x2048x1024_S8192x1024 := by
  stretch; rw [W4_of_ne m ρ c main_v2 (by decide)]; stretch; rw [W2_of_ne m ρ c main_v2 (by decide)]; stretch; all_goals rfl

theorem V5_v5 (c : Dev nD) : V5 m ρ c main_v5 = (m ((c : Thread nD τ).loc main_arg7) : S1024x1024.Idx → EReal) := by
  stretch; rw [W4_of_ne m ρ c main_v5 (by decide)]; stretch; rw [W2_of_ne m ρ c main_v5 (by decide)]; stretch; all_goals rfl

theorem V5_v11 (c : Dev nD) : V5 m ρ c main_v11
    = shapeCast S1x1024 (m ((c : Thread nD τ).loc main_arg8)) shapeCasts_S1024_S1x1024 := by
  stretch; rw [W4_of_ne m ρ c main_arg8 (by decide)]; stretch; rw [W2_of_ne m ρ c main_arg8 (by decide)]; stretch; all_goals rfl

/-! ## Region 3's operands: the three projections, viewed as [4, 2048, 1024] -/

theorem V7_v13 (c : Dev nD) : V7 m ρ c main_v13
    = shapeCast S4x2048x1024 ((dat0 (V1 m ρ) c).arrAt 3 cfg0.N) shapeCasts_S8192x1024_S4x2048x1024 := by
  stretch; rw [W6_of_ne m ρ c main_v8 (by decide)]; stretch; rw [W4_of_ne m ρ c main_v8 (by decide)]; stretch
  exact congrArg (fun v : S8192x1024.Idx → EReal => shapeCast S4x2048x1024 v shapeCasts_S8192x1024_S4x2048x1024) (W2_arr m ρ c 3)

theorem V7_v14 (c : Dev nD) : V7 m ρ c main_v14
    = shapeCast S4x2048x1024 ((dat1 (V3 m ρ) c).arrAt 3 cfg1.N) shapeCasts_S8192x1024_S4x2048x1024 := by
  stretch; rw [W6_of_ne m ρ c main_v10 (by decide)]; stretch
  exact congrArg (fun v : S8192x1024.Idx → EReal => shapeCast S4x2048x1024 v shapeCasts_S8192x1024_S4x2048x1024) (W4_arr m ρ c 3)

theorem V7_v15 (c : Dev nD) : V7 m ρ c main_v15
    = shapeCast S4x2048x1024 ((dat2 (V5 m ρ) c).arrAt 3 cfg2.N) shapeCasts_S8192x1024_S4x2048x1024 := by
  stretch
  exact congrArg (fun v : S8192x1024.Idx → EReal => shapeCast S4x2048x1024 v shapeCasts_S8192x1024_S4x2048x1024) (W6_arr m ρ c 3)

/-! ## Region 4's operands -/

theorem V9_v17 (c : Dev nD) : V9 m ρ c main_v17
    = shapeCast S8192x1024 ((dat3 (V7 m ρ) c).arrAt 3 cfg3.N) shapeCasts_S4x2048x1024_S8192x1024 := by
  stretch
  exact congrArg (fun v : S4x2048x1024.Idx → EReal => shapeCast S8192x1024 v shapeCasts_S4x2048x1024_S8192x1024) (W8_arr m ρ c 3)

theorem V9_v6 (c : Dev nD) : V9 m ρ c main_v6 = (m ((c : Thread nD τ).loc main_arg9) : S1024x1024.Idx → EReal) := by
  stretch; rw [W8_of_ne m ρ c main_v6 (by decide)]; stretch; rw [W6_of_ne m ρ c main_v6 (by decide)]; stretch
  rw [W4_of_ne m ρ c main_v6 (by decide)]; stretch; rw [W2_of_ne m ρ c main_v6 (by decide)]; stretch; all_goals rfl

theorem V9_v0 (c : Dev nD) : V9 m ρ c main_v0
    = shapeCast S8192x1024 (m ((c : Thread nD τ).loc main_arg0)) shapeCasts_S4x2048x1024_S8192x1024 := by
  stretch; rw [W8_of_ne m ρ c main_v0 (by decide)]; stretch; rw [W6_of_ne m ρ c main_v0 (by decide)]; stretch
  rw [W4_of_ne m ρ c main_v0 (by decide)]; stretch
  exact ((W2_arr m ρ c 0).trans (((dat0 (V1 m ρ) c).arrAt_in 0 rfl cfg0.N).trans (A_eq0 (V1 m ρ) c 0))).trans (V1_v0 m ρ c)

/-- A bias argument reaches the last stretch before region 4 as launched. -/
theorem W8_of_arg (c : Dev nD) (b : Ref sig .tc) (h8 : ∀ w, Pipeline.arrRef spec3 w ≠ b) (h6 : ∀ w, Pipeline.arrRef spec2 w ≠ b)
    (h4 : ∀ w, Pipeline.arrRef spec1 w ≠ b) (h2 : ∀ w, Pipeline.arrRef spec0 w ≠ b)
    (e7 : W7 m ρ c (Proc.devRef .tc b) = W6 m ρ c (Proc.devRef .tc b)) (e5 : W5 m ρ c (Proc.devRef .tc b) = W4 m ρ c (Proc.devRef .tc b))
    (e3 : W3 m ρ c (Proc.devRef .tc b) = W2 m ρ c (Proc.devRef .tc b)) (e1 : W1 m ρ c (Proc.devRef .tc b) = W0 m ρ c (Proc.devRef .tc b)) :
    W8 m ρ c (Proc.devRef .tc b) = W0 m ρ c (Proc.devRef .tc b) := by
  rw [W8_of_ne m ρ c b h8, e7, W6_of_ne m ρ c b h6, e5, W4_of_ne m ρ c b h4, e3, W2_of_ne m ρ c b h2, e1]

theorem V9_v18 (c : Dev nD) : V9 m ρ c main_v18
    = shapeCast S1x1024 (m ((c : Thread nD τ).loc main_arg10)) shapeCasts_S1024_S1x1024 := by
  stretch
  rw [W8_of_arg m ρ c main_arg10 (by decide) (by decide) (by decide) (by decide) (by stretch) (by stretch) (by stretch) (by stretch)]
  all_goals rfl

theorem V9_v19 (c : Dev nD) : V9 m ρ c main_v19
    = shapeCast S1x1024 (m ((c : Thread nD τ).loc main_arg11)) shapeCasts_S1024_S1x1024 := by
  stretch
  rw [W8_of_arg m ρ c main_arg11 (by decide) (by decide) (by decide) (by decide) (by stretch) (by stretch) (by stretch) (by stretch)]
  all_goals rfl

theorem V9_v20 (c : Dev nD) : V9 m ρ c main_v20
    = shapeCast S1x1024 (m ((c : Thread nD τ).loc main_arg12)) shapeCasts_S1024_S1x1024 := by
  stretch
  rw [W8_of_arg m ρ c main_arg12 (by decide) (by decide) (by decide) (by decide) (by stretch) (by stretch) (by stretch) (by stretch)]
  all_goals rfl

/-! ## The two results -/

theorem W11_v22 (c : Dev nD) : W11 m ρ c (Proc.devRef .tc main_v22)
    = shapeCast S4x2048x1024 ((dat4 (V9 m ρ) c).arrAt 6 cfg4.N) shapeCasts_S8192x1024_S4x2048x1024 := by
  stretch
  exact congrArg (fun v : S8192x1024.Idx → EReal => shapeCast S4x2048x1024 v shapeCasts_S8192x1024_S4x2048x1024) (W10_arr m ρ c 6)

theorem W11_v16_1 (c : Dev nD) : W11 m ρ c (Proc.devRef .tc main_v16_1) = (dat3 (V7 m ρ) c).arrAt 4 cfg3.N := by
  stretch; rw [W10_of_ne m ρ c main_v16_1 (by decide)]; stretch
  exact W8_arr m ρ c 4

end Cert.KernelIdeal.ChainValue

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibRowSoftmax.lean ====
/-
  A row softmax taken with vector operations, read at an index, over the extended reals.

  For a row s of b extended reals and a float word acc, the row's maximum is the fold of max over its entries
  from the value acc denotes; each entry's weight is exp (s j − maximum) divided by the sum over the row of
  those exponentials. For an a × b matrix S the vector operations compute exactly this, row by row: a
  reduction <maximumf> over the columns, stood up as an a × 1 column and spread back over the b columns, taken
  off S, exponentiated; then a reduction <add> of the exponentials, stood up and spread the same way, dividing
  them. Read at (p, j) the result is the weight of entry j in row p of S.
-/
import proofs.«132381_j65798898974762_2_alg».proof.Proof.LibRowOps

noncomputable section

open scoped BigOperators

namespace Idealize.ShloMosaic.RowSoftmax

open Idealize.ShloMosaic Idealize.ShloMosaic.ValueIdx Idealize.ShloMosaic.RowOps

/-- The largest entry of a row, folded from the value the float word `acc` denotes. -/
def rowMax (acc : BitVec 32) {n : Nat} (s : Fin n → EReal) : EReal :=
  (Finset.univ : Finset (Fin n)).fold max (Ideal.ofBits .f32 acc) s

/-- The exponential of an entry after the row's maximum is taken off. -/
def expo (acc : BitVec 32) {n : Nat} (s : Fin n → EReal) (j : Fin n) : EReal := Ideal.exp (s j - rowMax acc s)

/-- An entry's softmax weight in its row. -/
def weight (acc : BitVec 32) {n : Nat} (s : Fin n → EReal) (j : Fin n) : EReal :=
  Ideal.div (expo acc s j) (∑ k : Fin n, expo acc s k)

/-- The row's maximum is at least the value it was folded from, so taking the larger of the two changes nothing. -/
theorem max_init_rowMax (acc : BitVec 32) {n : Nat} (s : Fin n → EReal) :
    max (Ideal.ofBits .f32 acc) (rowMax acc s) = rowMax acc s :=
  max_eq_right ((Finset.le_fold_max _).mpr (Or.inl le_rfl))

variable {a b : Nat}

/-- The matrix of exponentials exp (S − row maximum), as the vector operations compute it. -/
def expShift (S : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  exp (subf S (broadcastTo ⟨2, ![a, b]⟩
    (shapeCast ⟨2, ![a, 1]⟩ (multiReduction .maximumf [1] ⟨1, ![a]⟩ S acc h hφ hacc) hc) hb))

/-- The row softmax of a matrix, as the vector operations compute it. -/
def softmaxVec (S : FVec Ideal ⟨2, ![a, b]⟩ .f32) (acc zero : BitVec 32)
    (h : (⟨2, ![a, b]⟩ : Shape).Reduces [1] (⟨1, ![a]⟩ : Shape)) (hφ : FKind.Formats .f32)
    (hacc : acc = FKind.maximumf.neutral .f32 hφ) (hzero : zero = FKind.add.neutral .f32 hφ)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf (expShift S acc h hφ hacc hc hb) (broadcastTo ⟨2, ![a, b]⟩
    (shapeCast ⟨2, ![a, 1]⟩ (multiReduction .add [1] ⟨1, ![a]⟩ (expShift S acc h hφ hacc hc hb) zero h hφ hzero) hc) hb)

/-- The exponentials at (p, j): exp of entry j of row p less that row's maximum. -/
theorem expShift_apply (S : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    expShift S acc h hφ hacc hc hb (ix2 p j) = expo acc (fun k => S (ix2 p k)) j := by
  show Ideal.exp (S (ix2 p j) - broadcastTo ⟨2, ![a, b]⟩
    (shapeCast ⟨2, ![a, 1]⟩ (multiReduction .maximumf [1] ⟨1, ![a]⟩ S acc h hφ hacc) hc) hb (ix2 p j)) = _
  rw [colBcast_apply, colCast_apply, rowMax_vector]
  rfl

/-- The row softmax at (p, j): the weight of entry j in row p. -/
theorem softmaxVec_apply (S : FVec Ideal ⟨2, ![a, b]⟩ .f32) (acc zero : BitVec 32)
    (h : (⟨2, ![a, b]⟩ : Shape).Reduces [1] (⟨1, ![a]⟩ : Shape)) (hφ : FKind.Formats .f32)
    (hacc : acc = FKind.maximumf.neutral .f32 hφ) (hzero : zero = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    softmaxVec S acc zero h hφ hacc hzero hc hb (ix2 p j) = weight acc (fun k => S (ix2 p k)) j := by
  show Ideal.div (expShift S acc h hφ hacc hc hb (ix2 p j)) (broadcastTo ⟨2, ![a, b]⟩
    (shapeCast ⟨2, ![a, 1]⟩ (multiReduction .add [1] ⟨1, ![a]⟩ (expShift S acc h hφ hacc hc hb) zero h hφ hzero) hc) hb
      (ix2 p j)) = _
  rw [colBcast_apply, colCast_apply, rowSum_vector]
  simp only [expShift_apply]
  rfl

end Idealize.ShloMosaic.RowSoftmax

end
-- ==== Proof.Spec.lean ====
/-
  Multi-head attention followed by a residual layer norm, written once as functions of coordinates over the
  extended reals.

  An activation row x (1024 numbers), a weight matrix w and a bias give the affine row  e ↦ Σ_k x k · w k e + bias e.
  The 1024 columns are 16 heads of 64 lanes: column h·64 + d is lane d of head h. For projected queries Q and keys K
  the score of query position s against key position t in head h is (Σ_d Q s (h, d) · K t (h, d)) · 1/8 (the factor is
  the float 0.125, kept as its word), the attention weight is the softmax of the scores over t (maximum folded from
  −∞, exponentials of the differences, divided by their sum), and the head's output at lane d is Σ_t weight t · V t (h, d).
  The heads' outputs, laid side by side again as 1024 columns, go through one more affine row, are added to the input
  row, and the sum is normalised: with m the mean of the 1024 entries and v the mean of the squared differences from m
  (both means a division by the float 1024), entry e becomes (r e − m) · rsqrt (v + ε) · γ e + β e, ε the float word of 1e-5.
-/
import Idealize.ShloMosaic.Lib.ValueIdx
import Idealize.ShloMosaic.PureOps.Ideal
import proofs.«132381_j65798898974762_2_alg».proof.Proof.LibRowSoftmax

noncomputable section

open scoped BigOperators

namespace Cert.Mha

open Idealize.ShloMosaic Idealize.ShloMosaic.ValueIdx

/-- Σ_k x k · w k e + bias e. -/
def affine (x : Fin 1024 → EReal) (w : Fin 1024 → Fin 1024 → EReal) (bias : Fin 1024 → EReal) (e : Fin 1024) : EReal :=
  (∑ k : Fin 1024, x k * w k e) + bias e

/-- Lane d of head h is column h·64 + d. -/
def col (h : Fin 16) (d : Fin 64) : Fin 1024 := ⟨h.val * 64 + d.val, by have := h.isLt; have := d.isLt; omega⟩

/-- The head a column belongs to. -/
def headOf (e : Fin 1024) : Fin 16 := ⟨e.val / 64, by have := e.isLt; omega⟩

/-- A column's lane inside its head. -/
def laneOf (e : Fin 1024) : Fin 64 := ⟨e.val % 64, Nat.mod_lt _ (by norm_num)⟩

theorem col_head_lane (e : Fin 1024) : col (headOf e) (laneOf e) = e :=
  Fin.ext (by show e.val / 64 * 64 + e.val % 64 = e.val; omega)

theorem headOf_col (h : Fin 16) (d : Fin 64) : headOf (col h d) = h :=
  Fin.ext (by show (h.val * 64 + d.val) / 64 = h.val; have := d.isLt; omega)

theorem laneOf_col (h : Fin 16) (d : Fin 64) : laneOf (col h d) = d :=
  Fin.ext (by show (h.val * 64 + d.val) % 64 = d.val; have := d.isLt; omega)

/-- The scaled score of query row q against key row k in head h (rows as functions of the 1024 columns). -/
def score (q k : Fin 1024 → EReal) (h : Fin 16) : EReal :=
  (∑ d : Fin 64, q (col h d) * k (col h d)) * Ideal.ofBits .f32 0x3E000000#32

/-- The attention weight of key position t for a query row q in head h: the softmax over the 2048 key positions. -/
def attnW (q : Fin 1024 → EReal) (K : Fin 2048 → Fin 1024 → EReal) (h : Fin 16) (t : Fin 2048) : EReal :=
  RowSoftmax.weight 0xFF800000#32 (fun t' => score q (K t') h) t

/-- The attention output for a query row q at column e: the weights of e's head against the values' column e. -/
def attnO (q : Fin 1024 → EReal) (K V : Fin 2048 → Fin 1024 → EReal) (e : Fin 1024) : EReal :=
  ∑ t : Fin 2048, attnW q K (headOf e) t * V t e

/-- The mean of 1024 numbers, a division by the float 1024. -/
def mean (r : Fin 1024 → EReal) : EReal := Ideal.div (∑ e : Fin 1024, r e) (Ideal.ofBits .f32 0x44800000#32)

/-- The layer norm of a row r with gain γ and offset β, at column e. -/
def layerNorm (r γ β : Fin 1024 → EReal) (e : Fin 1024) : EReal :=
  (r e - mean r) * Ideal.rsqrt (mean (fun e' => (r e' - mean r) * (r e' - mean r)) + Ideal.ofBits .f32 0x3727C5AC#32)
    * γ e + β e

/-- The residual row: the input row plus the affine row of the attention output. -/
def resid (x ao : Fin 1024 → EReal) (wo : Fin 1024 → Fin 1024 → EReal) (bo : Fin 1024 → EReal) (e : Fin 1024) : EReal :=
  x e + affine ao wo bo e

/-! ## Rows of arrays, and the two results as functions of the thirteen argument arrays -/

/-- Row (b, s) of a [4, 2048, 1024] array. -/
def row3 (x : (⟨3, ![4, 2048, 1024]⟩ : Shape).Idx → EReal) (b : Fin 4) (s : Fin 2048) : Fin 1024 → EReal :=
  fun e => x (ix3 b s e)

/-- Row r of an [8192, 1024] array. -/
def row2 (x : (⟨2, ![8192, 1024]⟩ : Shape).Idx → EReal) (r : Fin 8192) : Fin 1024 → EReal := fun e => x (ix2 r e)

/-- A [1024, 1024] array as a function of row and column. -/
def mat (w : (⟨2, ![1024, 1024]⟩ : Shape).Idx → EReal) : Fin 1024 → Fin 1024 → EReal := fun k e => w (ix2 k e)

/-- A [1024] array as a function of its one coordinate. -/
def vec (v : (⟨1, ![1024]⟩ : Shape).Idx → EReal) : Fin 1024 → EReal := fun e => v (ix1 e)

/-- A [1, 1024] array as a function of its column. -/
def vecRow (v : (⟨2, ![1, 1024]⟩ : Shape).Idx → EReal) : Fin 1024 → EReal := fun e => v (ix2 (0 : Fin 1) e)

/-- Row (b, s) of a projection x·W + bias. -/
def projRow (x : (⟨3, ![4, 2048, 1024]⟩ : Shape).Idx → EReal) (w : (⟨2, ![1024, 1024]⟩ : Shape).Idx → EReal)
    (bias : (⟨1, ![1024]⟩ : Shape).Idx → EReal) (b : Fin 4) (s : Fin 2048) : Fin 1024 → EReal :=
  affine (row3 x b s) (mat w) (vec bias)

/-- The attention weights, entry (b, h, s, t), of queries x0·x3 + x4 against keys x1·x5 + x6. -/
def outW (x0 x1 : (⟨3, ![4, 2048, 1024]⟩ : Shape).Idx → EReal) (x3 : (⟨2, ![1024, 1024]⟩ : Shape).Idx → EReal)
    (x4 : (⟨1, ![1024]⟩ : Shape).Idx → EReal) (x5 : (⟨2, ![1024, 1024]⟩ : Shape).Idx → EReal)
    (x6 : (⟨1, ![1024]⟩ : Shape).Idx → EReal) (b : Fin 4) (h : Fin 16) (s t : Fin 2048) : EReal :=
  attnW (projRow x0 x3 x4 b s) (fun t' => projRow x1 x5 x6 b t') h t

/-- The normalised output, entry (b, s, e). -/
def outY (x0 x1 x2 : (⟨3, ![4, 2048, 1024]⟩ : Shape).Idx → EReal) (x3 : (⟨2, ![1024, 1024]⟩ : Shape).Idx → EReal)
    (x4 : (⟨1, ![1024]⟩ : Shape).Idx → EReal) (x5 : (⟨2, ![1024, 1024]⟩ : Shape).Idx → EReal)
    (x6 : (⟨1, ![1024]⟩ : Shape).Idx → EReal) (x7 : (⟨2, ![1024, 1024]⟩ : Shape).Idx → EReal)
    (x8 : (⟨1, ![1024]⟩ : Shape).Idx → EReal) (x9 : (⟨2, ![1024, 1024]⟩ : Shape).Idx → EReal)
    (x10 x11 x12 : (⟨1, ![1024]⟩ : Shape).Idx → EReal) (b : Fin 4) (s : Fin 2048) (e : Fin 1024) : EReal :=
  layerNorm (resid (row3 x0 b s)
      (attnO (projRow x0 x3 x4 b s) (fun t' => projRow x1 x5 x6 b t') (fun t' => projRow x2 x7 x8 b t'))
      (mat x9) (vec x10)) (vec x11) (vec x12) e

end Cert.Mha

end
-- ==== Proof.LibFlatten.lean ====
/-
  The leading two axes of a three-axis array merged into one, and split again, read at an index.

  An a × b × c array viewed as n × c with n = a·b has, as its row p·b + q, the row (p, q) of the array; conversely an
  n × c array viewed as a × b × c has at (p, q, k) the entry (p·b + q, k). Both are statements about row-major positions:
  ((p·b + q)·c + k) on both sides.
-/
import Idealize.ShloMosaic.Lib.Pipeline.Value
import Idealize.ShloMosaic.Lib.ValueIdx

noncomputable section

namespace Idealize.ShloMosaic.Flatten

open Idealize.ShloMosaic Idealize.ShloMosaic.ValueIdx

variable {α : Type} {a b c n : Nat}

/-- Rows of the merged view: row p·b + q is the array's row (p, q). -/
theorem merge_apply (x : (⟨3, ![a, b, c]⟩ : Shape).Idx → α) (h : (⟨3, ![a, b, c]⟩ : Shape).ShapeCasts ⟨2, ![n, c]⟩)
    (p : Fin a) (q : Fin b) (k : Fin c) (r : Fin n) (hr : r.val = p.val * b + q.val) :
    shapeCast ⟨2, ![n, c]⟩ x h (ix2 r k) = x (ix3 p q k) :=
  shapeCast_apply x h (ix2 r k) (ix3 p q k) (by
    rw [Shape.rowMajor_val_three, Shape.rowMajor_val_two]
    show (p.val * b + q.val) * c + k.val = r.val * c + k.val
    rw [hr])

/-- Entries of the split view: (p, q, k) is the entry (p·b + q, k). -/
theorem split_apply (y : (⟨2, ![n, c]⟩ : Shape).Idx → α) (h : (⟨2, ![n, c]⟩ : Shape).ShapeCasts ⟨3, ![a, b, c]⟩)
    (p : Fin a) (q : Fin b) (k : Fin c) (r : Fin n) (hr : r.val = p.val * b + q.val) :
    shapeCast ⟨3, ![a, b, c]⟩ y h (ix3 p q k) = y (ix2 r k) :=
  shapeCast_apply y h (ix3 p q k) (ix2 r k) (by
    rw [Shape.rowMajor_val_three, Shape.rowMajor_val_two]
    show r.val * c + k.val = (p.val * b + q.val) * c + k.val
    rw [hr])

end Idealize.ShloMosaic.Flatten

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibAffineRow.lean ====
/-
  An affine layer as vector operations compute it, read at an index, over the extended reals.

  For an M × K matrix `a`, a K × N weight matrix `w` and a bias `b` of N numbers, the layer is the plain product of
  `a` with `w` (a `tpu.matmul` into the zero accumulator, the weights passed through a change of float format, which
  is the identity on extended reals) plus the bias viewed as one row [1, N] and spread over the M rows. At (r, j) that
  is Σ_k a(r, k) · w(k, j) + b(j), for any extents M, K, N.
-/
import Idealize.ShloMosaic.Lib.ValueIdx
import Idealize.ShloMosaic.Lib.ValueLayout
import Idealize.ShloMosaic.Lib.Pipeline.Value
import Idealize.ShloMosaic.PureOps.Ideal.Laws
import proofs.«132381_j65798898974762_2_alg».proof.Proof.LibPlainDot

noncomputable section

open scoped BigOperators

namespace Idealize.ShloMosaic.AffineRow

open Idealize.ShloMosaic Idealize.ShloMosaic.ValueIdx

variable {M K N : Nat}

/-- A vector of N numbers viewed as one row [1, N], read at (0, j), is its entry j: both sit at row-major position j. -/
theorem oneRow_apply {α : Type} (b : (⟨1, ![N]⟩ : Shape).Idx → α) (h : (⟨1, ![N]⟩ : Shape).ShapeCasts ⟨2, ![1, N]⟩) (j : Fin N) :
    shapeCast ⟨2, ![1, N]⟩ b h (ix2 (0 : Fin 1) j) = b (ix1 j) :=
  shapeCast_apply b h (ix2 (0 : Fin 1) j) (ix1 j) (by
    rw [Shape.rowMajor_val_one, Shape.rowMajor_val_two]
    show j.val = 0 * N + j.val
    rw [Nat.zero_mul, Nat.zero_add])

/-- The bias row spread over M rows, at (r, j), is the bias's entry j. -/
theorem biasRows_apply {α : Type} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (j : Fin N) :
    broadcastTo ⟨2, ![M, N]⟩ (shapeCast ⟨2, ![1, N]⟩ b h1) h2 (ix2 r j) = b (ix1 j) :=
  (broadcastTo_1b_ab_apply _ h2 r j).trans (oneRow_apply b h1 j)

/-- The layer at (r, j): Σ_k a(r, k) · w(k, j) + b(j). -/
theorem layer_apply {φ : FTy} (prec : Option ContractPrecision) (a : FVec Ideal ⟨2, ![M, K]⟩ φ)
    (w : FVec Ideal ⟨2, ![K, N]⟩ .f32) (hw : FTy.bf16.bits < FTy.f32.bits) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (r : Fin M) (j : Fin N) :
    addf (matmul (DotDims.plain M K N) prec a (truncf .bf16 w hw) (constant ⟨2, ![M, N]⟩ .f32 0x00000000#32))
        (broadcastTo ⟨2, ![M, N]⟩ (shapeCast ⟨2, ![1, N]⟩ b h1) h2) (ix2 r j)
      = (∑ k : Fin K, a (ix2 r k) * w (ix2 k j)) + b (ix1 j) := by
  rw [addf_apply, biasRows_apply]
  exact congrArg (· + b (ix1 j)) (PlainDot.matmul_zero_apply prec a (truncf .bf16 w hw) r j)

end Idealize.ShloMosaic.AffineRow

end
-- ==== Proof.KernelValue.lean ====
/-
  The idealized kernel's two results as functions of the argument arrays.

  Each region's output array is known as a function of the region's operand arrays (the hypotheses below, one per
  region, each proved in its own module), and each operand array is known as a view of an argument array or of an
  earlier region's output. Composing them row by row: the projection regions write the affine rows of the argument
  rows, so the attention region's operands are the projected queries, keys and values, its weights are the softmax
  weights of the projected rows and its output their attention output; the last region then normalises the residual
  of the first argument's row with the affine row of that output. Row r = b·2048 + s of an [8192, 1024] view is row
  (b, s) of the [4, 2048, 1024] array.
-/
import proofs.«132381_j65798898974762_2_alg».proof.Proof.Chain
import proofs.«132381_j65798898974762_2_alg».proof.Proof.Spec
import proofs.«132381_j65798898974762_2_alg».proof.Proof.LibFlatten
import proofs.«132381_j65798898974762_2_alg».proof.Proof.LibAffineRow
import Idealize.ShloMosaic.Lib.Pipeline.Value
import Idealize.ShloMosaic.Lib.ValueIdx

set_option maxRecDepth 16384

noncomputable section

open scoped BigOperators

namespace Cert.KernelIdeal.KernelValue

open Cert.KernelIdeal Cert.KernelIdeal.Gen Cert.KernelIdeal.ChainValue Cert.Mha
open Idealize.ShloMosaic Idealize.ShloMosaic.TcCoe Idealize.ShloMosaic.ValueIdx Idealize.SL.Sem
open Idealize.ShloMosaic.Pipeline (Dat Cfg Window)

/-- Row (b, s) of a [4, 2048, 1024] array is row b·2048 + s of its [8192, 1024] view. -/
def rowOf (b : Fin 4) (s : Fin 2048) : Fin 8192 := ⟨b.val * 2048 + s.val, by have := b.isLt; have := s.isLt; omega⟩

/-- The buffer contents a region is entered with. -/
abbrev Contents : Type := (c : Dev nD) → (b : Ref sig .tc) → Buf (Elt Ideal) ((c : Thread nD τ).loc b)

/-! ## What each region's module proves of its output arrays -/

/-- Region 0 writes the affine rows of its operands. -/
def Lin0 : Prop := ∀ (V : Contents) (c : Dev nD) (r : Fin 8192) (e : Fin 1024),
  (dat0 (F := Ideal) V c).arrAt 3 cfg0.N (ix2 r e)
    = affine (fun k => (V c (Pipeline.arrRef spec0 0) : S8192x1024.Idx → EReal) (ix2 r k))
        (fun k e' => (V c (Pipeline.arrRef spec0 1) : S1024x1024.Idx → EReal) (ix2 k e'))
        (fun e' => (V c (Pipeline.arrRef spec0 2) : S1x1024.Idx → EReal) (ix2 (0 : Fin 1) e')) e

/-- Region 1 writes the affine rows of its operands. -/
def Lin1 : Prop := ∀ (V : Contents) (c : Dev nD) (r : Fin 8192) (e : Fin 1024),
  (dat1 (F := Ideal) V c).arrAt 3 cfg1.N (ix2 r e)
    = affine (fun k => (V c (Pipeline.arrRef spec1 0) : S8192x1024.Idx → EReal) (ix2 r k))
        (fun k e' => (V c (Pipeline.arrRef spec1 1) : S1024x1024.Idx → EReal) (ix2 k e'))
        (fun e' => (V c (Pipeline.arrRef spec1 2) : S1x1024.Idx → EReal) (ix2 (0 : Fin 1) e')) e

/-- Region 2 writes the affine rows of its operands. -/
def Lin2 : Prop := ∀ (V : Contents) (c : Dev nD) (r : Fin 8192) (e : Fin 1024),
  (dat2 (F := Ideal) V c).arrAt 3 cfg2.N (ix2 r e)
    = affine (fun k => (V c (Pipeline.arrRef spec2 0) : S8192x1024.Idx → EReal) (ix2 r k))
        (fun k e' => (V c (Pipeline.arrRef spec2 1) : S1024x1024.Idx → EReal) (ix2 k e'))
        (fun e' => (V c (Pipeline.arrRef spec2 2) : S1x1024.Idx → EReal) (ix2 (0 : Fin 1) e')) e

/-- Region 3 writes the attention weights of its operands' rows. -/
def AttnW : Prop := ∀ (V : Contents) (c : Dev nD) (b : Fin 4) (h : Fin 16) (s t : Fin 2048),
  (dat3 (F := Ideal) V c).arrAt 4 cfg3.N (ix4 b h s t)
    = attnW (fun e => (V c (Pipeline.arrRef spec3 0) : S4x2048x1024.Idx → EReal) (ix3 b s e))
        (fun t' e => (V c (Pipeline.arrRef spec3 1) : S4x2048x1024.Idx → EReal) (ix3 b t' e)) h t

/-- Region 3 writes the attention output of its operands' rows. -/
def AttnO : Prop := ∀ (V : Contents) (c : Dev nD) (b : Fin 4) (s : Fin 2048) (e : Fin 1024),
  (dat3 (F := Ideal) V c).arrAt 3 cfg3.N (ix3 b s e)
    = attnO (fun e' => (V c (Pipeline.arrRef spec3 0) : S4x2048x1024.Idx → EReal) (ix3 b s e'))
        (fun t' e' => (V c (Pipeline.arrRef spec3 1) : S4x2048x1024.Idx → EReal) (ix3 b t' e'))
        (fun t' e' => (V c (Pipeline.arrRef spec3 2) : S4x2048x1024.Idx → EReal) (ix3 b t' e')) e

/-- Region 4 writes the normalised residual rows of its operands. -/
def Norm : Prop := ∀ (V : Contents) (c : Dev nD) (r : Fin 8192) (e : Fin 1024),
  (dat4 (F := Ideal) V c).arrAt 6 cfg4.N (ix2 r e)
    = layerNorm (resid (fun e' => (V c (Pipeline.arrRef spec4 3) : S8192x1024.Idx → EReal) (ix2 r e'))
          (fun k => (V c (Pipeline.arrRef spec4 0) : S8192x1024.Idx → EReal) (ix2 r k))
          (fun k e' => (V c (Pipeline.arrRef spec4 1) : S1024x1024.Idx → EReal) (ix2 k e'))
          (fun e' => (V c (Pipeline.arrRef spec4 2) : S1x1024.Idx → EReal) (ix2 (0 : Fin 1) e')))
        (fun e' => (V c (Pipeline.arrRef spec4 4) : S1x1024.Idx → EReal) (ix2 (0 : Fin 1) e'))
        (fun e' => (V c (Pipeline.arrRef spec4 5) : S1x1024.Idx → EReal) (ix2 (0 : Fin 1) e')) e

variable (m : (ℓ : Loc nD τ sig) → Buf (Elt Ideal) ℓ) (ρ : Dev nD → PrngReg)

/-! ## Views read at an index -/

/-- An argument array viewed as [8192, 1024], at row b·2048 + s. -/
theorem flat_at (x : S4x2048x1024.Idx → EReal) (h : S4x2048x1024.ShapeCasts S8192x1024) (b : Fin 4) (s : Fin 2048) (k : Fin 1024) :
    shapeCast S8192x1024 x h (ix2 (rowOf b s) k) = x (ix3 b s k) :=
  Flatten.merge_apply x h b s k (rowOf b s) rfl

/-- An [8192, 1024] array viewed as [4, 2048, 1024], at (b, s). -/
theorem unflat_at (y : S8192x1024.Idx → EReal) (h : S8192x1024.ShapeCasts S4x2048x1024) (b : Fin 4) (s : Fin 2048) (k : Fin 1024) :
    shapeCast S4x2048x1024 y h (ix3 b s k) = y (ix2 (rowOf b s) k) :=
  Flatten.split_apply y h b s k (rowOf b s) rfl

/-- A [1024] array viewed as one row. -/
theorem row_at (v : S1024.Idx → EReal) (h : S1024.ShapeCasts S1x1024) (e : Fin 1024) :
    shapeCast S1x1024 v h (ix2 (0 : Fin 1) e) = v (ix1 e) :=
  AffineRow.oneRow_apply v h e

/-! ## The projected rows -/

/-- Affine rows of operands that agree entry by entry agree. -/
theorem affine_congr {x x' : Fin 1024 → EReal} {w w' : Fin 1024 → Fin 1024 → EReal} {bias bias' : Fin 1024 → EReal}
    (hx : ∀ k, x k = x' k) (hw : ∀ k e, w k e = w' k e) (hb : ∀ e, bias e = bias' e) (e : Fin 1024) :
    affine x w bias e = affine x' w' bias' e := by
  obtain rfl : x = x' := funext hx
  obtain rfl : w = w' := funext fun k => funext (hw k)
  obtain rfl : bias = bias' := funext hb
  rfl

/-- Row (b, s) of the attention region's first operand is the projected query row. -/
theorem q_row (h0 : Lin0) (c : Dev nD) (b : Fin 4) (s : Fin 2048) :
    (fun e => (V7 m ρ c main_v13 : S4x2048x1024.Idx → EReal) (ix3 b s e))
      = projRow (m ((c : Thread nD τ).loc main_arg0)) (m ((c : Thread nD τ).loc main_arg3)) (m ((c : Thread nD τ).loc main_arg4)) b s := by
  funext e
  refine (congrFun (V7_v13 m ρ c) (ix3 b s e)).trans ?_
  refine (unflat_at _ _ b s e).trans ?_
  refine (h0 (V1 m ρ) c (rowOf b s) e).trans ?_
  exact affine_congr
    (fun k => (congrFun (V1_v0 m ρ c) (ix2 (rowOf b s) k)).trans (flat_at _ _ b s k))
    (fun k e' => congrFun (V1_v3 m ρ c) (ix2 k e'))
    (fun e' => (congrFun (V1_v7 m ρ c) (ix2 (0 : Fin 1) e')).trans (row_at _ _ e')) e

/-- Row (b, s) of the attention region's second operand is the projected key row. -/
theorem k_row (h1 : Lin1) (c : Dev nD) (b : Fin 4) (s : Fin 2048) :
    (fun e => (V7 m ρ c main_v14 : S4x2048x1024.Idx → EReal) (ix3 b s e))
      = projRow (m ((c : Thread nD τ).loc main_arg1)) (m ((c : Thread nD τ).loc main_arg5)) (m ((c : Thread nD τ).loc main_arg6)) b s := by
  funext e
  refine (congrFun (V7_v14 m ρ c) (ix3 b s e)).trans ?_
  refine (unflat_at _ _ b s e).trans ?_
  refine (h1 (V3 m ρ) c (rowOf b s) e).trans ?_
  exact affine_congr
    (fun k => (congrFun (V3_v1 m ρ c) (ix2 (rowOf b s) k)).trans (flat_at _ _ b s k))
    (fun k e' => congrFun (V3_v4 m ρ c) (ix2 k e'))
    (fun e' => (congrFun (V3_v9 m ρ c) (ix2 (0 : Fin 1) e')).trans (row_at _ _ e')) e

/-- Row (b, s) of the attention region's third operand is the projected value row. -/
theorem v_row (h2 : Lin2) (c : Dev nD) (b : Fin 4) (s : Fin 2048) :
    (fun e => (V7 m ρ c main_v15 : S4x2048x1024.Idx → EReal) (ix3 b s e))
      = projRow (m ((c : Thread nD τ).loc main_arg2)) (m ((c : Thread nD τ).loc main_arg7)) (m ((c : Thread nD τ).loc main_arg8)) b s := by
  funext e
  refine (congrFun (V7_v15 m ρ c) (ix3 b s e)).trans ?_
  refine (unflat_at _ _ b s e).trans ?_
  refine (h2 (V5 m ρ) c (rowOf b s) e).trans ?_
  exact affine_congr
    (fun k => (congrFun (V5_v2 m ρ c) (ix2 (rowOf b s) k)).trans (flat_at _ _ b s k))
    (fun k e' => congrFun (V5_v5 m ρ c) (ix2 k e'))
    (fun e' => (congrFun (V5_v11 m ρ c) (ix2 (0 : Fin 1) e')).trans (row_at _ _ e')) e

/-! ## The two results -/

/-- The weights result, entry (b, h, s, t). -/
theorem weights_at (h0 : Lin0) (h1 : Lin1) (hw : AttnW) (c : Dev nD) (b : Fin 4) (h : Fin 16) (s t : Fin 2048) :
    (W11 m ρ c (Proc.devRef .tc main_v16_1) : S4x16x2048x2048.Idx → EReal) (ix4 b h s t)
      = outW (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) b h s t := by
  refine (congrFun (W11_v16_1 m ρ c) (ix4 b h s t)).trans ?_
  refine (hw (V7 m ρ) c b h s t).trans ?_
  exact congrArg₂ (fun (q : Fin 1024 → EReal) (K : Fin 2048 → Fin 1024 → EReal) => attnW q K h t)
    (q_row m ρ h0 c b s) (funext fun t' => k_row m ρ h1 c b t')

/-- The attention output row (b, s), as the last region finds it. -/
theorem ao_row (h0 : Lin0) (h1 : Lin1) (h2 : Lin2) (ho : AttnO) (c : Dev nD) (b : Fin 4) (s : Fin 2048) (k : Fin 1024) :
    (V9 m ρ c main_v17 : S8192x1024.Idx → EReal) (ix2 (rowOf b s) k)
      = attnO (projRow (m ((c : Thread nD τ).loc main_arg0)) (m ((c : Thread nD τ).loc main_arg3)) (m ((c : Thread nD τ).loc main_arg4)) b s) (fun t' => projRow (m ((c : Thread nD τ).loc main_arg1)) (m ((c : Thread nD τ).loc main_arg5)) (m ((c : Thread nD τ).loc main_arg6)) b t')
          (fun t' => projRow (m ((c : Thread nD τ).loc main_arg2)) (m ((c : Thread nD τ).loc main_arg7)) (m ((c : Thread nD τ).loc main_arg8)) b t') k := by
  refine (congrFun (V9_v17 m ρ c) (ix2 (rowOf b s) k)).trans ?_
  refine (flat_at _ _ b s k).trans ?_
  refine (ho (V7 m ρ) c b s k).trans ?_
  have eq := q_row m ρ h0 c b s
  have ek : (fun (t' : Fin 2048) (e' : Fin 1024) => (V7 m ρ c main_v14 : S4x2048x1024.Idx → EReal) (ix3 b t' e'))
      = fun t' => projRow (m ((c : Thread nD τ).loc main_arg1)) (m ((c : Thread nD τ).loc main_arg5)) (m ((c : Thread nD τ).loc main_arg6)) b t' := funext fun t' => k_row m ρ h1 c b t'
  have ev : (fun (t' : Fin 2048) (e' : Fin 1024) => (V7 m ρ c main_v15 : S4x2048x1024.Idx → EReal) (ix3 b t' e'))
      = fun t' => projRow (m ((c : Thread nD τ).loc main_arg2)) (m ((c : Thread nD τ).loc main_arg7)) (m ((c : Thread nD τ).loc main_arg8)) b t' := funext fun t' => v_row m ρ h2 c b t'
  show attnO (fun e' => (V7 m ρ c main_v13 : S4x2048x1024.Idx → EReal) (ix3 b s e'))
      (fun t' e' => (V7 m ρ c main_v14 : S4x2048x1024.Idx → EReal) (ix3 b t' e'))
      (fun t' e' => (V7 m ρ c main_v15 : S4x2048x1024.Idx → EReal) (ix3 b t' e')) k = _
  rw [eq, ek, ev]

/-- Layer norms of rows, gains and offsets that agree entry by entry agree. -/
theorem layerNorm_congr {r r' g g' o o' : Fin 1024 → EReal} (hr : ∀ e, r e = r' e) (hg : ∀ e, g e = g' e) (ho : ∀ e, o e = o' e)
    (e : Fin 1024) : layerNorm r g o e = layerNorm r' g' o' e := by
  obtain rfl : r = r' := funext hr
  obtain rfl : g = g' := funext hg
  obtain rfl : o = o' := funext ho
  rfl

/-- Residual rows of operands that agree entry by entry agree. -/
theorem resid_congr {x x' ao ao' : Fin 1024 → EReal} {wo wo' : Fin 1024 → Fin 1024 → EReal} {bo bo' : Fin 1024 → EReal}
    (hx : ∀ e, x e = x' e) (hao : ∀ k, ao k = ao' k) (hw : ∀ k e, wo k e = wo' k e) (hb : ∀ e, bo e = bo' e) (e : Fin 1024) :
    resid x ao wo bo e = resid x' ao' wo' bo' e := by
  obtain rfl : x = x' := funext hx
  obtain rfl : ao = ao' := funext hao
  obtain rfl : wo = wo' := funext fun k => funext (hw k)
  obtain rfl : bo = bo' := funext hb
  rfl

/-- The normalised result, entry (b, s, e). -/
theorem out_at (h0 : Lin0) (h1 : Lin1) (h2 : Lin2) (ho : AttnO) (hn : Norm) (c : Dev nD) (b : Fin 4) (s : Fin 2048) (e : Fin 1024) :
    (W11 m ρ c (Proc.devRef .tc main_v22) : S4x2048x1024.Idx → EReal) (ix3 b s e)
      = outY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b s e := by
  refine (congrFun (W11_v22 m ρ c) (ix3 b s e)).trans ?_
  refine (unflat_at _ _ b s e).trans ?_
  refine (hn (V9 m ρ) c (rowOf b s) e).trans ?_
  exact layerNorm_congr
    (fun e' => resid_congr
      (fun e'' => (congrFun (V9_v0 m ρ c) (ix2 (rowOf b s) e'')).trans (flat_at _ _ b s e''))
      (fun k => ao_row m ρ h0 h1 h2 ho c b s k)
      (fun k e'' => congrFun (V9_v6 m ρ c) (ix2 k e''))
      (fun e'' => (congrFun (V9_v18 m ρ c) (ix2 (0 : Fin 1) e'')).trans (row_at _ _ e'')) e')
    (fun e' => (congrFun (V9_v19 m ρ c) (ix2 (0 : Fin 1) e')).trans (row_at _ _ e'))
    (fun e' => (congrFun (V9_v20 m ρ c) (ix2 (0 : Fin 1) e')).trans (row_at _ _ e')) e

end Cert.KernelIdeal.KernelValue

end
-- ==== Proof.RefProj.lean ====
/-
  The reference's three projections, read at an index.

  Each is x·w + bias: at row (b, s) and column e it is Σ_k x (b, s, k) · w (k, e) + bias e. The split into heads
  reshapes [4, 2048, 1024] to [4, 2048, 16, 64] and swaps the two middle axes, so entry (b, h, s, d) of the split
  array is column h·64 + d of row (b, s). The key and value projections are the same operations on other operands.
-/
import proofs.«132381_j65798898974762_2_alg».proof.Proof.Gen.ReferenceIdeal.Read
import proofs.«132381_j65798898974762_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Mha

/-- The projection at row (b, s), column e. -/
theorem proj_at (x : (⟨S4x2048x1024, .f32⟩ : BufTy).Contents (Elt Ideal)) (w : (⟨S1024x1024, .f32⟩ : BufTy).Contents (Elt Ideal)) (bias : (⟨S1024, .f32⟩ : BufTy).Contents (Elt Ideal)) (b : Fin 4) (s : Fin 2048) (e : Fin 1024) :
    val_main_v3 (F := Ideal) x w bias (ix3 b s e) = projRow x w bias b s e := by
  have hb : idx_main_v1 (idx_main_v2 (ix3 b s e)) = ix1 e := funext fun a => match a with
    | ⟨0, _⟩ => rfl
  have hl : ∀ k : Fin 1024, lidx_main_v0 (ix3 b s e) k = ix3 b s k := fun k => funext fun a => match a with
    | ⟨0, _⟩ => rfl
    | ⟨1, _⟩ => rfl
    | ⟨2, _⟩ => rfl
  have hr : ∀ k : Fin 1024, ridx_main_v0 (ix3 b s e) k = ix2 k e := fun k => funext fun a => match a with
    | ⟨0, _⟩ => rfl
    | ⟨1, _⟩ => rfl
  rw [val_main_v3_apply, val_main_v0_apply, val_main_v2_apply, val_main_v1_apply, hb]
  simp only [hl, hr]
  rfl

/-- The projection split into heads: entry (b, h, s, d) is column h·64 + d of row (b, s). -/
theorem head_at (x : (⟨S4x2048x1024, .f32⟩ : BufTy).Contents (Elt Ideal)) (w : (⟨S1024x1024, .f32⟩ : BufTy).Contents (Elt Ideal)) (bias : (⟨S1024, .f32⟩ : BufTy).Contents (Elt Ideal)) (b : Fin 4) (h : Fin 16) (s : Fin 2048) (d : Fin 64) :
    val_main_v5 (F := Ideal) x w bias (ix4 b h s d) = projRow x w bias b s (col h d) := by
  have hb := b.isLt
  have hh := h.isLt
  have hs := s.isLt
  have hd := d.isLt
  have hi : idx_main_v4 (idx_main_v5 (ix4 b h s d)) = ix3 b s (col h d) := funext fun a => match a with
    | ⟨0, _⟩ => Fin.ext (by
        show (((b.val * 2048 + s.val) * 16 + h.val) * 64 + d.val) / 2097152 = b.val
        omega)
    | ⟨1, _⟩ => Fin.ext (by
        show (((b.val * 2048 + s.val) * 16 + h.val) * 64 + d.val) / 1024 % 2048 = s.val
        omega)
    | ⟨2, _⟩ => Fin.ext (by
        show (((b.val * 2048 + s.val) * 16 + h.val) * 64 + d.val) % 1024 = h.val * 64 + d.val
        omega)
  rw [val_main_v5_apply, val_main_v4_apply, hi, proj_at]

/-- The key projection split into heads is the same function of its operands. -/
theorem v11_eq (x : (⟨S4x2048x1024, .f32⟩ : BufTy).Contents (Elt Ideal)) (w : (⟨S1024x1024, .f32⟩ : BufTy).Contents (Elt Ideal)) (bias : (⟨S1024, .f32⟩ : BufTy).Contents (Elt Ideal)) :
    val_main_v11 (F := Ideal) x w bias = val_main_v5 (F := Ideal) x w bias := rfl

/-- The value projection split into heads is the same function of its operands. -/
theorem v17_eq (x : (⟨S4x2048x1024, .f32⟩ : BufTy).Contents (Elt Ideal)) (w : (⟨S1024x1024, .f32⟩ : BufTy).Contents (Elt Ideal)) (bias : (⟨S1024, .f32⟩ : BufTy).Contents (Elt Ideal)) :
    val_main_v17 (F := Ideal) x w bias = val_main_v5 (F := Ideal) x w bias := rfl

end Cert.ReferenceIdeal.RefValue

end
-- ==== Proof.RefConsts.lean ====
/-
  The float words the reference spells, as the extended reals they denote.

  The word 0x41000000 is the float 8 and the word 0x3E000000 is the float 0.125 = 1/8, so dividing by the first is
  multiplying by the second, at the infinities too. The word 0x00000000 is zero.
-/
import Idealize.ShloMosaic.PureOps.Ideal
import Idealize.ShloMosaic.PureOps.Ideal.Laws

noncomputable section

namespace Cert.ReferenceIdeal.RefValue

open Idealize.ShloMosaic

/-- The word 0x41000000 denotes 8. -/
theorem ofBits_eight : Ideal.ofBits .f32 0x41000000#32 = ((8 : ℝ) : EReal) := by
  simp [Ideal.ofBits, Ideal.ieee, -EReal.coe_mul] <;> norm_num

/-- The word 0x3E000000 denotes 1/8. -/
theorem ofBits_eighth : Ideal.ofBits .f32 0x3E000000#32 = ((1 / 8 : ℝ) : EReal) := by
  simp [Ideal.ofBits, Ideal.ieee, -EReal.coe_mul] <;> norm_num

/-- A quotient by the float 8 is the product with the float 1/8. -/
theorem div_eight (x : EReal) :
    Ideal.div x (Ideal.ofBits .f32 0x41000000#32) = x * Ideal.ofBits .f32 0x3E000000#32 := by
  rw [ofBits_eight, ofBits_eighth]
  exact Ideal.div_coe (by norm_num) x

/-- The float zero word, read through the float operations' own spelling, is 0. -/
theorem fzero : FloatOps.ofBits (F := Ideal) .f32 0x00000000#32 = 0 := Ideal.ofBits_zero_f32

end Cert.ReferenceIdeal.RefValue

end
-- ==== Proof.RefScore.lean ====
/-
  The reference's scaled scores, read at an index.

  Entry (b, h, s, t) is Σ_d Q (b, h, s, d) · K (b, h, t, d) divided by the float 8, which is the same sum times the
  float 1/8: the score of query row (b, s) against key row (b, t) in head h.
-/
import proofs.«132381_j65798898974762_2_alg».proof.Proof.RefProj
import proofs.«132381_j65798898974762_2_alg».proof.Proof.RefConsts

noncomputable section

open scoped BigOperators

namespace Cert.ReferenceIdeal.RefValue

open Cert.ReferenceIdeal Cert.ReferenceIdeal.Gen Cert.ReferenceIdeal.Read Idealize.ShloMosaic Idealize.ShloMosaic.ValueIdx Cert.Mha

/-- The scaled score at (b, h, s, t). -/
theorem score_at (x0 x1 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (h : Fin 16) (s t : Fin 2048) :
    val_main_v20 (F := Ideal) x0 x1 x3 x4 x5 x6 (ix4 b h s t)
      = score (projRow x0 x3 x4 b s) (projRow x1 x5 x6 b t) h := by
  have hl : ∀ k : Fin 64, lidx_main_v18 (ix4 b h s t) k = ix4 b h s k := fun k => funext fun a => match a with
    | ⟨0, _⟩ => rfl
    | ⟨1, _⟩ => rfl
    | ⟨2, _⟩ => rfl
    | ⟨3, _⟩ => rfl
  have hr : ∀ k : Fin 64, ridx_main_v18 (ix4 b h s t) k = ix4 b h t k := fun k => funext fun a => match a with
    | ⟨0, _⟩ => rfl
    | ⟨1, _⟩ => rfl
    | ⟨2, _⟩ => rfl
    | ⟨3, _⟩ => rfl
  rw [val_main_v20_apply, val_main_v18_apply, val_main_v19_apply, val_main_cst_apply]
  simp only [hl, hr, v11_eq, head_at]
  unfold score
  exact div_eight _

end Cert.ReferenceIdeal.RefValue

end
-- ==== Proof.RefWeights.lean ====
/-
  The reference's attention weights, read at an index.

  Along the last axis of the scores [4, 16, 2048, 2048]: the maximum folded from −∞ (and once more compared with −∞,
  which changes nothing), the exponentials of the differences, their sum from zero, and the quotient. Entry
  (b, h, s, t) is the softmax weight of key position t for query row (b, s) in head h.
-/
import proofs.«132381_j65798898974762_2_alg».proof.Proof.RefScore
import proofs.«132381_j65798898974762_2_alg».proof.Proof.LibRowSoftmax

noncomputable section

open scoped BigOperators

namespace Cert.ReferenceIdeal.RefValue

open Cert.ReferenceIdeal Cert.ReferenceIdeal.Gen Cert.ReferenceIdeal.Read Idealize.ShloMosaic Idealize.ShloMosaic.ValueIdx Cert.Mha

/-- The last axis of a [4, 16, 2048, 2048] array can be dropped. -/
theorem reduces_d3 : S4x16x2048x2048.Reduces [3] S4x16x2048 := by decide

/-- Index (b, h, s) with k put back on the last axis is (b, h, s, k). -/
theorem lift_d3 (hR : S4x16x2048x2048.Reduces [3] S4x16x2048) (b : Fin 4) (h : Fin 16) (s : Fin 2048)
    (k : Fin (S4x16x2048x2048.size 3)) : hR.lift (ix3 b h s) k = ix4 b h s (⟨k.val, k.isLt⟩ : Fin 2048) := by
  funext c; apply Fin.ext
  fin_cases c <;> rfl

/-- The row maximum at (b, h, s): the fold of max over the 2048 scores of that row, from −∞. -/
theorem rowmax_at (x0 x1 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (h : Fin 16) (s : Fin 2048) :
    val_main_v21 (F := Ideal) x0 x1 x3 x4 x5 x6 (ix3 b h s)
      = RowSoftmax.rowMax 0xFF800000#32 (fun t : Fin 2048 => val_main_v20 (F := Ideal) x0 x1 x3 x4 x5 x6 (ix4 b h s t)) := by
  unfold val_main_v21
  generalize val_main_v20 (F := Ideal) x0 x1 x3 x4 x5 x6 = y
  rw [Host.reduce_eq_fold_single (FloatOps.maximumf (F := Ideal) (φ := .f32)) y _
    reducesTo_S4x16x2048x2048_S4x16x2048_d3 reduces_d3 h_S_]
  have hf : (y ∘ reduces_d3.lift (ix3 b h s)) = fun k : Fin 2048 => y (ix4 b h s k) :=
    funext fun k => congrArg y (lift_d3 reduces_d3 b h s k)
  exact congrArg (fun f : Fin 2048 → EReal => RowSoftmax.rowMax 0xFF800000#32 f) hf

/-- Compared once more with −∞ the row maximum is unchanged. -/
theorem max_at (x0 x1 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (h : Fin 16) (s : Fin 2048) :
    val_main_v23 (F := Ideal) x0 x1 x3 x4 x5 x6 (ix3 b h s)
      = RowSoftmax.rowMax 0xFF800000#32 (fun t : Fin 2048 => val_main_v20 (F := Ideal) x0 x1 x3 x4 x5 x6 (ix4 b h s t)) := by
  rw [val_main_v23_apply, val_main_v22_apply, val_main_cst_1_apply, rowmax_at]
  exact RowSoftmax.max_init_rowMax _ _

/-- The exponential at (b, h, s, t) of the score less its row's maximum. -/
theorem exp_at (x0 x1 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (h : Fin 16) (s t : Fin 2048) :
    val_main_v27 (F := Ideal) x0 x1 x3 x4 x5 x6 (ix4 b h s t)
      = RowSoftmax.expo 0xFF800000#32 (fun t' : Fin 2048 => val_main_v20 (F := Ideal) x0 x1 x3 x4 x5 x6 (ix4 b h s t')) t := by
  have hi : idx_main_v24 (idx_main_v25 (ix4 b h s t)) = ix3 b h s := funext fun a => match a with
    | ⟨0, _⟩ => rfl
    | ⟨1, _⟩ => rfl
    | ⟨2, _⟩ => rfl
  rw [val_main_v27_apply, val_main_v26_apply, val_main_v25_apply, val_main_v24_apply, hi, max_at]
  rfl

/-- The attention weight at (b, h, s, t). -/
theorem weights_at (x0 x1 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (h : Fin 16) (s t : Fin 2048) :
    val_main_v31 (F := Ideal) x0 x1 x3 x4 x5 x6 (ix4 b h s t) = outW x0 x1 x3 x4 x5 x6 b h s t := by
  have hi : idx_main_v29 (idx_main_v30 (ix4 b h s t)) = ix3 b h s := funext fun a => match a with
    | ⟨0, _⟩ => rfl
    | ⟨1, _⟩ => rfl
    | ⟨2, _⟩ => rfl
  have hk : ∀ k : Fin 2048, idx_main_v28 (ix3 b h s) k = ix4 b h s k := fun k => funext fun a => match a with
    | ⟨0, _⟩ => rfl
    | ⟨1, _⟩ => rfl
    | ⟨2, _⟩ => rfl
    | ⟨3, _⟩ => rfl
  rw [val_main_v31_apply, val_main_v30_apply, val_main_v29_apply, hi, val_main_v28_apply, val_main_cst_2_apply, fzero,
    zero_add]
  simp only [hk, exp_at, score_at]
  rfl

end Cert.ReferenceIdeal.RefValue

end
-- ==== Proof.RefAttn.lean ====
/-
  The reference's attention output with the heads laid side by side again, read at an index.

  Entry (b, h, s, d) of the weights' product with the values is Σ_t weight (b, h, s, t) · V (b, h, t, d). The merge
  swaps the two middle axes back and reshapes [4, 2048, 16, 64] to [4, 2048, 1024], so column e of row (b, s) is lane
  e mod 64 of head e / 64.
-/
import proofs.«132381_j65798898974762_2_alg».proof.Proof.RefWeights

noncomputable section

open scoped BigOperators

namespace Cert.ReferenceIdeal.RefValue

open Cert.ReferenceIdeal Cert.ReferenceIdeal.Gen Cert.ReferenceIdeal.Read Idealize.ShloMosaic Idealize.ShloMosaic.ValueIdx Cert.Mha

/-- The attention output at row (b, s), column e. -/
theorem attn_at (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (b : Fin 4) (s : Fin 2048) (e : Fin 1024) :
    val_main_v34 (F := Ideal) x0 x1 x2 x3 x4 x5 x6 x7 x8 (ix3 b s e)
      = attnO (projRow x0 x3 x4 b s) (fun t' => projRow x1 x5 x6 b t') (fun t' => projRow x2 x7 x8 b t') e := by
  have hb := b.isLt
  have hs := s.isLt
  have he := e.isLt
  have hi : idx_main_v33 (idx_main_v34 (ix3 b s e)) = ix4 b (headOf e) s (laneOf e) := funext fun a => match a with
    | ⟨0, _⟩ => Fin.ext (by
        show ((b.val * 2048 + s.val) * 1024 + e.val) / 2097152 = b.val
        omega)
    | ⟨1, _⟩ => Fin.ext (by
        show ((b.val * 2048 + s.val) * 1024 + e.val) / 64 % 16 = e.val / 64
        omega)
    | ⟨2, _⟩ => Fin.ext (by
        show ((b.val * 2048 + s.val) * 1024 + e.val) / 1024 % 2048 = s.val
        omega)
    | ⟨3, _⟩ => Fin.ext (by
        show ((b.val * 2048 + s.val) * 1024 + e.val) % 64 = e.val % 64
        omega)
  have hl : ∀ k : Fin 2048, lidx_main_v32 (ix4 b (headOf e) s (laneOf e)) k = ix4 b (headOf e) s k :=
    fun k => funext fun a => match a with
    | ⟨0, _⟩ => rfl
    | ⟨1, _⟩ => rfl
    | ⟨2, _⟩ => rfl
    | ⟨3, _⟩ => rfl
  have hr : ∀ k : Fin 2048, ridx_main_v32 (ix4 b (headOf e) s (laneOf e)) k = ix4 b (headOf e) k (laneOf e) :=
    fun k => funext fun a => match a with
    | ⟨0, _⟩ => rfl
    | ⟨1, _⟩ => rfl
    | ⟨2, _⟩ => rfl
    | ⟨3, _⟩ => rfl
  rw [val_main_v34_apply, val_main_v33_apply, hi, val_main_v32_apply]
  simp only [hl, hr, weights_at, v17_eq, head_at, col_head_lane]
  rfl

end Cert.ReferenceIdeal.RefValue

end
-- ==== Proof.RefResid.lean ====
/-
  The reference's residual row, read at an index.

  The attention output goes through one more x·w + bias and is added to the input: at row (b, s), column e, it is
  x0 (b, s, e) + (Σ_k attention (b, s, k) · w (k, e) + bias e).
-/
import proofs.«132381_j65798898974762_2_alg».proof.Proof.RefAttn

noncomputable section

open scoped BigOperators

namespace Cert.ReferenceIdeal.RefValue

open Cert.ReferenceIdeal Cert.ReferenceIdeal.Gen Cert.ReferenceIdeal.Read Idealize.ShloMosaic Idealize.ShloMosaic.ValueIdx Cert.Mha

/-- The residual at row (b, s), column e. -/
theorem resid_at (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (b : Fin 4) (s : Fin 2048) (e : Fin 1024) :
    val_main_v39 (F := Ideal) x0 x1 x2 x3 x4 x5 x6 x7 x8 x9 x10 (ix3 b s e)
      = resid (row3 x0 b s)
          (attnO (projRow x0 x3 x4 b s) (fun t' => projRow x1 x5 x6 b t') (fun t' => projRow x2 x7 x8 b t'))
          (mat x9) (vec x10) e := by
  have hb : idx_main_v36 (idx_main_v37 (ix3 b s e)) = ix1 e := funext fun a => match a with
    | ⟨0, _⟩ => rfl
  have hl : ∀ k : Fin 1024, lidx_main_v35 (ix3 b s e) k = ix3 b s k := fun k => funext fun a => match a with
    | ⟨0, _⟩ => rfl
    | ⟨1, _⟩ => rfl
    | ⟨2, _⟩ => rfl
  have hr : ∀ k : Fin 1024, ridx_main_v35 (ix3 b s e) k = ix2 k e := fun k => funext fun a => match a with
    | ⟨0, _⟩ => rfl
    | ⟨1, _⟩ => rfl
  rw [val_main_v39_apply, val_main_v38_apply, val_main_v35_apply, val_main_v37_apply, val_main_v36_apply, hb]
  simp only [hl, hr, attn_at]
  rfl

end Cert.ReferenceIdeal.RefValue

end
-- ==== Proof.RefOut.lean ====
/-
  The reference's layer norm of the residual row, read at an index.

  With r the residual row (b, s): its mean m is the sum of its 1024 entries from zero divided by the float 1024; the
  mean v of the squared differences from m likewise; entry e of the result is
  (r e − m) · rsqrt (v + ε) · γ e + β e.
-/
import proofs.«132381_j65798898974762_2_alg».proof.Proof.RefResid

noncomputable section

open scoped BigOperators

namespace Cert.ReferenceIdeal.RefValue

open Cert.ReferenceIdeal Cert.ReferenceIdeal.Gen Cert.ReferenceIdeal.Read Idealize.ShloMosaic Idealize.ShloMosaic.ValueIdx Cert.Mha

/-- The mean of residual row (b, s). -/
theorem mean_at (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (b : Fin 4) (s : Fin 2048) :
    val_main_v43 (F := Ideal) x0 x1 x2 x3 x4 x5 x6 x7 x8 x9 x10 (ix3 b s (0 : Fin 1))
      = mean (fun e' : Fin 1024 => val_main_v39 (F := Ideal) x0 x1 x2 x3 x4 x5 x6 x7 x8 x9 x10 (ix3 b s e')) := by
  have hi : idx_main_v41 (ix3 b s (0 : Fin 1)) = ix2 b s := funext fun a => match a with
    | ⟨0, _⟩ => rfl
    | ⟨1, _⟩ => rfl
  have hk : ∀ k : Fin 1024, idx_main_v40 (ix2 b s) k = ix3 b s k := fun k => funext fun a => match a with
    | ⟨0, _⟩ => rfl
    | ⟨1, _⟩ => rfl
    | ⟨2, _⟩ => rfl
  rw [val_main_v43_apply, val_main_v41_apply, hi, val_main_v40_apply, val_main_cst_3_apply, fzero, zero_add,
    val_main_v42_apply, val_main_cst_4_apply]
  simp only [hk]
  rfl

/-- An entry of residual row (b, s) less the row's mean. -/
theorem center_at (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (b : Fin 4) (s : Fin 2048) (e : Fin 1024) :
    val_main_v45 (F := Ideal) x0 x1 x2 x3 x4 x5 x6 x7 x8 x9 x10 (ix3 b s e)
      = val_main_v39 (F := Ideal) x0 x1 x2 x3 x4 x5 x6 x7 x8 x9 x10 (ix3 b s e)
        - mean (fun e' : Fin 1024 => val_main_v39 (F := Ideal) x0 x1 x2 x3 x4 x5 x6 x7 x8 x9 x10 (ix3 b s e')) := by
  have hi : idx_main_v44 (ix3 b s e) = ix3 b s (0 : Fin 1) := funext fun a => match a with
    | ⟨0, _⟩ => rfl
    | ⟨1, _⟩ => rfl
    | ⟨2, _⟩ => rfl
  rw [val_main_v45_apply, val_main_v44_apply, hi, mean_at]
  rfl

/-- The mean of the squared differences of residual row (b, s) from its mean. -/
theorem var_at (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (b : Fin 4) (s : Fin 2048) :
    val_main_v50 (F := Ideal) x0 x1 x2 x3 x4 x5 x6 x7 x8 x9 x10 (ix3 b s (0 : Fin 1))
      = mean (fun e' : Fin 1024 =>
          (val_main_v39 (F := Ideal) x0 x1 x2 x3 x4 x5 x6 x7 x8 x9 x10 (ix3 b s e')
            - mean (fun e'' : Fin 1024 => val_main_v39 (F := Ideal) x0 x1 x2 x3 x4 x5 x6 x7 x8 x9 x10 (ix3 b s e'')))
          * (val_main_v39 (F := Ideal) x0 x1 x2 x3 x4 x5 x6 x7 x8 x9 x10 (ix3 b s e')
            - mean (fun e'' : Fin 1024 => val_main_v39 (F := Ideal) x0 x1 x2 x3 x4 x5 x6 x7 x8 x9 x10 (ix3 b s e'')))) := by
  have hi : idx_main_v48 (ix3 b s (0 : Fin 1)) = ix2 b s := funext fun a => match a with
    | ⟨0, _⟩ => rfl
    | ⟨1, _⟩ => rfl
  have hk : ∀ k : Fin 1024, idx_main_v47 (ix2 b s) k = ix3 b s k := fun k => funext fun a => match a with
    | ⟨0, _⟩ => rfl
    | ⟨1, _⟩ => rfl
    | ⟨2, _⟩ => rfl
  rw [val_main_v50_apply, val_main_v48_apply, hi, val_main_v47_apply, val_main_cst_5_apply, fzero, zero_add,
    val_main_v49_apply, val_main_cst_6_apply]
  simp only [hk, val_main_v46_apply, center_at]
  rfl

/-- The normalised output at row (b, s), column e. -/
theorem out_at (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 x11 x12 : (⟨S1024, .f32⟩ : BufTy).Contents (Elt Ideal)) (b : Fin 4) (s : Fin 2048) (e : Fin 1024) :
    val_main_v63 (F := Ideal) x0 x1 x2 x3 x4 x5 x6 x7 x8 x9 x10 x11 x12 (ix3 b s e) = outY x0 x1 x2 x3 x4 x5 x6 x7 x8 x9 x10 x11 x12 b s e := by
  have h51 : idx_main_v51 (ix3 b s e) = ix3 b s (0 : Fin 1) := funext fun a => match a with
    | ⟨0, _⟩ => rfl
    | ⟨1, _⟩ => rfl
    | ⟨2, _⟩ => rfl
  have h56 : idx_main_v56 (ix3 b s e) = ix3 b s (0 : Fin 1) := funext fun a => match a with
    | ⟨0, _⟩ => rfl
    | ⟨1, _⟩ => rfl
    | ⟨2, _⟩ => rfl
  have hg : idx_main_v58 (idx_main_v59 (ix3 b s e)) = ix1 e := funext fun a => match a with
    | ⟨0, _⟩ => rfl
  have hβ : idx_main_v61 (idx_main_v62 (ix3 b s e)) = ix1 e := funext fun a => match a with
    | ⟨0, _⟩ => rfl
  rw [val_main_v63_apply, val_main_v60_apply, val_main_v57_apply, val_main_v52_apply, val_main_v51_apply, h51, mean_at,
    val_main_v56_apply, h56, val_main_v55_apply, val_main_v54_apply, var_at, val_main_v53_apply, val_main_cst_7_apply,
    val_main_v59_apply, val_main_v58_apply, hg, val_main_v62_apply, val_main_v61_apply, hβ]
  simp only [resid_at]
  rfl

end Cert.ReferenceIdeal.RefValue

end
-- ==== Proof.Results.lean ====
/-
  Both programs' runs, each result named as one function of the thirteen argument arrays.

  The idealized kernel's run ends with its two result buffers at the last boundary's contents, which, entry by entry,
  are the normalised output and the attention weights of the argument arrays. The idealized reference's run ends with
  its results at the host operations' composed terms, which are the same two functions. Here both runs are restated
  with those functions in their posts.
-/
import proofs.«132381_j65798898974762_2_alg».proof.Proof.RunValue
import proofs.«132381_j65798898974762_2_alg».proof.Proof.KernelValue
import proofs.«132381_j65798898974762_2_alg».proof.Proof.RefOut
import proofs.«132381_j65798898974762_2_alg».proof.Proof.Gen.ReferenceIdeal.Run
import proofs.«132381_j65798898974762_2_alg».proof.Proof.Gen.ReferenceIdeal.Read

set_option maxRecDepth 16384

noncomputable section

namespace Cert.Mha

open Idealize.ShloMosaic Idealize.ShloMosaic.ValueIdx

/-- The normalised output as an array. -/
def Yof (x0 x1 x2 : (⟨3, ![4, 2048, 1024]⟩ : Shape).Idx → EReal) (x3 : (⟨2, ![1024, 1024]⟩ : Shape).Idx → EReal) (x4 : (⟨1, ![1024]⟩ : Shape).Idx → EReal) (x5 : (⟨2, ![1024, 1024]⟩ : Shape).Idx → EReal) (x6 : (⟨1, ![1024]⟩ : Shape).Idx → EReal) (x7 : (⟨2, ![1024, 1024]⟩ : Shape).Idx → EReal) (x8 : (⟨1, ![1024]⟩ : Shape).Idx → EReal)
    (x9 : (⟨2, ![1024, 1024]⟩ : Shape).Idx → EReal) (x10 x11 x12 : (⟨1, ![1024]⟩ : Shape).Idx → EReal) : (⟨3, ![4, 2048, 1024]⟩ : Shape).Idx → EReal :=
  fun i => outY x0 x1 x2 x3 x4 x5 x6 x7 x8 x9 x10 x11 x12 (i 0) (i 1) (i 2)

/-- The attention weights as an array. -/
def Wof (x0 x1 : (⟨3, ![4, 2048, 1024]⟩ : Shape).Idx → EReal) (x3 : (⟨2, ![1024, 1024]⟩ : Shape).Idx → EReal) (x4 : (⟨1, ![1024]⟩ : Shape).Idx → EReal) (x5 : (⟨2, ![1024, 1024]⟩ : Shape).Idx → EReal) (x6 : (⟨1, ![1024]⟩ : Shape).Idx → EReal) :
    (⟨4, ![4, 16, 2048, 2048]⟩ : Shape).Idx → EReal :=
  fun i => outW x0 x1 x3 x4 x5 x6 (i 0) (i 1) (i 2) (i 3)

end Cert.Mha

namespace Cert.Proof.Runs

open Idealize.ShloMosaic Idealize.ShloMosaic.TcCoe Idealize.ShloMosaic.ValueIdx Idealize.SL.Sem
open Cert.KernelIdeal.KernelValue (Lin0 Lin1 Lin2 AttnW AttnO Norm)

/-- The idealized kernel's run: the results at the two functions of its argument arrays, the arguments unchanged. -/
theorem kernel_run (h0 : Lin0) (h1 : Lin1) (h2 : Lin2) (hw : AttnW) (ho : AttnO) (hn : Norm)
    (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v22) = Cert.Mha.Yof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_v16_1) = Cert.Mha.Wof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run Cert.KernelIdeal.defs _ _).mono (fun r h c =>
    ⟨(h c).1.trans (funext fun i => by
        obtain ⟨b, s, e, rfl⟩ : ∃ (b : Fin 4) (s : Fin 2048) (e : Fin 1024), i = ix3 b s e := ⟨i 0, i 1, i 2, eq_ix3 i⟩
        exact Cert.KernelIdeal.KernelValue.out_at m ρ h0 h1 h2 ho hn c b s e),
     (h c).2.1.trans (funext fun i => by
        obtain ⟨b, hd, s, t, rfl⟩ : ∃ (b : Fin 4) (hd : Fin 16) (s t : Fin 2048), i = ix4 b hd s t := ⟨i 0, i 1, i 2, i 3, eq_ix4 i⟩
        exact Cert.KernelIdeal.KernelValue.weights_at m ρ h0 h1 hw c b hd s t),
     (h c).2.2⟩)
    (Cert.KernelIdeal.RunValue.run_results (F := Ideal) m ρ)

/-- The idealized reference's run: the results at the same two functions of its argument arrays. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v63) = Cert.Mha.Yof (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_v31) = Cert.Mha.Wof (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) :=
  (θ_run Cert.ReferenceIdeal.defs _ _).mono (fun r h c =>
    ⟨((h c).1.trans (Cert.ReferenceIdeal.Read.val_main_v63_eq (F := Ideal) m c)).trans (funext fun i => by
        obtain ⟨b, s, e, rfl⟩ : ∃ (b : Fin 4) (s : Fin 2048) (e : Fin 1024), i = ix3 b s e := ⟨i 0, i 1, i 2, eq_ix3 i⟩
        exact Cert.ReferenceIdeal.RefValue.out_at _ _ _ _ _ _ _ _ _ _ _ _ _ b s e),
     ((h c).2.1.trans (Cert.ReferenceIdeal.Read.val_main_v31_eq (F := Ideal) m c)).trans (funext fun i => by
        obtain ⟨b, hd, s, t, rfl⟩ : ∃ (b : Fin 4) (hd : Fin 16) (s t : Fin 2048), i = ix4 b hd s t := ⟨i 0, i 1, i 2, i 3, eq_ix4 i⟩
        exact Cert.ReferenceIdeal.RefValue.weights_at _ _ _ _ _ _ b hd s t),
     (h c).2.2⟩)
    (Cert.ReferenceIdeal.Value.run (F := Ideal) m ρ)

end Cert.Proof.Runs

end
-- ==== Proof.Lin.lean ====
/-
  One 512-row tile of an affine layer as the vector operations compute it, read at an index, over the extended reals.

  The tile's rows x (512 × 1024) go through a change of float format (the identity on extended reals), are multiplied
  with the 1024 × 1024 weights into the zero accumulator, the bias row [1, 1024] is spread over the 512 rows and added,
  and the sum changes format once more. At (p, e) that is Σ_k x(p, k) · w(k, e) + bias(0, e): the affine row of row p.
-/
import proofs.«132381_j65798898974762_2_alg».proof.KernelIdeal
import proofs.«132381_j65798898974762_2_alg».proof.Proof.LibPlainDot
import proofs.«132381_j65798898974762_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.LinValue

open Cert.KernelIdeal Idealize.ShloMosaic Idealize.ShloMosaic.ValueIdx

/-- The tile at (p, e), for any plain 512 × 1024 · 1024 × 1024 product record and any witnesses of the side conditions. -/
theorem tile_apply (D : DotDims S512x1024 S1024x1024 S512x1024) (hD : D = DotDims.plain 512 1024 1024)
    (x0 : FVec Ideal S512x1024 .f32) (x1 : FVec Ideal S1024x1024 .bf16) (x2 : FVec Ideal S1x1024 .f32)
    (h0 : S512x1024.ShapeCasts S512x1024) (h1 : S1024x1024.ShapeCasts S1024x1024) (h2 : S1x1024.ShapeCasts S1x1024)
    (hb : FTy.bf16.bits < FTy.f32.bits) (hbc : S1x1024.Broadcasts S512x1024) (p : Fin 512) (e : Fin 1024) :
    (truncf .bf16 (addf (matmul D none (truncf .bf16 (shapeCast S512x1024 x0 h0) hb) (shapeCast S1024x1024 x1 h1)
        (constant S512x1024 .f32 0x00000000#32)) (broadcastTo S512x1024 (shapeCast S1x1024 x2 h2) hbc)) hb
      : FVec Ideal S512x1024 .bf16) (ix2 p e)
      = Cert.Mha.affine (fun k => x0 (ix2 p k)) (fun k e' => x1 (ix2 k e')) (fun e' => x2 (ix2 (0 : Fin 1) e')) e := by
  subst hD
  rw [shapeCast_self, shapeCast_self, shapeCast_self]
  show FloatOps.matmul (DotDims.plain 512 1024 1024) none (truncf .bf16 x0 hb) x1 (constant S512x1024 .f32 0x00000000#32) (ix2 p e)
      + broadcastTo S512x1024 x2 hbc (ix2 p e) = _
  rw [broadcastTo_1b_ab_apply x2 hbc p e]
  exact congrArg (· + x2 (ix2 (0 : Fin 1) e)) (PlainDot.matmul_zero_apply none (truncf .bf16 x0 hb) x1 p e)

end Cert.KernelIdeal.LinValue

end
-- ==== Proof.LinBlocks0.lean ====
/-
  Region 0: one affine layer computed tile by tile, read back as one array, over the extended reals.

  The activations [8192, 1024] are cut into 16 tiles of 512 rows; at point t the body sees rows 512·t … 512·t + 511,
  the whole weights and the whole bias row, and writes the tile's affine rows to rows 512·t … 512·t + 511 of the
  output. A row r lies in tile r / 512, so every row is written, and entry (r, e) of the output is
  Σ_k x (r, k) · w (k, e) + bias (0, e).
-/
import proofs.«132381_j65798898974762_2_alg».proof.Proof.Gen.KernelIdeal.Frame
import proofs.«132381_j65798898974762_2_alg».proof.Proof.Lin
import Idealize.ShloMosaic.Lib.Pipeline.Value
import Idealize.ShloMosaic.Lib.ValueIdx

set_option maxRecDepth 16384

noncomputable section

open scoped BigOperators

namespace Cert.KernelIdeal.LinBlocks0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The affine row r of the arrays at column e. -/
def lin (A0 : S8192x1024.Idx → EReal) (A1 : S1024x1024.Idx → EReal) (A2 : S1x1024.Idx → EReal) (r : Fin 8192)
    (e : Fin 1024) : EReal :=
  Cert.Mha.affine (fun k => A0 (ix2 r k)) (fun k e' => A1 (ix2 k e')) (fun e' => A2 (ix2 (0 : Fin 1) e')) e

/-- The whole output as one function of its index. -/
def whole (A0 : S8192x1024.Idx → EReal) (A1 : S1024x1024.Idx → EReal) (A2 : S1x1024.Idx → EReal) :
    S8192x1024.Idx → EReal :=
  fun i => lin A0 A1 A2 ⟨(i 0).val, (i 0).isLt⟩ ⟨(i 1).val, (i 1).isLt⟩

theorem zero_offsets : (![0, 0] : Fin 2 → Nat) = fun _ => 0 := funext fun a => by fin_cases a <;> rfl

/-- The block indices over the 16 points: the activations' and the output's tile is the point's own number, the
    weights and the bias are whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 16 :=
  (by decide +kernel : ∀ t : Fin grid0.N, _)

/-- What point t writes back is tile t of the whole output. -/
theorem flushed_eq (c : Dev nD) (t : Fin cfg0.N) :
    (dat0 (F := Ideal) V c).flushed 3 t = ((cfg0.win 3).blk t).view.read (Elt Ideal)
      (whole (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S512x1024) zero_offsets, View.ld_unit_zero (S := S1024x1024) zero_offsets,
    View.ld_unit_zero (S := S1x1024) zero_offsets]
  obtain ⟨e0, e1, e2, e3, e4, e5, e6, e7, ht⟩ := idx_facts t
  refine funext fun (j : S512x1024.Idx) => ?_
  obtain ⟨p, q, rfl⟩ : ∃ (p : Fin 512) (q : Fin 1024), j = ix2 p q := ⟨j 0, j 1, eq_ix2 j⟩
  have hp := p.isLt
  have hq := q.isLt
  show k0_pay1 (F := Ideal) (iblk0 V c 0 t) (iblk0 V c 1 t) (iblk0 V c 2 t) (ix2 p q)
      = whole (V c (Pipeline.arrRef spec0 0)) (V c (Pipeline.arrRef spec0 1)) (V c (Pipeline.arrRef spec0 2))
          (((cfg0.win 3).blk t).view.emb (ix2 p q))
  refine (LinValue.tile_apply dot_S512x1024_S1024x1024_S512x1024_1_0_0_1_n_n rfl (iblk0 V c 0 t) (iblk0 V c 1 t)
    (iblk0 V c 2 t) _ _ _ _ _ p q).trans ?_
  have hrow : t.val * 512 + p.val < 8192 := by omega
  have h3 : ((cfg0.win 3).blk t).view.emb (ix2 p q) = ix2 (⟨t.val * 512 + p.val, hrow⟩ : Fin 8192) q := by
    funext a; apply Fin.ext
    match a with
    | ⟨0, _⟩ => show win0_3.index t (0 : Fin 2) * 512 + 1 * p.val = t.val * 512 + p.val; omega
    | ⟨1, _⟩ => show win0_3.index t (1 : Fin 2) * 1024 + 1 * q.val = q.val; omega
  have h0 : ∀ k : Fin 1024, ((cfg0.win 0).blk t).view.emb (ix2 p k) = ix2 (⟨t.val * 512 + p.val, hrow⟩ : Fin 8192) k := by
    intro k; have hk := k.isLt
    funext a; apply Fin.ext
    match a with
    | ⟨0, _⟩ => show win0_0.index t (0 : Fin 2) * 512 + 1 * p.val = t.val * 512 + p.val; omega
    | ⟨1, _⟩ => show win0_0.index t (1 : Fin 2) * 1024 + 1 * k.val = k.val; omega
  have h1 : ∀ (k : Fin 1024) (e' : Fin 1024), ((cfg0.win 1).blk t).view.emb (ix2 k e') = ix2 k e' := by
    intro k e'
    funext a; apply Fin.ext
    match a with
    | ⟨0, _⟩ => show win0_1.index t (0 : Fin 2) * 1024 + 1 * k.val = k.val; omega
    | ⟨1, _⟩ => show win0_1.index t (1 : Fin 2) * 1024 + 1 * e'.val = e'.val; omega
  have h2 : ∀ e' : Fin 1024, ((cfg0.win 2).blk t).view.emb (ix2 (0 : Fin 1) e') = ix2 (0 : Fin 1) e' := by
    intro e'
    funext a; apply Fin.ext
    match a with
    | ⟨0, _⟩ => show win0_2.index t (0 : Fin 2) * 1 + 1 * 0 = 0; omega
    | ⟨1, _⟩ => show win0_2.index t (1 : Fin 2) * 1024 + 1 * e'.val = e'.val; omega
  rw [h3]
  show Cert.Mha.affine (fun k => V c (Pipeline.arrRef spec0 0) (((cfg0.win 0).blk t).view.emb (ix2 p k)))
      (fun k e' => V c (Pipeline.arrRef spec0 1) (((cfg0.win 1).blk t).view.emb (ix2 k e')))
      (fun e' => V c (Pipeline.arrRef spec0 2) (((cfg0.win 2).blk t).view.emb (ix2 (0 : Fin 1) e'))) q
    = lin (V c (Pipeline.arrRef spec0 0)) (V c (Pipeline.arrRef spec0 1)) (V c (Pipeline.arrRef spec0 2))
        (⟨t.val * 512 + p.val, hrow⟩ : Fin 8192) q
  simp only [h0, h1, h2]
  rfl

/-- An index of the output is in point t's tile iff each coordinate is in the tile's range on its axis. -/
theorem mem_blk (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v8).slice (win0_3.rect t)).set ↔ _
  rw [View.set_slice_whole, Rect.mem_set_unit]
  exact Iff.rfl

/-- Row r lies in tile r / 512: every index of the output is written back by some point. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, tv⟩ : ∃ t : Fin cfg0.N, t.val = (i 0).val / 512 :=
    ⟨⟨(i 0).val / 512, by show (i 0).val / 512 < grid0.N; rw [N_0]; omega⟩, rfl⟩
  obtain ⟨-, -, -, -, -, -, e6, e7, -⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- The output array after the region, entry (r, e): the affine row r of the arrays the region found, at column e. -/
theorem out_at (c : Dev nD) (r : Fin 8192) (e : Fin 1024) :
    (dat0 (F := Ideal) V c).arrAt 3 cfg0.N (ix2 r e)
      = Cert.Mha.affine (fun k => V c (Pipeline.arrRef spec0 0) (ix2 r k))
          (fun k e' => V c (Pipeline.arrRef spec0 1) (ix2 k e'))
          (fun e' => V c (Pipeline.arrRef spec0 2) (ix2 (0 : Fin 1) e')) e := by
  rw [(dat0 (F := Ideal) V c).arrAt_eq_of_cover 3
    (whole (V c (Pipeline.arrRef spec0 0)) (V c (Pipeline.arrRef spec0 1)) (V c (Pipeline.arrRef spec0 2)))
    (fun t _ => flushed_eq V c t) cover]
  rfl

end Cert.KernelIdeal.LinBlocks0

end
-- ==== Proof.LinBlocks1.lean ====
/-
  Region 1: one affine layer computed tile by tile, read back as one array, over the extended reals.

  The activations [8192, 1024] are cut into 16 tiles of 512 rows; at point t the body sees rows 512·t … 512·t + 511,
  the whole weights and the whole bias row, and writes the tile's affine rows to rows 512·t … 512·t + 511 of the
  output. A row r lies in tile r / 512, so every row is written, and entry (r, e) of the output is
  Σ_k x (r, k) · w (k, e) + bias (0, e).
-/
import proofs.«132381_j65798898974762_2_alg».proof.Proof.Gen.KernelIdeal.Frame
import proofs.«132381_j65798898974762_2_alg».proof.Proof.Lin
import Idealize.ShloMosaic.Lib.Pipeline.Value
import Idealize.ShloMosaic.Lib.ValueIdx

set_option maxRecDepth 16384

noncomputable section

open scoped BigOperators

namespace Cert.KernelIdeal.LinBlocks1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The affine row r of the arrays at column e. -/
def lin (A0 : S8192x1024.Idx → EReal) (A1 : S1024x1024.Idx → EReal) (A2 : S1x1024.Idx → EReal) (r : Fin 8192)
    (e : Fin 1024) : EReal :=
  Cert.Mha.affine (fun k => A0 (ix2 r k)) (fun k e' => A1 (ix2 k e')) (fun e' => A2 (ix2 (0 : Fin 1) e')) e

/-- The whole output as one function of its index. -/
def whole (A0 : S8192x1024.Idx → EReal) (A1 : S1024x1024.Idx → EReal) (A2 : S1x1024.Idx → EReal) :
    S8192x1024.Idx → EReal :=
  fun i => lin A0 A1 A2 ⟨(i 0).val, (i 0).isLt⟩ ⟨(i 1).val, (i 1).isLt⟩

theorem zero_offsets : (![0, 0] : Fin 2 → Nat) = fun _ => 0 := funext fun a => by fin_cases a <;> rfl

/-- The block indices over the 16 points: the activations' and the output's tile is the point's own number, the
    weights and the bias are whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 16 :=
  (by decide +kernel : ∀ t : Fin grid1.N, _)

/-- What point t writes back is tile t of the whole output. -/
theorem flushed_eq (c : Dev nD) (t : Fin cfg1.N) :
    (dat1 (F := Ideal) V c).flushed 3 t = ((cfg1.win 3).blk t).view.read (Elt Ideal)
      (whole (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_offsets]
  simp only [View.ld_unit_zero (S := S512x1024) zero_offsets, View.ld_unit_zero (S := S1024x1024) zero_offsets,
    View.ld_unit_zero (S := S1x1024) zero_offsets]
  obtain ⟨e0, e1, e2, e3, e4, e5, e6, e7, ht⟩ := idx_facts t
  refine funext fun (j : S512x1024.Idx) => ?_
  obtain ⟨p, q, rfl⟩ : ∃ (p : Fin 512) (q : Fin 1024), j = ix2 p q := ⟨j 0, j 1, eq_ix2 j⟩
  have hp := p.isLt
  have hq := q.isLt
  show k1_pay1 (F := Ideal) (iblk1 V c 0 t) (iblk1 V c 1 t) (iblk1 V c 2 t) (ix2 p q)
      = whole (V c (Pipeline.arrRef spec1 0)) (V c (Pipeline.arrRef spec1 1)) (V c (Pipeline.arrRef spec1 2))
          (((cfg1.win 3).blk t).view.emb (ix2 p q))
  refine (LinValue.tile_apply dot_S512x1024_S1024x1024_S512x1024_1_0_0_1_n_n rfl (iblk1 V c 0 t) (iblk1 V c 1 t)
    (iblk1 V c 2 t) _ _ _ _ _ p q).trans ?_
  have hrow : t.val * 512 + p.val < 8192 := by omega
  have h3 : ((cfg1.win 3).blk t).view.emb (ix2 p q) = ix2 (⟨t.val * 512 + p.val, hrow⟩ : Fin 8192) q := by
    funext a; apply Fin.ext
    match a with
    | ⟨0, _⟩ => show win1_3.index t (0 : Fin 2) * 512 + 1 * p.val = t.val * 512 + p.val; omega
    | ⟨1, _⟩ => show win1_3.index t (1 : Fin 2) * 1024 + 1 * q.val = q.val; omega
  have h0 : ∀ k : Fin 1024, ((cfg1.win 0).blk t).view.emb (ix2 p k) = ix2 (⟨t.val * 512 + p.val, hrow⟩ : Fin 8192) k := by
    intro k; have hk := k.isLt
    funext a; apply Fin.ext
    match a with
    | ⟨0, _⟩ => show win1_0.index t (0 : Fin 2) * 512 + 1 * p.val = t.val * 512 + p.val; omega
    | ⟨1, _⟩ => show win1_0.index t (1 : Fin 2) * 1024 + 1 * k.val = k.val; omega
  have h1 : ∀ (k : Fin 1024) (e' : Fin 1024), ((cfg1.win 1).blk t).view.emb (ix2 k e') = ix2 k e' := by
    intro k e'
    funext a; apply Fin.ext
    match a with
    | ⟨0, _⟩ => show win1_1.index t (0 : Fin 2) * 1024 + 1 * k.val = k.val; omega
    | ⟨1, _⟩ => show win1_1.index t (1 : Fin 2) * 1024 + 1 * e'.val = e'.val; omega
  have h2 : ∀ e' : Fin 1024, ((cfg1.win 2).blk t).view.emb (ix2 (0 : Fin 1) e') = ix2 (0 : Fin 1) e' := by
    intro e'
    funext a; apply Fin.ext
    match a with
    | ⟨0, _⟩ => show win1_2.index t (0 : Fin 2) * 1 + 1 * 0 = 0; omega
    | ⟨1, _⟩ => show win1_2.index t (1 : Fin 2) * 1024 + 1 * e'.val = e'.val; omega
  rw [h3]
  show Cert.Mha.affine (fun k => V c (Pipeline.arrRef spec1 0) (((cfg1.win 0).blk t).view.emb (ix2 p k)))
      (fun k e' => V c (Pipeline.arrRef spec1 1) (((cfg1.win 1).blk t).view.emb (ix2 k e')))
      (fun e' => V c (Pipeline.arrRef spec1 2) (((cfg1.win 2).blk t).view.emb (ix2 (0 : Fin 1) e'))) q
    = lin (V c (Pipeline.arrRef spec1 0)) (V c (Pipeline.arrRef spec1 1)) (V c (Pipeline.arrRef spec1 2))
        (⟨t.val * 512 + p.val, hrow⟩ : Fin 8192) q
  simp only [h0, h1, h2]
  rfl

/-- An index of the output is in point t's tile iff each coordinate is in the tile's range on its axis. -/
theorem mem_blk (t : Fin cfg1.N) (i : S8192x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v10).slice (win1_3.rect t)).set ↔ _
  rw [View.set_slice_whole, Rect.mem_set_unit]
  exact Iff.rfl

/-- Row r lies in tile r / 512: every index of the output is written back by some point. -/
theorem cover (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, tv⟩ : ∃ t : Fin cfg1.N, t.val = (i 0).val / 512 :=
    ⟨⟨(i 0).val / 512, by show (i 0).val / 512 < grid1.N; rw [N_1]; omega⟩, rfl⟩
  obtain ⟨-, -, -, -, -, -, e6, e7, -⟩ := idx_facts t
  refine ⟨t, flush1_3 t, ?_⟩
  rw [mem_blk]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 1024 ≤ (i 1).val ∧ (i 1).val < win1_3.index t (1 : Fin 2) * 1024 + 1024
    omega

/-- The output array after the region, entry (r, e): the affine row r of the arrays the region found, at column e. -/
theorem out_at (c : Dev nD) (r : Fin 8192) (e : Fin 1024) :
    (dat1 (F := Ideal) V c).arrAt 3 cfg1.N (ix2 r e)
      = Cert.Mha.affine (fun k => V c (Pipeline.arrRef spec1 0) (ix2 r k))
          (fun k e' => V c (Pipeline.arrRef spec1 1) (ix2 k e'))
          (fun e' => V c (Pipeline.arrRef spec1 2) (ix2 (0 : Fin 1) e')) e := by
  rw [(dat1 (F := Ideal) V c).arrAt_eq_of_cover 3
    (whole (V c (Pipeline.arrRef spec1 0)) (V c (Pipeline.arrRef spec1 1)) (V c (Pipeline.arrRef spec1 2)))
    (fun t _ => flushed_eq V c t) cover]
  rfl

end Cert.KernelIdeal.LinBlocks1

end
-- ==== Proof.LinBlocks2.lean ====
/-
  Region 2: one affine layer computed tile by tile, read back as one array, over the extended reals.

  The activations [8192, 1024] are cut into 16 tiles of 512 rows; at point t the body sees rows 512·t … 512·t + 511,
  the whole weights and the whole bias row, and writes the tile's affine rows to rows 512·t … 512·t + 511 of the
  output. A row r lies in tile r / 512, so every row is written, and entry (r, e) of the output is
  Σ_k x (r, k) · w (k, e) + bias (0, e).
-/
import proofs.«132381_j65798898974762_2_alg».proof.Proof.Gen.KernelIdeal.Frame
import proofs.«132381_j65798898974762_2_alg».proof.Proof.Lin
import Idealize.ShloMosaic.Lib.Pipeline.Value
import Idealize.ShloMosaic.Lib.ValueIdx

set_option maxRecDepth 16384

noncomputable section

open scoped BigOperators

namespace Cert.KernelIdeal.LinBlocks2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The affine row r of the arrays at column e. -/
def lin (A0 : S8192x1024.Idx → EReal) (A1 : S1024x1024.Idx → EReal) (A2 : S1x1024.Idx → EReal) (r : Fin 8192)
    (e : Fin 1024) : EReal :=
  Cert.Mha.affine (fun k => A0 (ix2 r k)) (fun k e' => A1 (ix2 k e')) (fun e' => A2 (ix2 (0 : Fin 1) e')) e

/-- The whole output as one function of its index. -/
def whole (A0 : S8192x1024.Idx → EReal) (A1 : S1024x1024.Idx → EReal) (A2 : S1x1024.Idx → EReal) :
    S8192x1024.Idx → EReal :=
  fun i => lin A0 A1 A2 ⟨(i 0).val, (i 0).isLt⟩ ⟨(i 1).val, (i 1).isLt⟩

theorem zero_offsets : (![0, 0] : Fin 2 → Nat) = fun _ => 0 := funext fun a => by fin_cases a <;> rfl

/-- The block indices over the 16 points: the activations' and the output's tile is the point's own number, the
    weights and the bias are whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 16 :=
  (by decide +kernel : ∀ t : Fin grid2.N, _)

/-- What point t writes back is tile t of the whole output. -/
theorem flushed_eq (c : Dev nD) (t : Fin cfg2.N) :
    (dat2 (F := Ideal) V c).flushed 3 t = ((cfg2.win 3).blk t).view.read (Elt Ideal)
      (whole (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_offsets]
  simp only [View.ld_unit_zero (S := S512x1024) zero_offsets, View.ld_unit_zero (S := S1024x1024) zero_offsets,
    View.ld_unit_zero (S := S1x1024) zero_offsets]
  obtain ⟨e0, e1, e2, e3, e4, e5, e6, e7, ht⟩ := idx_facts t
  refine funext fun (j : S512x1024.Idx) => ?_
  obtain ⟨p, q, rfl⟩ : ∃ (p : Fin 512) (q : Fin 1024), j = ix2 p q := ⟨j 0, j 1, eq_ix2 j⟩
  have hp := p.isLt
  have hq := q.isLt
  show k2_pay1 (F := Ideal) (iblk2 V c 0 t) (iblk2 V c 1 t) (iblk2 V c 2 t) (ix2 p q)
      = whole (V c (Pipeline.arrRef spec2 0)) (V c (Pipeline.arrRef spec2 1)) (V c (Pipeline.arrRef spec2 2))
          (((cfg2.win 3).blk t).view.emb (ix2 p q))
  refine (LinValue.tile_apply dot_S512x1024_S1024x1024_S512x1024_1_0_0_1_n_n rfl (iblk2 V c 0 t) (iblk2 V c 1 t)
    (iblk2 V c 2 t) _ _ _ _ _ p q).trans ?_
  have hrow : t.val * 512 + p.val < 8192 := by omega
  have h3 : ((cfg2.win 3).blk t).view.emb (ix2 p q) = ix2 (⟨t.val * 512 + p.val, hrow⟩ : Fin 8192) q := by
    funext a; apply Fin.ext
    match a with
    | ⟨0, _⟩ => show win2_3.index t (0 : Fin 2) * 512 + 1 * p.val = t.val * 512 + p.val; omega
    | ⟨1, _⟩ => show win2_3.index t (1 : Fin 2) * 1024 + 1 * q.val = q.val; omega
  have h0 : ∀ k : Fin 1024, ((cfg2.win 0).blk t).view.emb (ix2 p k) = ix2 (⟨t.val * 512 + p.val, hrow⟩ : Fin 8192) k := by
    intro k; have hk := k.isLt
    funext a; apply Fin.ext
    match a with
    | ⟨0, _⟩ => show win2_0.index t (0 : Fin 2) * 512 + 1 * p.val = t.val * 512 + p.val; omega
    | ⟨1, _⟩ => show win2_0.index t (1 : Fin 2) * 1024 + 1 * k.val = k.val; omega
  have h1 : ∀ (k : Fin 1024) (e' : Fin 1024), ((cfg2.win 1).blk t).view.emb (ix2 k e') = ix2 k e' := by
    intro k e'
    funext a; apply Fin.ext
    match a with
    | ⟨0, _⟩ => show win2_1.index t (0 : Fin 2) * 1024 + 1 * k.val = k.val; omega
    | ⟨1, _⟩ => show win2_1.index t (1 : Fin 2) * 1024 + 1 * e'.val = e'.val; omega
  have h2 : ∀ e' : Fin 1024, ((cfg2.win 2).blk t).view.emb (ix2 (0 : Fin 1) e') = ix2 (0 : Fin 1) e' := by
    intro e'
    funext a; apply Fin.ext
    match a with
    | ⟨0, _⟩ => show win2_2.index t (0 : Fin 2) * 1 + 1 * 0 = 0; omega
    | ⟨1, _⟩ => show win2_2.index t (1 : Fin 2) * 1024 + 1 * e'.val = e'.val; omega
  rw [h3]
  show Cert.Mha.affine (fun k => V c (Pipeline.arrRef spec2 0) (((cfg2.win 0).blk t).view.emb (ix2 p k)))
      (fun k e' => V c (Pipeline.arrRef spec2 1) (((cfg2.win 1).blk t).view.emb (ix2 k e')))
      (fun e' => V c (Pipeline.arrRef spec2 2) (((cfg2.win 2).blk t).view.emb (ix2 (0 : Fin 1) e'))) q
    = lin (V c (Pipeline.arrRef spec2 0)) (V c (Pipeline.arrRef spec2 1)) (V c (Pipeline.arrRef spec2 2))
        (⟨t.val * 512 + p.val, hrow⟩ : Fin 8192) q
  simp only [h0, h1, h2]
  rfl

/-- An index of the output is in point t's tile iff each coordinate is in the tile's range on its axis. -/
theorem mem_blk (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v12).slice (win2_3.rect t)).set ↔ _
  rw [View.set_slice_whole, Rect.mem_set_unit]
  exact Iff.rfl

/-- Row r lies in tile r / 512: every index of the output is written back by some point. -/
theorem cover (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, tv⟩ : ∃ t : Fin cfg2.N, t.val = (i 0).val / 512 :=
    ⟨⟨(i 0).val / 512, by show (i 0).val / 512 < grid2.N; rw [N_2]; omega⟩, rfl⟩
  obtain ⟨-, -, -, -, -, -, e6, e7, -⟩ := idx_facts t
  refine ⟨t, flush2_3 t, ?_⟩
  rw [mem_blk]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 1024 ≤ (i 1).val ∧ (i 1).val < win2_3.index t (1 : Fin 2) * 1024 + 1024
    omega

/-- The output array after the region, entry (r, e): the affine row r of the arrays the region found, at column e. -/
theorem out_at (c : Dev nD) (r : Fin 8192) (e : Fin 1024) :
    (dat2 (F := Ideal) V c).arrAt 3 cfg2.N (ix2 r e)
      = Cert.Mha.affine (fun k => V c (Pipeline.arrRef spec2 0) (ix2 r k))
          (fun k e' => V c (Pipeline.arrRef spec2 1) (ix2 k e'))
          (fun e' => V c (Pipeline.arrRef spec2 2) (ix2 (0 : Fin 1) e')) e := by
  rw [(dat2 (F := Ideal) V c).arrAt_eq_of_cover 3
    (whole (V c (Pipeline.arrRef spec2 0)) (V c (Pipeline.arrRef spec2 1)) (V c (Pipeline.arrRef spec2 2)))
    (fun t _ => flushed_eq V c t) cover]
  rfl

end Cert.KernelIdeal.LinBlocks2

end
-- ==== Proof.AttnBlock.lean ====
/-
  The arithmetic of one attention block, read at an index over the extended reals.

  A grid point of the attention kernel loads a block of 512 query rows, a block of all 2048 key rows and a block of
  all 2048 value rows, each 128 columns wide: the 64 lanes of two neighbouring heads, half 0 in columns 0–63 and half 1
  in columns 64–127. For a half hh the score of query row p against key row t is
  (Σ_d q(p, hh·64 + d) · k(t, hh·64 + d)) · 1/8, the weight of key row t is the softmax of those scores over t, and the
  output at lane d is Σ_t weight(t) · v(t, hh·64 + d).

  The kernel computes this with vector operations: it drops the blocks' leading unit axis, cuts the half's 64 columns
  out of each, transposes the key slice, multiplies (a product into the zero accumulator), scales, takes the row
  softmax, multiplies the weights with the value slice, and puts unit axes back in front. Each of those operations reads
  one index of its operand, the two products are sums over the contracted coordinate, and a change of float format is
  the identity; composed, the stored values at explicit coordinates are the formulas above.
-/
import proofs.«132381_j65798898974762_2_alg».proof.Proof.Gen.KernelIdeal.Skeleton
import proofs.«132381_j65798898974762_2_alg».proof.Proof.LibPlainDot
import proofs.«132381_j65798898974762_2_alg».proof.Proof.LibRowSoftmax
import Idealize.ShloMosaic.Lib.ValueIdx
import Idealize.ShloMosaic.Lib.ValueLayout
import Idealize.ShloMosaic.Lib.Pipeline.Value

noncomputable section

open scoped BigOperators

namespace Cert.KernelIdeal.AttnValue

open Idealize.ShloMosaic Idealize.ShloMosaic.ValueIdx Cert.KernelIdeal Cert.KernelIdeal.Gen

/-- Lane d of half hh of a 128-column block is column hh·64 + d. -/
def lane (hh : Fin 2) (d : Fin 64) : Fin 128 := ⟨hh.val * 64 + d.val, by have := hh.isLt; have := d.isLt; omega⟩

theorem lane_val (hh : Fin 2) (d : Fin 64) : (lane hh d).val = hh.val * 64 + d.val := rfl

/-- The scaled score of query row p against key row t in half hh of a block. -/
def blkScore (x0 : S1x512x128.Idx → EReal) (x1 : S1x2048x128.Idx → EReal) (hh : Fin 2) (p : Fin 512) (t : Fin 2048) : EReal :=
  (∑ d : Fin 64, x0 (ix3 (0 : Fin 1) p (lane hh d)) * x1 (ix3 (0 : Fin 1) t (lane hh d))) * Ideal.ofBits .f32 0x3E000000#32

/-- The attention weight of key row j for query row p in half hh of a block. -/
def blkW (x0 : S1x512x128.Idx → EReal) (x1 : S1x2048x128.Idx → EReal) (hh : Fin 2) (p : Fin 512) (j : Fin 2048) : EReal :=
  RowSoftmax.weight 0xFF800000#32 (fun t => blkScore x0 x1 hh p t) j

/-- The attention output of query row p at lane d of half hh of a block. -/
def blkO (x0 : S1x512x128.Idx → EReal) (x1 x2 : S1x2048x128.Idx → EReal) (hh : Fin 2) (p : Fin 512) (d : Fin 64) : EReal :=
  ∑ t : Fin 2048, blkW x0 x1 hh p t * x2 (ix3 (0 : Fin 1) t (lane hh d))

theorem blkW_congr (x0 : S1x512x128.Idx → EReal) (x1 : S1x2048x128.Idx → EReal) {a a' : Fin 2} {p p' : Fin 512}
    {j j' : Fin 2048} (ha : a.val = a'.val) (hp : p.val = p'.val) (hj : j.val = j'.val) :
    blkW x0 x1 a p j = blkW x0 x1 a' p' j' := by
  obtain rfl := Fin.ext ha; obtain rfl := Fin.ext hp; obtain rfl := Fin.ext hj; rfl

theorem blkO_congr (x0 : S1x512x128.Idx → EReal) (x1 x2 : S1x2048x128.Idx → EReal) {a a' : Fin 2} {p p' : Fin 512}
    {d d' : Fin 64} (ha : a.val = a'.val) (hp : p.val = p'.val) (hd : d.val = d'.val) :
    blkO x0 x1 x2 a p d = blkO x0 x1 x2 a' p' d' := by
  obtain rfl := Fin.ext ha; obtain rfl := Fin.ext hp; obtain rfl := Fin.ext hd; rfl

/-! ## The three slices -/

/-- The query block without its unit axis, cut to the 64 columns from o = hh·64, at (p, d): the block at (0, p, hh·64 + d). -/
theorem qslice_apply (x0 : Vec Ideal S1x512x128 .bf16) (o : Nat) (h : S512x128.Slices ![0, o] S512x64) (hh : Fin 2)
    (ho : o = hh.val * 64) (p : Fin 512) (d : Fin 64) :
    extractStridedSlice S512x64 ![0, o] (k3_pay4 x0) h (ix2 p d) = x0 (ix3 (0 : Fin 1) p (lane hh d)) :=
  (slice2_axis1_apply o (k3_pay4 x0) h p d (lane hh d) (by rw [lane_val, ho])).trans
    (shapeCast_1ab_ab_apply x0 shapeCasts_S1x512x128_S512x128 p (lane hh d))

/-- The key block without its unit axis, cut to the same 64 columns and transposed, at (d, t): the block at (0, t, hh·64 + d). -/
theorem kslice_apply (x1 : Vec Ideal S1x2048x128 .bf16) (o : Nat) (h : S2048x128.Slices ![0, o] S2048x64) (hh : Fin 2)
    (ho : o = hh.val * 64) (d : Fin 64) (t : Fin 2048) :
    transpose S64x2048 [1, 0] (extractStridedSlice S2048x64 ![0, o] (k3_pay5 x1) h) transposes_S2048x64_p1_0_S64x2048 (ix2 d t)
      = x1 (ix3 (0 : Fin 1) t (lane hh d)) := by
  have e1 : transpose S64x2048 [1, 0] (extractStridedSlice S2048x64 ![0, o] (k3_pay5 x1) h) transposes_S2048x64_p1_0_S64x2048
      (ix2 d t) = (extractStridedSlice S2048x64 ![0, o] (k3_pay5 x1) h) (ix2 t d) :=
    transpose_ix2_apply (a := 2048) (b := 64) _ transposes_S2048x64_p1_0_S64x2048 d t
  have e2 : (extractStridedSlice S2048x64 ![0, o] (k3_pay5 x1) h) (ix2 t d) = k3_pay5 x1 (ix2 t (lane hh d)) :=
    slice2_axis1_apply (n0 := 2048) (n1 := 128) (m := 64) o (k3_pay5 x1) h t d (lane hh d) (by rw [lane_val, ho])
  have e3 : k3_pay5 x1 (ix2 t (lane hh d)) = x1 (ix3 (0 : Fin 1) t (lane hh d)) :=
    shapeCast_1ab_ab_apply (a := 2048) (b := 128) x1 shapeCasts_S1x2048x128_S2048x128 t (lane hh d)
  exact e1.trans (e2.trans e3)

/-- The value block without its unit axis, cut to the same 64 columns, at (t, d): the block at (0, t, hh·64 + d). -/
theorem vslice_apply (x2 : Vec Ideal S1x2048x128 .bf16) (o : Nat) (h : S2048x128.Slices ![0, o] S2048x64) (hh : Fin 2)
    (ho : o = hh.val * 64) (t : Fin 2048) (d : Fin 64) :
    extractStridedSlice S2048x64 ![0, o] (k3_pay6 x2) h (ix2 t d) = x2 (ix3 (0 : Fin 1) t (lane hh d)) :=
  (slice2_axis1_apply o (k3_pay6 x2) h t d (lane hh d) (by rw [lane_val, ho])).trans
    (shapeCast_1ab_ab_apply x2 shapeCasts_S1x2048x128_S2048x128 t (lane hh d))

/-! ## The weights of a query slice against a transposed key slice -/

/-- The softmax weights of a 512 × 64 query slice against a 64 × 2048 transposed key slice, by coordinates. -/
def sliceW (q : FVec Ideal S512x64 .bf16) (kT : FVec Ideal S64x2048 .bf16) (p : Fin 512) (j : Fin 2048) : EReal :=
  RowSoftmax.weight 0xFF800000#32
    (fun t => (∑ d : Fin 64, q (ix2 p d) * kT (ix2 d t)) * Ideal.ofBits .f32 0x3E000000#32) j

/-- The product, the scaling and the row softmax of the body, at (p, j). -/
theorem pay1_apply (q : FVec Ideal S512x64 .bf16) (kT : FVec Ideal S64x2048 .bf16) (p : Fin 512) (j : Fin 2048) :
    k3_pay1 q kT (ix2 p j) = sliceW q kT p j := by
  refine (RowSoftmax.softmaxVec_apply (a := 512) (b := 2048)
    (mulf (matmul dot_S512x64_S64x2048_S512x2048_1_0_0_1_n_n none q kT (constant S512x2048 .f32 0x00000000#32))
      (broadcast S512x2048 (Scalar.ofBits .f32 0x3E000000#32)))
    0xFF800000#32 0x00000000#32 reduces_S512x2048_S512 (.inl rfl) rfl rfl shapeCasts_S512_S512x1
    broadcasts_S512x1_S512x2048 p j).trans ?_
  unfold sliceW
  refine congrArg (fun s => RowSoftmax.weight 0xFF800000#32 s j) (funext fun t => ?_)
  exact congrArg (· * Ideal.ofBits .f32 0x3E000000#32) (PlainDot.matmul_zero_apply none q kT p t)

/-- The weights of half hh of a block, from the block's slices. -/
theorem pay1_blk (x0 : Vec Ideal S1x512x128 .bf16) (x1 : Vec Ideal S1x2048x128 .bf16) (o : Nat)
    (hq : S512x128.Slices ![0, o] S512x64) (hk : S2048x128.Slices ![0, o] S2048x64) (hh : Fin 2) (ho : o = hh.val * 64)
    (p : Fin 512) (j : Fin 2048) :
    k3_pay1 (extractStridedSlice S512x64 ![0, o] (k3_pay4 x0) hq)
        (transpose S64x2048 [1, 0] (extractStridedSlice S2048x64 ![0, o] (k3_pay5 x1) hk) transposes_S2048x64_p1_0_S64x2048)
        (ix2 p j)
      = blkW x0 x1 hh p j := by
  refine (pay1_apply _ _ p j).trans ?_
  unfold sliceW blkW blkScore
  refine congrArg (fun s => RowSoftmax.weight 0xFF800000#32 s j) (funext fun t => ?_)
  refine congrArg (· * Ideal.ofBits .f32 0x3E000000#32) (Finset.sum_congr rfl fun d _ => ?_)
  exact congrArg₂ (· * ·) (qslice_apply x0 o hq hh ho p d) (kslice_apply x1 o hk hh ho d t)

/-! ## The two stored values -/

/-- A 512 × 2048 matrix with two unit axes put in front, at (0, 0, p, j), is the matrix at (p, j). -/
theorem unit2_apply {α : Type} (X : S512x2048.Idx → α) (u0 u1 : Fin 1) (p : Fin 512) (j : Fin 2048) :
    shapeCast S1x1x512x2048 X shapeCasts_S512x2048_S1x1x512x2048 (ix4 u0 u1 p j) = X (ix2 p j) :=
  shapeCast_apply X shapeCasts_S512x2048_S1x1x512x2048 (ix4 u0 u1 p j) (ix2 p j) (by
    rw [Shape.rowMajor_val_two, Shape.rowMajor_val_four]
    show p.val * 2048 + j.val = ((u0.val * 1 + u1.val) * 512 + p.val) * 2048 + j.val
    omega)

/-- The stored weights of half hh, at (0, 0, p, j). -/
theorem pay2_blk (x0 : Vec Ideal S1x512x128 .bf16) (x1 : Vec Ideal S1x2048x128 .bf16) (o : Nat)
    (hq : S512x128.Slices ![0, o] S512x64) (hk : S2048x128.Slices ![0, o] S2048x64) (hh : Fin 2) (ho : o = hh.val * 64)
    (u0 u1 : Fin 1) (p : Fin 512) (j : Fin 2048) :
    k3_pay2 (extractStridedSlice S512x64 ![0, o] (k3_pay4 x0) hq)
        (transpose S64x2048 [1, 0] (extractStridedSlice S2048x64 ![0, o] (k3_pay5 x1) hk) transposes_S2048x64_p1_0_S64x2048)
        (ix4 u0 u1 p j)
      = blkW x0 x1 hh p j :=
  (unit2_apply _ u0 u1 p j).trans (pay1_blk x0 x1 o hq hk hh ho p j)

/-- The weights times a 2048 × 64 value slice, with a unit axis put in front, at (0, p, d): Σ_t weight(p, t) · v(t, d). -/
theorem pay3_apply (q : FVec Ideal S512x64 .bf16) (v : FVec Ideal S2048x64 .bf16) (kT : FVec Ideal S64x2048 .bf16)
    (u : Fin 1) (p : Fin 512) (d : Fin 64) :
    k3_pay3 q v kT (ix3 u p d) = ∑ t : Fin 2048, k3_pay1 q kT (ix2 p t) * v (ix2 t d) :=
  (shapeCast_ab_1ab_apply
      (truncf .bf16 (matmul dot_S512x2048_S2048x64_S512x64_1_0_0_1_n_n none (truncf .bf16 (k3_pay1 q kT) bitsLt_bf16_f32) v
        (constant S512x64 .f32 0x00000000#32)) bitsLt_bf16_f32)
      shapeCasts_S512x64_S1x512x64 u p d).trans
    (PlainDot.matmul_zero_apply none (truncf .bf16 (k3_pay1 q kT) bitsLt_bf16_f32) v p d)

/-- The stored output of half hh, at (0, p, d). -/
theorem pay3_blk (x0 : Vec Ideal S1x512x128 .bf16) (x1 x2 : Vec Ideal S1x2048x128 .bf16) (o : Nat)
    (hq : S512x128.Slices ![0, o] S512x64) (hk : S2048x128.Slices ![0, o] S2048x64) (hh : Fin 2) (ho : o = hh.val * 64)
    (u : Fin 1) (p : Fin 512) (d : Fin 64) :
    k3_pay3 (extractStridedSlice S512x64 ![0, o] (k3_pay4 x0) hq) (extractStridedSlice S2048x64 ![0, o] (k3_pay6 x2) hk)
        (transpose S64x2048 [1, 0] (extractStridedSlice S2048x64 ![0, o] (k3_pay5 x1) hk) transposes_S2048x64_p1_0_S64x2048)
        (ix3 u p d)
      = blkO x0 x1 x2 hh p d := by
  refine (pay3_apply _ _ _ u p d).trans ?_
  unfold blkO
  refine Finset.sum_congr rfl fun t _ => ?_
  exact congrArg₂ (· * ·) (pay1_blk x0 x1 o hq hk hh ho p t) (vslice_apply x2 o hk hh ho t d)

/-! ## The first half's stored values are the second half's terms at offset 0 -/

/-- Half 0's stored weights are the same term as half 1's, over the slices at offset 0. -/
theorem pay8_eq (x0 : Vec Ideal S1x512x128 .bf16) (x1 : Vec Ideal S1x2048x128 .bf16) :
    k3_pay8 x0 x1
      = k3_pay2 (extractStridedSlice S512x64 ![0, 0] (k3_pay4 x0) slices_S512x128_o0_0_S512x64)
          (transpose S64x2048 [1, 0] (extractStridedSlice S2048x64 ![0, 0] (k3_pay5 x1) slices_S2048x128_o0_0_S2048x64)
            transposes_S2048x64_p1_0_S64x2048) := rfl

/-- Half 0's stored output is the same term as half 1's, over the slices at offset 0. -/
theorem pay9_eq (x0 : Vec Ideal S1x512x128 .bf16) (x1 x2 : Vec Ideal S1x2048x128 .bf16) :
    k3_pay9 x0 x1 x2
      = k3_pay3 (extractStridedSlice S512x64 ![0, 0] (k3_pay4 x0) slices_S512x128_o0_0_S512x64)
          (extractStridedSlice S2048x64 ![0, 0] (k3_pay6 x2) slices_S2048x128_o0_0_S2048x64)
          (transpose S64x2048 [1, 0] (extractStridedSlice S2048x64 ![0, 0] (k3_pay5 x1) slices_S2048x128_o0_0_S2048x64)
            transposes_S2048x64_p1_0_S64x2048) := rfl

/-- Half 1's stored weights, written over the block's slices at offset 64. -/
theorem pay2_hi_eq (x0 : Vec Ideal S1x512x128 .bf16) (x1 : Vec Ideal S1x2048x128 .bf16) :
    k3_pay2 (k3_pay10 x0) (k3_pay12 x1)
      = k3_pay2 (extractStridedSlice S512x64 ![0, 64] (k3_pay4 x0) slices_S512x128_o0_64_S512x64)
          (transpose S64x2048 [1, 0] (extractStridedSlice S2048x64 ![0, 64] (k3_pay5 x1) slices_S2048x128_o0_64_S2048x64)
            transposes_S2048x64_p1_0_S64x2048) := rfl

/-- Half 1's stored output, written over the block's slices at offset 64. -/
theorem pay3_hi_eq (x0 : Vec Ideal S1x512x128 .bf16) (x1 x2 : Vec Ideal S1x2048x128 .bf16) :
    k3_pay3 (k3_pay10 x0) (k3_pay11 x2) (k3_pay12 x1)
      = k3_pay3 (extractStridedSlice S512x64 ![0, 64] (k3_pay4 x0) slices_S512x128_o0_64_S512x64)
          (extractStridedSlice S2048x64 ![0, 64] (k3_pay6 x2) slices_S2048x128_o0_64_S2048x64)
          (transpose S64x2048 [1, 0] (extractStridedSlice S2048x64 ![0, 64] (k3_pay5 x1) slices_S2048x128_o0_64_S2048x64)
            transposes_S2048x64_p1_0_S64x2048) := rfl

end Cert.KernelIdeal.AttnValue

end
-- ==== Proof.AttnOut.lean ====
/-
  What the attention body leaves in its two output buffers, as one function of the buffer's index.

  The body stores the weights buffer [1, 2, 512, 2048] in two slabs, one per half, and the output buffer [1, 512, 128]
  in two column halves of 64. Slab hh at (p, j) holds the weight of key row j for query row p in half hh; column half
  hh at (p, d) holds the attention output of query row p at lane d of half hh. So the weights buffer at (0, hh, p, j) is
  that weight, and the output buffer at (0, p, e) is the output at lane e % 64 of half e / 64: each stored piece is the
  restriction of that one function to the piece's rectangle, and the pieces cover the buffer.
-/
import proofs.«132381_j65798898974762_2_alg».proof.Proof.Gen.KernelIdeal.Frame
import proofs.«132381_j65798898974762_2_alg».proof.Proof.AttnBlock

noncomputable section

open scoped BigOperators

namespace Cert.KernelIdeal.AttnValue

open Idealize.ShloMosaic Idealize.ShloMosaic.ValueIdx Cert.KernelIdeal Cert.KernelIdeal.Gen

theorem hz3 : (![0, 0, 0] : Fin 3 → Nat) = fun _ => 0 := funext fun a => by fin_cases a <;> rfl

/-- The weights buffer after the body, by coordinates: at (u, hh, p, j) the weight of key row j for query row p in half hh. -/
def blockW (x0 : S1x512x128.Idx → EReal) (x1 : S1x2048x128.Idx → EReal) : S1x2x512x2048.Idx → EReal :=
  fun y => blkW x0 x1 (y 1) (y 2) (y 3)

/-- The output buffer after the body, by coordinates: at (u, p, e) the output of query row p at lane e % 64 of half e / 64. -/
def blockO (x0 : S1x512x128.Idx → EReal) (x1 x2 : S1x2048x128.Idx → EReal) : S1x512x128.Idx → EReal :=
  fun y => blkO x0 x1 x2 ⟨(y 2).val / 64, by have h : (y 2).val < 128 := (y 2).isLt; omega⟩ (y 1)
    ⟨(y 2).val % 64, Nat.mod_lt _ (by norm_num)⟩

/-! ## The weights buffer -/

/-- The slab of half 1 is the function's restriction to its rectangle. -/
theorem pieceW_hi (x0 : Vec Ideal S1x512x128 .bf16) (x1 : Vec Ideal S1x2048x128 .bf16) (x : S1x1x512x2048.Idx) :
    k3_pay2 (k3_pay10 x0) (k3_pay12 x1) x = blockW x0 x1 (r3_4.emb x) := by
  obtain ⟨u0, u1, p, j, rfl⟩ : ∃ (u0 u1 : Fin 1) (p : Fin 512) (j : Fin 2048), x = ix4 u0 u1 p j :=
    ⟨x 0, x 1, x 2, x 3, eq_ix4 x⟩
  refine (congrFun (pay2_hi_eq x0 x1) _).trans ?_
  refine (pay2_blk x0 x1 64 slices_S512x128_o0_64_S512x64 slices_S2048x128_o0_64_S2048x64 1 rfl u0 u1 p j).trans ?_
  show blkW x0 x1 1 p j = blkW x0 x1 (r3_4.emb (ix4 u0 u1 p j) 1) (r3_4.emb (ix4 u0 u1 p j) 2) (r3_4.emb (ix4 u0 u1 p j) 3)
  refine blkW_congr x0 x1 ?_ ?_ ?_
  · show 1 = 1 + 1 * u1.val; omega
  · show p.val = 0 + 1 * p.val; omega
  · show j.val = 0 + 1 * j.val; omega

/-- The slab of half 0 is the function's restriction to its rectangle. -/
theorem pieceW_lo (x0 : Vec Ideal S1x512x128 .bf16) (x1 : Vec Ideal S1x2048x128 .bf16) (x : S1x1x512x2048.Idx) :
    k3_pay8 x0 x1 x = blockW x0 x1 (r3_2.emb x) := by
  obtain ⟨u0, u1, p, j, rfl⟩ : ∃ (u0 u1 : Fin 1) (p : Fin 512) (j : Fin 2048), x = ix4 u0 u1 p j :=
    ⟨x 0, x 1, x 2, x 3, eq_ix4 x⟩
  refine (congrFun (pay8_eq x0 x1) _).trans ?_
  refine (pay2_blk x0 x1 0 slices_S512x128_o0_0_S512x64 slices_S2048x128_o0_0_S2048x64 0 rfl u0 u1 p j).trans ?_
  show blkW x0 x1 0 p j = blkW x0 x1 (r3_2.emb (ix4 u0 u1 p j) 1) (r3_2.emb (ix4 u0 u1 p j) 2) (r3_2.emb (ix4 u0 u1 p j) 3)
  refine blkW_congr x0 x1 ?_ ?_ ?_
  · show 0 = 0 + 1 * u1.val; omega
  · show p.val = 0 + 1 * p.val; omega
  · show j.val = 0 + 1 * j.val; omega

/-- The weights buffer after the body is that function of the loaded query and key blocks. -/
theorem out4_eq (x0 : Vec Ideal S1x512x128 .bf16) (x1 x2 : Vec Ideal S1x2048x128 .bf16) :
    out3_4 x0 x1 x2 = blockW x0 x1 := by
  funext y
  unfold out3_4
  simp only [View.ld_unit_zero (S := S1x512x128) hz3, View.ld_unit_zero (S := S1x2048x128) hz3]
  refine View.canon_apply_of_pieces (Val := Elt Ideal) (blockW x0 x1) _ ?_ y (cover3_4 _ _ y)
  intro pc hpc x
  rcases List.mem_cons.mp hpc with rfl | hpc
  · exact pieceW_hi x0 x1 x
  · obtain rfl := List.mem_singleton.mp hpc
    exact pieceW_lo x0 x1 x

/-! ## The output buffer -/

/-- The column half of half 1 is the function's restriction to its rectangle. -/
theorem pieceO_hi (x0 : Vec Ideal S1x512x128 .bf16) (x1 x2 : Vec Ideal S1x2048x128 .bf16) (x : S1x512x64.Idx) :
    k3_pay3 (k3_pay10 x0) (k3_pay11 x2) (k3_pay12 x1) x = blockO x0 x1 x2 (r3_5.emb x) := by
  obtain ⟨u, p, d, rfl⟩ : ∃ (u : Fin 1) (p : Fin 512) (d : Fin 64), x = ix3 u p d := ⟨x 0, x 1, x 2, eq_ix3 x⟩
  refine (congrFun (pay3_hi_eq x0 x1 x2) _).trans ?_
  refine (pay3_blk x0 x1 x2 64 slices_S512x128_o0_64_S512x64 slices_S2048x128_o0_64_S2048x64 1 rfl u p d).trans ?_
  unfold blockO
  refine blkO_congr x0 x1 x2 ?_ ?_ ?_
  · show 1 = (64 + 1 * d.val) / 64; omega
  · show p.val = 0 + 1 * p.val; omega
  · show d.val = (64 + 1 * d.val) % 64; omega

/-- The column half of half 0 is the function's restriction to its rectangle. -/
theorem pieceO_lo (x0 : Vec Ideal S1x512x128 .bf16) (x1 x2 : Vec Ideal S1x2048x128 .bf16) (x : S1x512x64.Idx) :
    k3_pay9 x0 x1 x2 x = blockO x0 x1 x2 (r3_3.emb x) := by
  obtain ⟨u, p, d, rfl⟩ : ∃ (u : Fin 1) (p : Fin 512) (d : Fin 64), x = ix3 u p d := ⟨x 0, x 1, x 2, eq_ix3 x⟩
  refine (congrFun (pay9_eq x0 x1 x2) _).trans ?_
  refine (pay3_blk x0 x1 x2 0 slices_S512x128_o0_0_S512x64 slices_S2048x128_o0_0_S2048x64 0 rfl u p d).trans ?_
  unfold blockO
  refine blkO_congr x0 x1 x2 ?_ ?_ ?_
  · show 0 = (0 + 1 * d.val) / 64; omega
  · show p.val = 0 + 1 * p.val; omega
  · show d.val = (0 + 1 * d.val) % 64; omega

/-- The output buffer after the body is that function of the loaded query, key and value blocks. -/
theorem out3_eq (x0 : Vec Ideal S1x512x128 .bf16) (x1 x2 : Vec Ideal S1x2048x128 .bf16) :
    out3_3 x0 x1 x2 = blockO x0 x1 x2 := by
  funext y
  unfold out3_3
  simp only [View.ld_unit_zero (S := S1x512x128) hz3, View.ld_unit_zero (S := S1x2048x128) hz3]
  refine View.canon_apply_of_pieces (Val := Elt Ideal) (blockO x0 x1 x2) _ ?_ y (cover3_3 _ _ y)
  intro pc hpc x
  rcases List.mem_cons.mp hpc with rfl | hpc
  · exact pieceO_hi x0 x1 x2 x
  · obtain rfl := List.mem_singleton.mp hpc
    exact pieceO_lo x0 x1 x2 x

end Cert.KernelIdeal.AttnValue

end
-- ==== Proof.AttnIdx.lean ====
/-
  Where the attention call's blocks sit in their arrays.

  The grid has 32 × 4 = 128 points; point t has coordinates (t / 4, t % 4): the first is batch · 8 + head pair, the
  second the tile of 512 query rows. At point t the query and output blocks are block (t/4/8, t%4, t/4%8) of their
  [4, 2048, 1024] arrays in blocks of [1, 512, 128]; the key and value blocks are block (t/4/8, 0, t/4%8) in blocks of
  [1, 2048, 128]; the weights block is block (t/4/8, t/4%8, t%4, 0) of the [4, 16, 2048, 2048] array in blocks of
  [1, 2, 512, 2048]. These closed forms of the printed index maps are decided over the 128 points. An element of a
  block sits in its array, on each axis, at block index × block size + its coordinate in the block; read that way,
  each input block is the rows and columns of its array the closed forms name.
-/
import proofs.«132381_j65798898974762_2_alg».proof.Proof.Gen.KernelIdeal.Frame
import Idealize.ShloMosaic.Lib.ValueIdx
import Idealize.ShloMosaic.Lib.Pipeline.Value

noncomputable section

namespace Cert.KernelIdeal.AttnValue

open Idealize.ShloMosaic Idealize.ShloMosaic.TcCoe Idealize.ShloMosaic.ValueIdx Idealize.SL.Sem
open Idealize.ShloMosaic.Pipeline (Dat)
open Cert.KernelIdeal Cert.KernelIdeal.Gen

/-! ## The index maps, in closed form -/

theorem idx_q : ∀ t : Fin cfg3.N, win3_0.index t (0 : Fin 3) = t.val / 4 / 8 ∧ win3_0.index t (1 : Fin 3) = t.val % 4
    ∧ win3_0.index t (2 : Fin 3) = t.val / 4 % 8 :=
  (by decide +kernel : ∀ t : Fin grid3.N, _)

theorem idx_k : ∀ t : Fin cfg3.N, win3_1.index t (0 : Fin 3) = t.val / 4 / 8 ∧ win3_1.index t (1 : Fin 3) = 0
    ∧ win3_1.index t (2 : Fin 3) = t.val / 4 % 8 :=
  (by decide +kernel : ∀ t : Fin grid3.N, _)

theorem idx_v : ∀ t : Fin cfg3.N, win3_2.index t (0 : Fin 3) = t.val / 4 / 8 ∧ win3_2.index t (1 : Fin 3) = 0
    ∧ win3_2.index t (2 : Fin 3) = t.val / 4 % 8 :=
  (by decide +kernel : ∀ t : Fin grid3.N, _)

theorem idx_o : ∀ t : Fin cfg3.N, win3_3.index t (0 : Fin 3) = t.val / 4 / 8 ∧ win3_3.index t (1 : Fin 3) = t.val % 4
    ∧ win3_3.index t (2 : Fin 3) = t.val / 4 % 8 :=
  (by decide +kernel : ∀ t : Fin grid3.N, _)

theorem idx_w : ∀ t : Fin cfg3.N, win3_4.index t (0 : Fin 4) = t.val / 4 / 8 ∧ win3_4.index t (1 : Fin 4) = t.val / 4 % 8
    ∧ win3_4.index t (2 : Fin 4) = t.val % 4 ∧ win3_4.index t (3 : Fin 4) = 0 :=
  (by decide +kernel : ∀ t : Fin grid3.N, _)

/-! ## Membership in an output block -/

/-- An index of the output array is in point t's block iff each coordinate is in the block's range on its axis. -/
theorem mem_blk_o (t : Fin cfg3.N) (i : S4x2048x1024.Idx) :
    i ∈ ((cfg3.win 3).blk t).view.set ↔ ∀ a : Fin 3, win3_3.index t a * S1x512x128.size a ≤ (i a).val
      ∧ (i a).val < win3_3.index t a * S1x512x128.size a + S1x512x128.size a := by
  show i ∈ ((View.whole main_v16_0).slice (win3_3.rect t)).set ↔ _
  rw [View.set_slice_whole, Rect.mem_set_unit]
  exact Iff.rfl

/-- An index of the weights array is in point t's block iff each coordinate is in the block's range on its axis. -/
theorem mem_blk_w (t : Fin cfg3.N) (i : S4x16x2048x2048.Idx) :
    i ∈ ((cfg3.win 4).blk t).view.set ↔ ∀ a : Fin 4, win3_4.index t a * S1x2x512x2048.size a ≤ (i a).val
      ∧ (i a).val < win3_4.index t a * S1x2x512x2048.size a + S1x2x512x2048.size a := by
  show i ∈ ((View.whole main_v16_1).slice (win3_4.rect t)).set ↔ _
  rw [View.set_slice_whole, Rect.mem_set_unit]
  exact Iff.rfl

/-! ## The input blocks, read off their arrays -/

variable (V : (c : Dev nD) → (b : Ref sig .tc) → Buf (Elt Ideal) ((c : Thread nD τ).loc b))

/-- The query block at point t, at (0, p, k): the query array at (t/4/8, (t%4)·512 + p, (t/4%8)·128 + k). -/
theorem qblk_apply (c : Dev nD) (t : Fin cfg3.N) (u : Fin 1) (p : Fin 512) (k : Fin 128) (i : S4x2048x1024.Idx)
    (h0 : (i 0).val = t.val / 4 / 8) (h1 : (i 1).val = t.val % 4 * 512 + p.val)
    (h2 : (i 2).val = t.val / 4 % 8 * 128 + k.val) :
    (iblk3 (F := Ideal) V c 0 t : S1x512x128.Idx → EReal) (ix3 u p k)
      = (V c (Pipeline.arrRef spec3 0) : S4x2048x1024.Idx → EReal) i := by
  obtain ⟨e0, e1, e2⟩ := idx_q t
  show V c (Pipeline.arrRef spec3 0) (((cfg3.win 0).blk t).view.emb (ix3 u p k)) = V c (Pipeline.arrRef spec3 0) i
  refine congrArg _ (funext fun a => Fin.ext ?_)
  match a with
  | ⟨0, _⟩ => show win3_0.index t (0 : Fin 3) * 1 + 1 * u.val = (i 0).val; rw [e0, h0]; omega
  | ⟨1, _⟩ => show win3_0.index t (1 : Fin 3) * 512 + 1 * p.val = (i 1).val; rw [e1, h1]; omega
  | ⟨2, _⟩ => show win3_0.index t (2 : Fin 3) * 128 + 1 * k.val = (i 2).val; rw [e2, h2]; omega

/-- The key block at point t, at (0, r, k): the key array at (t/4/8, r, (t/4%8)·128 + k). -/
theorem kblk_apply (c : Dev nD) (t : Fin cfg3.N) (u : Fin 1) (r : Fin 2048) (k : Fin 128) (i : S4x2048x1024.Idx)
    (h0 : (i 0).val = t.val / 4 / 8) (h1 : (i 1).val = r.val) (h2 : (i 2).val = t.val / 4 % 8 * 128 + k.val) :
    (iblk3 (F := Ideal) V c 1 t : S1x2048x128.Idx → EReal) (ix3 u r k)
      = (V c (Pipeline.arrRef spec3 1) : S4x2048x1024.Idx → EReal) i := by
  obtain ⟨e0, e1, e2⟩ := idx_k t
  show V c (Pipeline.arrRef spec3 1) (((cfg3.win 1).blk t).view.emb (ix3 u r k)) = V c (Pipeline.arrRef spec3 1) i
  refine congrArg _ (funext fun a => Fin.ext ?_)
  match a with
  | ⟨0, _⟩ => show win3_1.index t (0 : Fin 3) * 1 + 1 * u.val = (i 0).val; rw [e0, h0]; omega
  | ⟨1, _⟩ => show win3_1.index t (1 : Fin 3) * 2048 + 1 * r.val = (i 1).val; rw [e1, h1]; omega
  | ⟨2, _⟩ => show win3_1.index t (2 : Fin 3) * 128 + 1 * k.val = (i 2).val; rw [e2, h2]; omega

/-- The value block at point t, at (0, r, k): the value array at (t/4/8, r, (t/4%8)·128 + k). -/
theorem vblk_apply (c : Dev nD) (t : Fin cfg3.N) (u : Fin 1) (r : Fin 2048) (k : Fin 128) (i : S4x2048x1024.Idx)
    (h0 : (i 0).val = t.val / 4 / 8) (h1 : (i 1).val = r.val) (h2 : (i 2).val = t.val / 4 % 8 * 128 + k.val) :
    (iblk3 (F := Ideal) V c 2 t : S1x2048x128.Idx → EReal) (ix3 u r k)
      = (V c (Pipeline.arrRef spec3 2) : S4x2048x1024.Idx → EReal) i := by
  obtain ⟨e0, e1, e2⟩ := idx_v t
  show V c (Pipeline.arrRef spec3 2) (((cfg3.win 2).blk t).view.emb (ix3 u r k)) = V c (Pipeline.arrRef spec3 2) i
  refine congrArg _ (funext fun a => Fin.ext ?_)
  match a with
  | ⟨0, _⟩ => show win3_2.index t (0 : Fin 3) * 1 + 1 * u.val = (i 0).val; rw [e0, h0]; omega
  | ⟨1, _⟩ => show win3_2.index t (1 : Fin 3) * 2048 + 1 * r.val = (i 1).val; rw [e1, h1]; omega
  | ⟨2, _⟩ => show win3_2.index t (2 : Fin 3) * 128 + 1 * k.val = (i 2).val; rw [e2, h2]; omega

end Cert.KernelIdeal.AttnValue

end
-- ==== Proof.AttnBridge.lean ====
/-
  One attention block against the specification.

  The specification speaks of whole rows of 1024 columns: head h owns columns h·64 … h·64 + 63. A block holds the 128
  columns of the head pair hp, so half hh of the block is head 2·hp + hh, and the block's column hh·64 + d is column
  (2·hp + hh)·64 + d of the row. When the block's entries are the rows' entries at those columns, the block's weights
  and outputs are the specification's attention weights and attention outputs: the sums run over the same lanes and
  the same key positions, term by term.
-/
import proofs.«132381_j65798898974762_2_alg».proof.Proof.AttnBlock
import proofs.«132381_j65798898974762_2_alg».proof.Proof.Spec

noncomputable section

open scoped BigOperators

namespace Cert.KernelIdeal.AttnValue

open Idealize.ShloMosaic Idealize.ShloMosaic.ValueIdx Cert.KernelIdeal

/-- A block's weights are the specification's, when the block's query and key entries of half hh are the rows'
    entries in head h. -/
theorem blkW_eq_attnW (Vq Vk : S4x2048x1024.Idx → EReal) (x0 : S1x512x128.Idx → EReal) (x1 : S1x2048x128.Idx → EReal)
    (b : Fin 4) (h : Fin 16) (s tt : Fin 2048) (hh : Fin 2) (p : Fin 512) (j : Fin 2048) (hj : j = tt)
    (hq : ∀ d : Fin 64, x0 (ix3 (0 : Fin 1) p (lane hh d)) = Vq (ix3 b s (Cert.Mha.col h d)))
    (hk : ∀ (t' : Fin 2048) (d : Fin 64), x1 (ix3 (0 : Fin 1) t' (lane hh d)) = Vk (ix3 b t' (Cert.Mha.col h d))) :
    blkW x0 x1 hh p j
      = Cert.Mha.attnW (fun e => Vq (ix3 b s e)) (fun t' e => Vk (ix3 b t' e)) h tt := by
  subst hj
  unfold blkW Cert.Mha.attnW
  refine congrArg (fun f => RowSoftmax.weight 0xFF800000#32 f j) (funext fun t' => ?_)
  unfold blkScore Cert.Mha.score
  refine congrArg (· * Ideal.ofBits .f32 0x3E000000#32) (Finset.sum_congr rfl fun d _ => ?_)
  exact congrArg₂ (· * ·) (hq d) (hk t' d)

/-- A block's outputs are the specification's, when moreover the block's value entries at lane d of half hh are
    the rows' entries at column e, a column of head h. -/
theorem blkO_eq_attnO (Vq Vk Vv : S4x2048x1024.Idx → EReal) (x0 : S1x512x128.Idx → EReal)
    (x1 x2 : S1x2048x128.Idx → EReal) (b : Fin 4) (s : Fin 2048) (e : Fin 1024) (hh : Fin 2) (p : Fin 512) (d : Fin 64)
    (hq : ∀ d' : Fin 64, x0 (ix3 (0 : Fin 1) p (lane hh d')) = Vq (ix3 b s (Cert.Mha.col (Cert.Mha.headOf e) d')))
    (hk : ∀ (t' : Fin 2048) (d' : Fin 64),
      x1 (ix3 (0 : Fin 1) t' (lane hh d')) = Vk (ix3 b t' (Cert.Mha.col (Cert.Mha.headOf e) d')))
    (hv : ∀ t' : Fin 2048, x2 (ix3 (0 : Fin 1) t' (lane hh d)) = Vv (ix3 b t' e)) :
    blkO x0 x1 x2 hh p d
      = Cert.Mha.attnO (fun e' => Vq (ix3 b s e')) (fun t' e' => Vk (ix3 b t' e')) (fun t' e' => Vv (ix3 b t' e')) e := by
  unfold blkO Cert.Mha.attnO
  refine Finset.sum_congr rfl fun t' _ => ?_
  exact congrArg₂ (· * ·) (blkW_eq_attnW Vq Vk x0 x1 b (Cert.Mha.headOf e) s t' hh p t' rfl hq hk) (hv t')

end Cert.KernelIdeal.AttnValue

end
-- ==== Proof.AttnWeights.lean ====
/-
  The attention weights array after the attention call.

  Entry (b, h, s, t) of the [4, 16, 2048, 2048] array is written by the grid point of batch b, head pair h / 2 and query
  tile s / 512, in slab h % 2 of its block, at row s % 512 and column t. That point's query block holds rows
  (s / 512)·512 … of batch b in the 128 columns of the head pair, its key block all 2048 key rows in the same columns,
  so the stored weight is the softmax over the key positions of the scaled scores of query row s against the key rows
  in head h: the specification's attention weight of the arrays the call found. Every entry is in exactly such a block,
  so the array ends holding that function everywhere.
-/
import proofs.«132381_j65798898974762_2_alg».proof.Proof.AttnOut
import proofs.«132381_j65798898974762_2_alg».proof.Proof.AttnIdx
import proofs.«132381_j65798898974762_2_alg».proof.Proof.AttnBridge

noncomputable section

open scoped BigOperators

namespace Cert.KernelIdeal.AttnValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The weights array as one function of the query and key arrays the call finds. -/
def GW (c : Dev nD) : S4x16x2048x2048.Idx → EReal := fun i =>
  Cert.Mha.attnW (fun e => (V c (Pipeline.arrRef spec3 0) : S4x2048x1024.Idx → EReal) (ix3 (i 0) (i 2) e))
    (fun t' e => (V c (Pipeline.arrRef spec3 1) : S4x2048x1024.Idx → EReal) (ix3 (i 0) t' e)) (i 1) (i 3)

/-- The weight the block of point t holds at (hh, p, j) is the array function at the element's place E in the array. -/
theorem blockW_at (c : Dev nD) (t : Fin cfg3.N) (hh : Fin 2) (p : Fin 512) (j : Fin 2048) (E : S4x16x2048x2048.Idx)
    (hE0 : (E 0).val = t.val / 4 / 8) (hE1 : (E 1).val = t.val / 4 % 8 * 2 + hh.val)
    (hE2 : (E 2).val = t.val % 4 * 512 + p.val) (hE3 : (E 3).val = j.val) :
    blkW (iblk3 (F := Ideal) V c 0 t) (iblk3 (F := Ideal) V c 1 t) hh p j = GW V c E := by
  unfold GW
  refine blkW_eq_attnW (V c (Pipeline.arrRef spec3 0)) (V c (Pipeline.arrRef spec3 1)) (iblk3 (F := Ideal) V c 0 t)
    (iblk3 (F := Ideal) V c 1 t) (E 0) (E 1) (E 2) (E 3) hh p j (Fin.ext hE3.symm) (fun d => ?_) (fun t' d => ?_)
  · exact qblk_apply V c t 0 p (lane hh d) (ix3 (E 0) (E 2) (Cert.Mha.col (E 1) d)) hE0 hE2
      (by show (E 1).val * 64 + d.val = t.val / 4 % 8 * 128 + (hh.val * 64 + d.val); rw [hE1]; omega)
  · exact kblk_apply V c t 0 t' (lane hh d) (ix3 (E 0) t' (Cert.Mha.col (E 1) d)) hE0 rfl
      (by show (E 1).val * 64 + d.val = t.val / 4 % 8 * 128 + (hh.val * 64 + d.val); rw [hE1]; omega)

/-- The weights buffer the body leaves at point t is block t of the array function. -/
theorem blockW_read (c : Dev nD) (t : Fin cfg3.N) (y : S1x2x512x2048.Idx) :
    blockW (iblk3 (F := Ideal) V c 0 t) (iblk3 (F := Ideal) V c 1 t) y = GW V c (((cfg3.win 4).blk t).view.emb y) := by
  obtain ⟨u, hh, p, j, rfl⟩ : ∃ (u : Fin 1) (hh : Fin 2) (p : Fin 512) (j : Fin 2048), y = ix4 u hh p j :=
    ⟨y 0, y 1, y 2, y 3, eq_ix4 y⟩
  obtain ⟨f0, f1, f2, f3⟩ := idx_w t
  refine blockW_at V c t hh p j _ ?_ ?_ ?_ ?_
  · show win3_4.index t (0 : Fin 4) * 1 + 1 * u.val = _; rw [f0]; omega
  · show win3_4.index t (1 : Fin 4) * 2 + 1 * hh.val = _; rw [f1]; omega
  · show win3_4.index t (2 : Fin 4) * 512 + 1 * p.val = _; rw [f2]; omega
  · show win3_4.index t (3 : Fin 4) * 2048 + 1 * j.val = _; rw [f3]; omega

/-- What point t writes back to the weights array is block t of the array function. -/
theorem flushedW_eq (c : Dev nD) (t : Fin cfg3.N) :
    (dat3 (F := Ideal) V c).flushed 4 t = ((cfg3.win 4).blk t).view.read (Elt Ideal) (GW V c) := by
  show (cfg3.win 4).cut (grid3.coords t) ((dat3 (F := Ideal) V c).after 4 t) = _
  rw [after3_4]
  funext y
  show out3_4 (iblk3 (F := Ideal) V c 0 t) (iblk3 (F := Ideal) V c 1 t) (iblk3 (F := Ideal) V c 2 t) y
    = GW V c (((cfg3.win 4).blk t).view.emb y)
  exact (congrFun (out4_eq (iblk3 (F := Ideal) V c 0 t) (iblk3 (F := Ideal) V c 1 t) (iblk3 (F := Ideal) V c 2 t)) y).trans
    (blockW_read V c t y)

/-- Every entry of the weights array is in the block of the point of its batch, head pair and query tile. -/
theorem coverW (i : S4x16x2048x2048.Idx) :
    ∃ t : Fin cfg3.N, (cfg3.win 4).flush t = true ∧ i ∈ ((cfg3.win 4).blk t).view.set := by
  have hN : cfg3.N = 128 := N_3
  have hi0 : (i 0).val < 4 := (i 0).isLt
  have hi1 : (i 1).val < 16 := (i 1).isLt
  have hi2 : (i 2).val < 2048 := (i 2).isLt
  have hi3 : (i 3).val < 2048 := (i 3).isLt
  have hlt : ((i 0).val * 8 + (i 1).val / 2) * 4 + (i 2).val / 512 < cfg3.N := by rw [hN]; omega
  refine ⟨⟨((i 0).val * 8 + (i 1).val / 2) * 4 + (i 2).val / 512, hlt⟩, flush3_4 _, ?_⟩
  rw [mem_blk_w]
  obtain ⟨f0, f1, f2, f3⟩ := idx_w ⟨((i 0).val * 8 + (i 1).val / 2) * 4 + (i 2).val / 512, hlt⟩
  intro a
  match a with
  | ⟨0, _⟩ =>
    show win3_4.index ⟨_, hlt⟩ (0 : Fin 4) * 1 ≤ (i 0).val ∧ (i 0).val < win3_4.index ⟨_, hlt⟩ (0 : Fin 4) * 1 + 1
    rw [f0]; show (((i 0).val * 8 + (i 1).val / 2) * 4 + (i 2).val / 512) / 4 / 8 * 1 ≤ _ ∧ _ < (((i 0).val * 8 + (i 1).val / 2) * 4 + (i 2).val / 512) / 4 / 8 * 1 + 1
    omega
  | ⟨1, _⟩ =>
    show win3_4.index ⟨_, hlt⟩ (1 : Fin 4) * 2 ≤ (i 1).val ∧ (i 1).val < win3_4.index ⟨_, hlt⟩ (1 : Fin 4) * 2 + 2
    rw [f1]; show (((i 0).val * 8 + (i 1).val / 2) * 4 + (i 2).val / 512) / 4 % 8 * 2 ≤ _ ∧ _ < (((i 0).val * 8 + (i 1).val / 2) * 4 + (i 2).val / 512) / 4 % 8 * 2 + 2
    omega
  | ⟨2, _⟩ =>
    show win3_4.index ⟨_, hlt⟩ (2 : Fin 4) * 512 ≤ (i 2).val ∧ (i 2).val < win3_4.index ⟨_, hlt⟩ (2 : Fin 4) * 512 + 512
    rw [f2]; show (((i 0).val * 8 + (i 1).val / 2) * 4 + (i 2).val / 512) % 4 * 512 ≤ _ ∧ _ < (((i 0).val * 8 + (i 1).val / 2) * 4 + (i 2).val / 512) % 4 * 512 + 512
    omega
  | ⟨3, _⟩ =>
    show win3_4.index ⟨_, hlt⟩ (3 : Fin 4) * 2048 ≤ (i 3).val ∧ (i 3).val < win3_4.index ⟨_, hlt⟩ (3 : Fin 4) * 2048 + 2048
    rw [f3]; omega

/-- The weights array after the call is the array function. -/
theorem finalW (c : Dev nD) : (dat3 (F := Ideal) V c).arrAt 4 cfg3.N = GW V c :=
  (dat3 (F := Ideal) V c).arrAt_eq_of_cover 4 (GW V c) (fun t _ => flushedW_eq V c t) coverW

/-- Entry (b, h, s, t) of the weights array after the call: the attention weight of key position t for query row s of
    batch b in head h, of the query and key arrays the call found. -/
theorem weights_at (c : Dev nD) (b : Fin 4) (h : Fin 16) (s t : Fin 2048) :
    ((dat3 (F := Ideal) V c).arrAt 4 cfg3.N : S4x16x2048x2048.Idx → EReal) (ix4 b h s t)
      = Cert.Mha.attnW (fun e => (V c (Pipeline.arrRef spec3 0) : S4x2048x1024.Idx → EReal) (ix3 b s e))
          (fun t' e => (V c (Pipeline.arrRef spec3 1) : S4x2048x1024.Idx → EReal) (ix3 b t' e)) h t :=
  congrFun (finalW V c) (ix4 b h s t)

end Cert.KernelIdeal.AttnValue

end
-- ==== Proof.AttnOutput.lean ====
/-
  The attention output array after the attention call.

  Entry (b, s, e) of the [4, 2048, 1024] array is written by the grid point of batch b, head pair e / 128 and query tile
  s / 512, at row s % 512 and column e % 128 of its block: lane e % 64 of half (e % 128) / 64, which is head e / 64. The
  stored value is Σ_t weight(t) · v(t, e) with the weights of query row s in that head and v the value rows of batch b:
  the specification's attention output of the arrays the call found. Every entry is in exactly such a block, so the
  array ends holding that function everywhere.
-/
import proofs.«132381_j65798898974762_2_alg».proof.Proof.AttnOut
import proofs.«132381_j65798898974762_2_alg».proof.Proof.AttnIdx
import proofs.«132381_j65798898974762_2_alg».proof.Proof.AttnBridge

noncomputable section

open scoped BigOperators

namespace Cert.KernelIdeal.AttnValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The output array as one function of the query, key and value arrays the call finds. -/
def GO (c : Dev nD) : S4x2048x1024.Idx → EReal := fun i =>
  Cert.Mha.attnO (fun e' => (V c (Pipeline.arrRef spec3 0) : S4x2048x1024.Idx → EReal) (ix3 (i 0) (i 1) e'))
    (fun t' e' => (V c (Pipeline.arrRef spec3 1) : S4x2048x1024.Idx → EReal) (ix3 (i 0) t' e'))
    (fun t' e' => (V c (Pipeline.arrRef spec3 2) : S4x2048x1024.Idx → EReal) (ix3 (i 0) t' e')) (i 2)

/-- The output the block of point t holds at (p, e) is the array function at the element's place E in the array. -/
theorem blockO_at (c : Dev nD) (t : Fin cfg3.N) (p : Fin 512) (e : Fin 128) (hh : Fin 2) (d : Fin 64)
    (hhh : hh.val = e.val / 64) (hd : d.val = e.val % 64) (E : S4x2048x1024.Idx)
    (hE0 : (E 0).val = t.val / 4 / 8) (hE1 : (E 1).val = t.val % 4 * 512 + p.val)
    (hE2 : (E 2).val = t.val / 4 % 8 * 128 + e.val) :
    blkO (iblk3 (F := Ideal) V c 0 t) (iblk3 (F := Ideal) V c 1 t) (iblk3 (F := Ideal) V c 2 t) hh p d = GO V c E := by
  unfold GO
  refine blkO_eq_attnO (V c (Pipeline.arrRef spec3 0)) (V c (Pipeline.arrRef spec3 1)) (V c (Pipeline.arrRef spec3 2))
    (iblk3 (F := Ideal) V c 0 t) (iblk3 (F := Ideal) V c 1 t) (iblk3 (F := Ideal) V c 2 t) (E 0) (E 1) (E 2) hh p d
    (fun d' => ?_) (fun t' d' => ?_) (fun t' => ?_)
  · exact qblk_apply V c t 0 p (lane hh d') (ix3 (E 0) (E 1) (Cert.Mha.col (Cert.Mha.headOf (E 2)) d')) hE0 hE1
      (by show (E 2).val / 64 * 64 + d'.val = t.val / 4 % 8 * 128 + (hh.val * 64 + d'.val); rw [hE2, hhh]; omega)
  · exact kblk_apply V c t 0 t' (lane hh d') (ix3 (E 0) t' (Cert.Mha.col (Cert.Mha.headOf (E 2)) d')) hE0 rfl
      (by show (E 2).val / 64 * 64 + d'.val = t.val / 4 % 8 * 128 + (hh.val * 64 + d'.val); rw [hE2, hhh]; omega)
  · exact vblk_apply V c t 0 t' (lane hh d) (ix3 (E 0) t' (E 2)) hE0 rfl
      (by show (E 2).val = t.val / 4 % 8 * 128 + (hh.val * 64 + d.val); rw [hE2, hhh, hd]; omega)

/-- The output buffer the body leaves at point t is block t of the array function. -/
theorem blockO_read (c : Dev nD) (t : Fin cfg3.N) (y : S1x512x128.Idx) :
    blockO (iblk3 (F := Ideal) V c 0 t) (iblk3 (F := Ideal) V c 1 t) (iblk3 (F := Ideal) V c 2 t) y
      = GO V c (((cfg3.win 3).blk t).view.emb y) := by
  obtain ⟨u, p, e, rfl⟩ : ∃ (u : Fin 1) (p : Fin 512) (e : Fin 128), y = ix3 u p e := ⟨y 0, y 1, y 2, eq_ix3 y⟩
  obtain ⟨f0, f1, f2⟩ := idx_o t
  refine blockO_at V c t p e ⟨e.val / 64, by omega⟩ ⟨e.val % 64, Nat.mod_lt _ (by norm_num)⟩ rfl rfl _ ?_ ?_ ?_
  · show win3_3.index t (0 : Fin 3) * 1 + 1 * u.val = _; rw [f0]; omega
  · show win3_3.index t (1 : Fin 3) * 512 + 1 * p.val = _; rw [f1]; omega
  · show win3_3.index t (2 : Fin 3) * 128 + 1 * e.val = _; rw [f2]; omega

/-- What point t writes back to the output array is block t of the array function. -/
theorem flushedO_eq (c : Dev nD) (t : Fin cfg3.N) :
    (dat3 (F := Ideal) V c).flushed 3 t = ((cfg3.win 3).blk t).view.read (Elt Ideal) (GO V c) := by
  show (cfg3.win 3).cut (grid3.coords t) ((dat3 (F := Ideal) V c).after 3 t) = _
  rw [after3_3]
  funext y
  show out3_3 (iblk3 (F := Ideal) V c 0 t) (iblk3 (F := Ideal) V c 1 t) (iblk3 (F := Ideal) V c 2 t) y
    = GO V c (((cfg3.win 3).blk t).view.emb y)
  exact (congrFun (out3_eq (iblk3 (F := Ideal) V c 0 t) (iblk3 (F := Ideal) V c 1 t) (iblk3 (F := Ideal) V c 2 t)) y).trans
    (blockO_read V c t y)

/-- Every entry of the output array is in the block of the point of its batch, head pair and query tile. -/
theorem coverO (i : S4x2048x1024.Idx) :
    ∃ t : Fin cfg3.N, (cfg3.win 3).flush t = true ∧ i ∈ ((cfg3.win 3).blk t).view.set := by
  have hN : cfg3.N = 128 := N_3
  have hi0 : (i 0).val < 4 := (i 0).isLt
  have hi1 : (i 1).val < 2048 := (i 1).isLt
  have hi2 : (i 2).val < 1024 := (i 2).isLt
  have hlt : ((i 0).val * 8 + (i 2).val / 128) * 4 + (i 1).val / 512 < cfg3.N := by rw [hN]; omega
  refine ⟨⟨((i 0).val * 8 + (i 2).val / 128) * 4 + (i 1).val / 512, hlt⟩, flush3_3 _, ?_⟩
  rw [mem_blk_o]
  obtain ⟨f0, f1, f2⟩ := idx_o ⟨((i 0).val * 8 + (i 2).val / 128) * 4 + (i 1).val / 512, hlt⟩
  intro a
  match a with
  | ⟨0, _⟩ =>
    show win3_3.index ⟨_, hlt⟩ (0 : Fin 3) * 1 ≤ (i 0).val ∧ (i 0).val < win3_3.index ⟨_, hlt⟩ (0 : Fin 3) * 1 + 1
    rw [f0]; show (((i 0).val * 8 + (i 2).val / 128) * 4 + (i 1).val / 512) / 4 / 8 * 1 ≤ _ ∧ _ < (((i 0).val * 8 + (i 2).val / 128) * 4 + (i 1).val / 512) / 4 / 8 * 1 + 1
    omega
  | ⟨1, _⟩ =>
    show win3_3.index ⟨_, hlt⟩ (1 : Fin 3) * 512 ≤ (i 1).val ∧ (i 1).val < win3_3.index ⟨_, hlt⟩ (1 : Fin 3) * 512 + 512
    rw [f1]; show (((i 0).val * 8 + (i 2).val / 128) * 4 + (i 1).val / 512) % 4 * 512 ≤ _ ∧ _ < (((i 0).val * 8 + (i 2).val / 128) * 4 + (i 1).val / 512) % 4 * 512 + 512
    omega
  | ⟨2, _⟩ =>
    show win3_3.index ⟨_, hlt⟩ (2 : Fin 3) * 128 ≤ (i 2).val ∧ (i 2).val < win3_3.index ⟨_, hlt⟩ (2 : Fin 3) * 128 + 128
    rw [f2]; show (((i 0).val * 8 + (i 2).val / 128) * 4 + (i 1).val / 512) / 4 % 8 * 128 ≤ _ ∧ _ < (((i 0).val * 8 + (i 2).val / 128) * 4 + (i 1).val / 512) / 4 % 8 * 128 + 128
    omega

/-- The output array after the call is the array function. -/
theorem finalO (c : Dev nD) : (dat3 (F := Ideal) V c).arrAt 3 cfg3.N = GO V c :=
  (dat3 (F := Ideal) V c).arrAt_eq_of_cover 3 (GO V c) (fun t _ => flushedO_eq V c t) coverO

/-- Entry (b, s, e) of the output array after the call: the attention output at column e for query row s of batch b,
    of the query, key and value arrays the call found. -/
theorem out_at (c : Dev nD) (b : Fin 4) (s : Fin 2048) (e : Fin 1024) :
    ((dat3 (F := Ideal) V c).arrAt 3 cfg3.N : S4x2048x1024.Idx → EReal) (ix3 b s e)
      = Cert.Mha.attnO (fun e' => (V c (Pipeline.arrRef spec3 0) : S4x2048x1024.Idx → EReal) (ix3 b s e'))
          (fun t' e' => (V c (Pipeline.arrRef spec3 1) : S4x2048x1024.Idx → EReal) (ix3 b t' e'))
          (fun t' e' => (V c (Pipeline.arrRef spec3 2) : S4x2048x1024.Idx → EReal) (ix3 b t' e')) e :=
  congrFun (finalO V c) (ix3 b s e)

end Cert.KernelIdeal.AttnValue

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.NormPay.lean ====
/-
  The fused output projection, residual and layer norm of one 512-row tile, read at an index over the
  extended reals.

  The tile's body multiplies a 512 × 1024 block a of attention outputs by the 1024 × 1024 matrix w, adds the
  bias row c to every row and the input block x entry by entry: the residual block, whose entry (p, e) is
  x(p, e) + (Σ_k a(p, k) · w(k, e) + c(e)). Each row of the residual block is then normalised: its mean m is the
  row's sum, stood up as a column, divided by the float 1024; v is the mean, taken the same way, of the squared
  differences from m; and entry (p, e) becomes (r(p, e) − m) · rsqrt (v + ε) · γ(e) + β(e), the gain and offset
  rows spread over the 512 rows. Row p of the result depends on row p of a and of x only, and is the layer
  norm of the residual row.
-/
import proofs.«132381_j65798898974762_2_alg».proof.Proof.Gen.KernelIdeal.Skeleton
import proofs.«132381_j65798898974762_2_alg».proof.Proof.Spec
import proofs.«132381_j65798898974762_2_alg».proof.Proof.LibPlainDot
import proofs.«132381_j65798898974762_2_alg».proof.Proof.LibRowOps
import proofs.«132381_j65798898974762_2_alg».proof.Proof.LibRowSpread
import Idealize.ShloMosaic.Lib.Pipeline.Value
import Idealize.ShloMosaic.Lib.ValueIdx

noncomputable section

open scoped BigOperators

namespace Cert.KernelIdeal.NormValue

open Idealize.ShloMosaic Idealize.ShloMosaic.ValueIdx

/-! ## The mean column of a matrix, and a matrix less its row means -/

section Rows

variable {a b : Nat}

/-- The mean column of a matrix: the row sums by a vector reduction from the zero accumulator, stood up as a
    column, divided by a constant spread over the column. -/
def meanCol (r : FVec Ideal ⟨2, ![a, b]⟩ .f32) (w : BitVec 32)
    (hR : (⟨2, ![a, b]⟩ : Shape).Reduces [1] (⟨1, ![a]⟩ : Shape)) (hφ : FKind.Formats .f32)
    (hacc : (0x00000000#32 : BitVec 32) = FKind.add.neutral .f32 hφ)
    (hC : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ r 0x00000000#32 hR hφ hacc) hC)
    (broadcast ⟨2, ![a, 1]⟩ (Scalar.ofBits (F := Ideal) .f32 w))

/-- At (p, 0) the mean column is the sum of row p divided by the constant. -/
theorem meanCol_apply (r : FVec Ideal ⟨2, ![a, b]⟩ .f32) (w : BitVec 32)
    (hR : (⟨2, ![a, b]⟩ : Shape).Reduces [1] (⟨1, ![a]⟩ : Shape)) (hφ : FKind.Formats .f32)
    (hacc : (0x00000000#32 : BitVec 32) = FKind.add.neutral .f32 hφ)
    (hC : (⟨1, ![a]⟩ : Shape).ShapeCasts ⟨2, ![a, 1]⟩) (p : Fin a) :
    meanCol r w hR hφ hacc hC (ix2 p (0 : Fin 1)) = Ideal.div (∑ j : Fin b, r (ix2 p j)) (Ideal.ofBits .f32 w) := by
  unfold meanCol
  rw [divf_apply, RowOps.colCast_apply, RowOps.rowSum_vector, broadcast_apply]
  try rfl

/-- A matrix less its mean column spread over the columns. -/
def centered (r : FVec Ideal ⟨2, ![a, b]⟩ .f32) (w : BitVec 32)
    (hR : (⟨2, ![a, b]⟩ : Shape).Reduces [1] (⟨1, ![a]⟩ : Shape)) (hφ : FKind.Formats .f32)
    (hacc : (0x00000000#32 : BitVec 32) = FKind.add.neutral .f32 hφ)
    (hC : (⟨1, ![a]⟩ : Shape).ShapeCasts ⟨2, ![a, 1]⟩)
    (hB : (⟨2, ![a, 1]⟩ : Shape).Broadcasts ⟨2, ![a, b]⟩) : FVec Ideal ⟨2, ![a, b]⟩ .f32 :=
  subf r (broadcastTo ⟨2, ![a, b]⟩ (meanCol r w hR hφ hacc hC) hB)

/-- At (p, q) it is the entry less the mean of row p. -/
theorem centered_apply (r : FVec Ideal ⟨2, ![a, b]⟩ .f32) (w : BitVec 32)
    (hR : (⟨2, ![a, b]⟩ : Shape).Reduces [1] (⟨1, ![a]⟩ : Shape)) (hφ : FKind.Formats .f32)
    (hacc : (0x00000000#32 : BitVec 32) = FKind.add.neutral .f32 hφ)
    (hC : (⟨1, ![a]⟩ : Shape).ShapeCasts ⟨2, ![a, 1]⟩)
    (hB : (⟨2, ![a, 1]⟩ : Shape).Broadcasts ⟨2, ![a, b]⟩) (p : Fin a) (q : Fin b) :
    centered r w hR hφ hacc hC hB (ix2 p q)
      = r (ix2 p q) - Ideal.div (∑ j : Fin b, r (ix2 p j)) (Ideal.ofBits .f32 w) := by
  unfold centered
  rw [subf_apply, RowOps.colBcast_apply, meanCol_apply]

end Rows

/-- The reciprocal square root of a vector at an index. -/
theorem rsqrt_at {s : Shape} (x : FVec Ideal s .f32) (i : s.Idx) : rsqrt x i = Ideal.rsqrt (x i) := rfl

/-! ## The layer norm of a block, as the vector operations compute it -/

/-- The normalised block: the centred block times the reciprocal square root of the mean squared centred entry plus ε,
    spread over the columns, times the gain row, plus the offset row, both rows spread over the 512 rows. -/
def normOps (r : FVec Ideal ⟨2, ![512, 1024]⟩ .f32) (g c : FVec Ideal ⟨2, ![1, 1024]⟩ .f32)
    (hR : (⟨2, ![512, 1024]⟩ : Shape).Reduces [1] (⟨1, ![512]⟩ : Shape)) (hφ : FKind.Formats .f32)
    (hacc : (0x00000000#32 : BitVec 32) = FKind.add.neutral .f32 hφ)
    (hC : (⟨1, ![512]⟩ : Shape).ShapeCasts ⟨2, ![512, 1]⟩)
    (hB : (⟨2, ![512, 1]⟩ : Shape).Broadcasts ⟨2, ![512, 1024]⟩)
    (hS : (⟨2, ![1, 1024]⟩ : Shape).ShapeCasts ⟨2, ![1, 1024]⟩)
    (hW : (⟨2, ![1, 1024]⟩ : Shape).Broadcasts ⟨2, ![512, 1024]⟩) : FVec Ideal ⟨2, ![512, 1024]⟩ .f32 :=
  addf
    (mulf
      (mulf (centered r 0x44800000#32 hR hφ hacc hC hB)
        (broadcastTo ⟨2, ![512, 1024]⟩
          (rsqrt (addf
            (meanCol (mulf (centered r 0x44800000#32 hR hφ hacc hC hB) (centered r 0x44800000#32 hR hφ hacc hC hB))
              0x44800000#32 hR hφ hacc hC)
            (broadcast ⟨2, ![512, 1]⟩ (Scalar.ofBits (F := Ideal) .f32 0x3727C5AC#32)))) hB))
      (broadcastTo ⟨2, ![512, 1024]⟩ (shapeCast ⟨2, ![1, 1024]⟩ g hS) hW))
    (broadcastTo ⟨2, ![512, 1024]⟩ (shapeCast ⟨2, ![1, 1024]⟩ c hS) hW)

/-- At (p, e) the normalised block is the layer norm of row p of the block. -/
theorem normOps_apply (r : FVec Ideal ⟨2, ![512, 1024]⟩ .f32) (g c : FVec Ideal ⟨2, ![1, 1024]⟩ .f32)
    (hR : (⟨2, ![512, 1024]⟩ : Shape).Reduces [1] (⟨1, ![512]⟩ : Shape)) (hφ : FKind.Formats .f32)
    (hacc : (0x00000000#32 : BitVec 32) = FKind.add.neutral .f32 hφ)
    (hC : (⟨1, ![512]⟩ : Shape).ShapeCasts ⟨2, ![512, 1]⟩)
    (hB : (⟨2, ![512, 1]⟩ : Shape).Broadcasts ⟨2, ![512, 1024]⟩)
    (hS : (⟨2, ![1, 1024]⟩ : Shape).ShapeCasts ⟨2, ![1, 1024]⟩)
    (hW : (⟨2, ![1, 1024]⟩ : Shape).Broadcasts ⟨2, ![512, 1024]⟩) (p : Fin 512) (e : Fin 1024) :
    normOps r g c hR hφ hacc hC hB hS hW (ix2 p e)
      = Cert.Mha.layerNorm (fun e' => r (ix2 p e')) (fun e' => g (ix2 (0 : Fin 1) e'))
          (fun e' => c (ix2 (0 : Fin 1) e')) e := by
  have hs : (∑ j : Fin 1024, mulf (centered r 0x44800000#32 hR hφ hacc hC hB)
        (centered r 0x44800000#32 hR hφ hacc hC hB) (ix2 p j))
      = ∑ j : Fin 1024, (r (ix2 p j) - Ideal.div (∑ k : Fin 1024, r (ix2 p k)) (Ideal.ofBits .f32 0x44800000#32))
          * (r (ix2 p j) - Ideal.div (∑ k : Fin 1024, r (ix2 p k)) (Ideal.ofBits .f32 0x44800000#32)) :=
    Finset.sum_congr rfl fun j _ => by rw [mulf_apply, centered_apply]
  unfold normOps Cert.Mha.layerNorm Cert.Mha.mean
  rw [addf_apply, mulf_apply, mulf_apply, centered_apply, RowOps.colBcast_apply, rsqrt_at, addf_apply, meanCol_apply,
    broadcast_apply, hs, RowSpread.rowBcast_apply, RowSpread.rowBcast_apply, shapeCast_self, shapeCast_self]
  try rfl

/-! ## The residual block -/

/-- The residual block: the input block plus the product of the attention block with the weights, into the zero
    accumulator, plus the bias row spread over the 512 rows. -/
def resOps (x0 : FVec Ideal ⟨2, ![512, 1024]⟩ .bf16) (x1 : FVec Ideal ⟨2, ![1024, 1024]⟩ .bf16)
    (x2 : FVec Ideal ⟨2, ![1, 1024]⟩ .f32) (x3 : FVec Ideal ⟨2, ![512, 1024]⟩ .f32)
    (D : DotDims ⟨2, ![512, 1024]⟩ ⟨2, ![1024, 1024]⟩ ⟨2, ![512, 1024]⟩)
    (h0 : (⟨2, ![512, 1024]⟩ : Shape).ShapeCasts ⟨2, ![512, 1024]⟩)
    (h1 : (⟨2, ![1024, 1024]⟩ : Shape).ShapeCasts ⟨2, ![1024, 1024]⟩)
    (hS : (⟨2, ![1, 1024]⟩ : Shape).ShapeCasts ⟨2, ![1, 1024]⟩)
    (hW : (⟨2, ![1, 1024]⟩ : Shape).Broadcasts ⟨2, ![512, 1024]⟩) : FVec Ideal ⟨2, ![512, 1024]⟩ .f32 :=
  addf (shapeCast ⟨2, ![512, 1024]⟩ x3 h0)
    (addf
      (matmul D none (shapeCast ⟨2, ![512, 1024]⟩ x0 h0) (shapeCast ⟨2, ![1024, 1024]⟩ x1 h1)
        (constant ⟨2, ![512, 1024]⟩ .f32 0x00000000#32))
      (broadcastTo ⟨2, ![512, 1024]⟩ (shapeCast ⟨2, ![1, 1024]⟩ x2 hS) hW))

/-- At (p, e) the residual block is the residual row of row p of the input and attention blocks. -/
theorem resOps_apply (x0 : FVec Ideal ⟨2, ![512, 1024]⟩ .bf16) (x1 : FVec Ideal ⟨2, ![1024, 1024]⟩ .bf16)
    (x2 : FVec Ideal ⟨2, ![1, 1024]⟩ .f32) (x3 : FVec Ideal ⟨2, ![512, 1024]⟩ .f32)
    (D : DotDims ⟨2, ![512, 1024]⟩ ⟨2, ![1024, 1024]⟩ ⟨2, ![512, 1024]⟩)
    (h0 : (⟨2, ![512, 1024]⟩ : Shape).ShapeCasts ⟨2, ![512, 1024]⟩)
    (h1 : (⟨2, ![1024, 1024]⟩ : Shape).ShapeCasts ⟨2, ![1024, 1024]⟩)
    (hS : (⟨2, ![1, 1024]⟩ : Shape).ShapeCasts ⟨2, ![1, 1024]⟩)
    (hW : (⟨2, ![1, 1024]⟩ : Shape).Broadcasts ⟨2, ![512, 1024]⟩)
    (hD : D = DotDims.plain 512 1024 1024) (p : Fin 512) (e : Fin 1024) :
    resOps x0 x1 x2 x3 D h0 h1 hS hW (ix2 p e)
      = Cert.Mha.resid (fun e' => x3 (ix2 p e')) (fun k => x0 (ix2 p k)) (fun k e' => x1 (ix2 k e'))
          (fun e' => x2 (ix2 (0 : Fin 1) e')) e := by
  subst hD
  unfold resOps Cert.Mha.resid Cert.Mha.affine
  rw [addf_apply, addf_apply, shapeCast_self x3, shapeCast_self x0, shapeCast_self x1, shapeCast_self x2,
    RowSpread.rowBcast_apply]
  exact congrArg (fun s => x3 (ix2 p e) + (s + x2 (ix2 (0 : Fin 1) e))) (PlainDot.matmul_zero_apply none x0 x1 p e)

/-! ## The tile's payload -/

/-- The printed dimension numbers are those of a plain 512 × 1024 by 1024 × 1024 product. -/
theorem dot_plain : dot_S512x1024_S1024x1024_S512x1024_1_0_0_1_n_n = DotDims.plain 512 1024 1024 := rfl

/-- The payload is the normalised block of the residual block. -/
theorem pay_eq (x0 : Vec Ideal S512x1024 .bf16) (x1 : Vec Ideal S1024x1024 .bf16) (x2 : Vec Ideal S1x1024 .f32)
    (x3 : Vec Ideal S512x1024 .f32) (x4 x5 : Vec Ideal S1x1024 .f32) :
    Gen.k4_pay1 (F := Ideal) x0 x1 x2 x3 x4 x5
      = normOps
          (resOps x0 x1 x2 x3 dot_S512x1024_S1024x1024_S512x1024_1_0_0_1_n_n Gen.shapeCasts_S512x1024_S512x1024
            Gen.shapeCasts_S1024x1024_S1024x1024 Gen.shapeCasts_S1x1024_S1x1024 Gen.broadcasts_S1x1024_S512x1024)
          x4 x5 Gen.reduces_S512x1024_S512 (.inl rfl) rfl Gen.shapeCasts_S512_S512x1 Gen.broadcasts_S512x1_S512x1024
          Gen.shapeCasts_S1x1024_S1x1024 Gen.broadcasts_S1x1024_S512x1024 := rfl

/-- THE PAYLOAD AT AN INDEX: entry (p, e) of what the tile stores is the layer norm, at column e, of the residual row
    built from row p of the input block x3 and of the attention block x0, the weights x1 and the bias row x2, with
    gain row x4 and offset row x5. -/
theorem pay_at (x0 : Vec Ideal S512x1024 .bf16) (x1 : Vec Ideal S1024x1024 .bf16) (x2 : Vec Ideal S1x1024 .f32)
    (x3 : Vec Ideal S512x1024 .f32) (x4 x5 : Vec Ideal S1x1024 .f32) (p : Fin 512) (e : Fin 1024) :
    Gen.k4_pay1 (F := Ideal) x0 x1 x2 x3 x4 x5 (ix2 p e)
      = Cert.Mha.layerNorm
          (Cert.Mha.resid (fun e' => x3 (ix2 p e')) (fun k => x0 (ix2 p k)) (fun k e' => x1 (ix2 k e'))
            (fun e' => x2 (ix2 (0 : Fin 1) e')))
          (fun e' => x4 (ix2 (0 : Fin 1) e')) (fun e' => x5 (ix2 (0 : Fin 1) e')) e := by
  refine (congrFun (pay_eq x0 x1 x2 x3 x4 x5) (ix2 p e)).trans ?_
  refine (normOps_apply _ x4 x5 _ _ _ _ _ _ _ p e).trans ?_
  exact congrArg (fun r => Cert.Mha.layerNorm r (fun e' => x4 (ix2 (0 : Fin 1) e')) (fun e' => x5 (ix2 (0 : Fin 1) e')) e)
    (funext fun e' => resOps_apply x0 x1 x2 x3 _ _ _ _ _ dot_plain p e')

end Cert.KernelIdeal.NormValue

end
-- ==== Proof.NormBlocks.lean ====
/-
  The array the fused output projection, residual and layer norm leaves, row by row.

  The grid has 16 points; point t works on rows 512·t … 512·t + 511 of the 8192 × 1024 arrays: the attention output
  (window 0), the input (window 3) and the result (window 6) move with t in 512-row blocks, a block's row p being the
  array's row 512·t + p, while the weights, the bias row, the gain row and the offset row (windows 1, 2, 4, 5) are read
  whole at every point. What point t writes back is therefore, at row p and column e, the layer norm at column e of the
  residual row built from row 512·t + p of the input and of the attention output: block t of one function of the arrays,
  the normalised array. The sixteen blocks tile the 8192 rows (row r lies in block r / 512), so the result array ends
  holding the normalised array.
-/
import proofs.«132381_j65798898974762_2_alg».proof.Proof.Gen.KernelIdeal.Frame
import proofs.«132381_j65798898974762_2_alg».proof.Proof.NormPay
import Idealize.ShloMosaic.Lib.Pipeline.Value

noncomputable section

namespace Cert.KernelIdeal.NormValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The arrays as the region finds them, and the normalised array -/

/-- The attention output, 8192 × 1024. -/
abbrev arr0 (c : Dev nD) : (⟨2, ![8192, 1024]⟩ : Shape).Idx → EReal := V c (Pipeline.arrRef spec4 0)
/-- The output projection's weights, 1024 × 1024. -/
abbrev arr1 (c : Dev nD) : (⟨2, ![1024, 1024]⟩ : Shape).Idx → EReal := V c (Pipeline.arrRef spec4 1)
/-- Its bias, one row. -/
abbrev arr2 (c : Dev nD) : (⟨2, ![1, 1024]⟩ : Shape).Idx → EReal := V c (Pipeline.arrRef spec4 2)
/-- The input, 8192 × 1024. -/
abbrev arr3 (c : Dev nD) : (⟨2, ![8192, 1024]⟩ : Shape).Idx → EReal := V c (Pipeline.arrRef spec4 3)
/-- The gain, one row. -/
abbrev arr4 (c : Dev nD) : (⟨2, ![1, 1024]⟩ : Shape).Idx → EReal := V c (Pipeline.arrRef spec4 4)
/-- The offset, one row. -/
abbrev arr5 (c : Dev nD) : (⟨2, ![1, 1024]⟩ : Shape).Idx → EReal := V c (Pipeline.arrRef spec4 5)

/-- Entry (r, e) of the normalised array: the layer norm at column e of the residual row of row r. -/
def normAt (A0 A3 : (⟨2, ![8192, 1024]⟩ : Shape).Idx → EReal) (A1 : (⟨2, ![1024, 1024]⟩ : Shape).Idx → EReal)
    (A2 A4 A5 : (⟨2, ![1, 1024]⟩ : Shape).Idx → EReal) (r : Fin 8192) (e : Fin 1024) : EReal :=
  Cert.Mha.layerNorm
    (Cert.Mha.resid (fun e' => A3 (ix2 r e')) (fun k => A0 (ix2 r k)) (fun k e' => A1 (ix2 k e'))
      (fun e' => A2 (ix2 (0 : Fin 1) e')))
    (fun e' => A4 (ix2 (0 : Fin 1) e')) (fun e' => A5 (ix2 (0 : Fin 1) e')) e

/-- The normalised array of the arrays as the region finds them. -/
def normArr (c : Dev nD) : (⟨2, ![8192, 1024]⟩ : Shape).Idx → EReal :=
  fun i => normAt (arr0 V c) (arr3 V c) (arr1 V c) (arr2 V c) (arr4 V c) (arr5 V c) (i 0) (i 1)

/-- The layer norm of a residual row depends on the six rows it is built from only. -/
theorem norm_congr {x x' ao ao' : Fin 1024 → EReal} {wo wo' : Fin 1024 → Fin 1024 → EReal}
    {bo bo' γ γ' β β' : Fin 1024 → EReal} (hx : x = x') (ha : ao = ao') (hw : wo = wo') (hb : bo = bo')
    (hg : γ = γ') (hβ : β = β') (e : Fin 1024) :
    Cert.Mha.layerNorm (Cert.Mha.resid x ao wo bo) γ β e = Cert.Mha.layerNorm (Cert.Mha.resid x' ao' wo' bo') γ' β' e := by
  subst hx ha hw hb hg hβ; rfl

/-! ## The index maps over the grid, and the blocks as rows of the arrays -/

theorem hz : (![0, 0] : Fin 2 → Nat) = fun _ => 0 := funext fun a => by fin_cases a <;> rfl

/-- The printed index maps, decided over the 16 points: the three row-tiled windows sit at block row t, column block 0;
    the four whole windows at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of the attention block at point t is row 512·t + p of the attention output. -/
theorem blk0_at (c : Dev nD) (t : Fin cfg4.N) (p : Fin 512) (k : Fin 1024) (r : Fin 8192)
    (hr : r.val = t.val * 512 + p.val) : Gen.iblk4 (F := Ideal) V c 0 t (ix2 p k) = arr0 V c (ix2 r k) := by
  obtain ⟨e0, e1, -⟩ := idx_facts t
  unfold Gen.iblk4
  rw [View.read_apply]
  show V c (Pipeline.arrRef spec4 0) _ = V c (Pipeline.arrRef spec4 0) _
  congr 1
  funext a
  apply Fin.ext
  match a with
  | ⟨0, _⟩ => show win4_0.index t (0 : Fin 2) * 512 + 1 * p.val = r.val; rw [e0, hr]; omega
  | ⟨1, _⟩ => show win4_0.index t (1 : Fin 2) * 1024 + 1 * k.val = k.val; rw [e1]; omega

/-- The weights' block at every point is the weights. -/
theorem blk1_at (c : Dev nD) (t : Fin cfg4.N) (k e : Fin 1024) :
    Gen.iblk4 (F := Ideal) V c 1 t (ix2 k e) = arr1 V c (ix2 k e) := by
  obtain ⟨-, -, e0, e1, -⟩ := idx_facts t
  unfold Gen.iblk4
  rw [View.read_apply]
  show V c (Pipeline.arrRef spec4 1) _ = V c (Pipeline.arrRef spec4 1) _
  congr 1
  funext a
  apply Fin.ext
  match a with
  | ⟨0, _⟩ => show win4_1.index t (0 : Fin 2) * 1024 + 1 * k.val = k.val; rw [e0]; omega
  | ⟨1, _⟩ => show win4_1.index t (1 : Fin 2) * 1024 + 1 * e.val = e.val; rw [e1]; omega

/-- The bias row's block at every point is the bias row. -/
theorem blk2_at (c : Dev nD) (t : Fin cfg4.N) (e : Fin 1024) :
    Gen.iblk4 (F := Ideal) V c 2 t (ix2 (0 : Fin 1) e) = arr2 V c (ix2 (0 : Fin 1) e) := by
  obtain ⟨-, -, -, -, e0, e1, -⟩ := idx_facts t
  unfold Gen.iblk4
  rw [View.read_apply]
  show V c (Pipeline.arrRef spec4 2) _ = V c (Pipeline.arrRef spec4 2) _
  congr 1
  funext a
  apply Fin.ext
  match a with
  | ⟨0, _⟩ => show win4_2.index t (0 : Fin 2) * 1 + 1 * 0 = 0; rw [e0]
  | ⟨1, _⟩ => show win4_2.index t (1 : Fin 2) * 1024 + 1 * e.val = e.val; rw [e1]; omega

/-- Row p of the input block at point t is row 512·t + p of the input. -/
theorem blk3_at (c : Dev nD) (t : Fin cfg4.N) (p : Fin 512) (k : Fin 1024) (r : Fin 8192)
    (hr : r.val = t.val * 512 + p.val) : Gen.iblk4 (F := Ideal) V c 3 t (ix2 p k) = arr3 V c (ix2 r k) := by
  obtain ⟨-, -, -, -, -, -, e0, e1, -⟩ := idx_facts t
  unfold Gen.iblk4
  rw [View.read_apply]
  show V c (Pipeline.arrRef spec4 3) _ = V c (Pipeline.arrRef spec4 3) _
  congr 1
  funext a
  apply Fin.ext
  match a with
  | ⟨0, _⟩ => show win4_3.index t (0 : Fin 2) * 512 + 1 * p.val = r.val; rw [e0, hr]; omega
  | ⟨1, _⟩ => show win4_3.index t (1 : Fin 2) * 1024 + 1 * k.val = k.val; rw [e1]; omega

/-- The gain row's block at every point is the gain row. -/
theorem blk4_at (c : Dev nD) (t : Fin cfg4.N) (e : Fin 1024) :
    Gen.iblk4 (F := Ideal) V c 4 t (ix2 (0 : Fin 1) e) = arr4 V c (ix2 (0 : Fin 1) e) := by
  obtain ⟨-, -, -, -, -, -, -, -, e0, e1, -⟩ := idx_facts t
  unfold Gen.iblk4
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * 0 = 0; rw [e0]
  | ⟨1, _⟩ => show win4_4.index t (1 : Fin 2) * 1024 + 1 * e.val = e.val; rw [e1]; omega

/-- The offset row's block at every point is the offset row. -/
theorem blk5_at (c : Dev nD) (t : Fin cfg4.N) (e : Fin 1024) :
    Gen.iblk4 (F := Ideal) V c 5 t (ix2 (0 : Fin 1) e) = arr5 V c (ix2 (0 : Fin 1) e) := by
  obtain ⟨-, -, -, -, -, -, -, -, -, -, e0, e1, -⟩ := idx_facts t
  unfold Gen.iblk4
  rw [View.read_apply]
  show V c (Pipeline.arrRef spec4 5) _ = V c (Pipeline.arrRef spec4 5) _
  congr 1
  funext a
  apply Fin.ext
  match a with
  | ⟨0, _⟩ => show win4_5.index t (0 : Fin 2) * 1 + 1 * 0 = 0; rw [e0]
  | ⟨1, _⟩ => show win4_5.index t (1 : Fin 2) * 1024 + 1 * e.val = e.val; rw [e1]; omega

/-! ## What a point writes back, the cover, and the array after the run -/

/-- WHAT POINT t WRITES BACK is block t of the normalised array. -/
theorem flushed_eq (c : Dev nD) (t : Fin cfg4.N) :
    (Gen.dat4 (F := Ideal) V c).flushed 6 t = ((cfg4.win 6).blk t).view.read (Elt Ideal) (normArr V c) := by
  show (cfg4.win 6).cut (grid4.coords t) ((Gen.dat4 (F := Ideal) V c).after 6 t) = _
  rw [Gen.after4_6]
  unfold Gen.out4_6
  rw [View.canon_unit_zero hz]
  simp only [View.ld_unit_zero (S := S512x1024) hz, View.ld_unit_zero (S := S1024x1024) hz,
    View.ld_unit_zero (S := S1x1024) hz]
  obtain ⟨-, -, -, -, -, -, -, -, -, -, -, -, e60, e61⟩ := idx_facts t
  have ht : t.val < 16 := lt_of_lt_of_eq t.isLt Gen.N_4
  funext j
  have hj0 : (j 0).val < 512 := (j 0).isLt
  have hj1 : (j 1).val < 1024 := (j 1).isLt
  have hx : (cfg4.win 6).xinj (grid4.coords t) j = ix2 (⟨(j 0).val, hj0⟩ : Fin 512) (⟨(j 1).val, hj1⟩ : Fin 1024) :=
    funext fun a => by match a with | ⟨0, _⟩ => rfl | ⟨1, _⟩ => rfl
  have hi : ((cfg4.win 6).blk t).view.emb j
      = ix2 (⟨t.val * 512 + (j 0).val, by omega⟩ : Fin 8192) (⟨(j 1).val, hj1⟩ : Fin 1024) :=
    funext fun a => Fin.ext (by
      match a with
      | ⟨0, _⟩ => show win4_6.index t (0 : Fin 2) * 512 + 1 * (j 0).val = t.val * 512 + (j 0).val; rw [e60]; omega
      | ⟨1, _⟩ => show win4_6.index t (1 : Fin 2) * 1024 + 1 * (j 1).val = (j 1).val; rw [e61]; omega)
  refine (congrArg (Gen.k4_pay1 (F := Ideal) (Gen.iblk4 V c 0 t) (Gen.iblk4 V c 1 t) (Gen.iblk4 V c 2 t)
    (Gen.iblk4 V c 3 t) (Gen.iblk4 V c 4 t) (Gen.iblk4 V c 5 t)) hx).trans ?_
  refine (pay_at (Gen.iblk4 V c 0 t) (Gen.iblk4 V c 1 t) (Gen.iblk4 V c 2 t) (Gen.iblk4 V c 3 t) (Gen.iblk4 V c 4 t)
    (Gen.iblk4 V c 5 t) ⟨(j 0).val, hj0⟩ ⟨(j 1).val, hj1⟩).trans ?_
  show _ = normArr V c (((cfg4.win 6).blk t).view.emb j)
  refine Eq.trans ?_ (congrArg (normArr V c) hi).symm
  show _ = normAt (arr0 V c) (arr3 V c) (arr1 V c) (arr2 V c) (arr4 V c) (arr5 V c)
    (⟨t.val * 512 + (j 0).val, by omega⟩ : Fin 8192) (⟨(j 1).val, hj1⟩ : Fin 1024)
  unfold normAt
  exact norm_congr (funext fun e' => blk3_at V c t ⟨(j 0).val, hj0⟩ e' _ rfl)
    (funext fun k => blk0_at V c t ⟨(j 0).val, hj0⟩ k _ rfl)
    (funext fun k => funext fun e' => blk1_at V c t k e') (funext fun e' => blk2_at V c t e')
    (funext fun e' => blk4_at V c t e') (funext fun e' => blk5_at V c t e') _

/-- An index of the result array is in point t's block iff each coordinate is in the block's range on its axis. -/
theorem mem_blk (t : Fin cfg4.N) (i : S8192x1024.Idx) :
    i ∈ ((cfg4.win 6).blk t).view.set
      ↔ ∀ a : Fin 2, win4_6.index t a * S512x1024.size a ≤ (i a).val
          ∧ (i a).val < win4_6.index t a * S512x1024.size a + S512x1024.size a := by
  show i ∈ ((View.whole main_v21).slice (win4_6.rect t)).set ↔ _
  rw [View.set_slice_whole, Rect.mem_set_unit]
  exact Iff.rfl

/-- Every index of the result array is in the block of the point its row divided by 512 names. -/
theorem cover (i : S8192x1024.Idx) :
    ∃ t : Fin cfg4.N, (cfg4.win 6).flush t = true ∧ i ∈ ((cfg4.win 6).blk t).view.set := by
  have hi0 : (i 0).val < 8192 := (i 0).isLt
  have hi1 : (i 1).val < 1024 := (i 1).isLt
  have hN : cfg4.N = 16 := Gen.N_4
  have hlt : (i 0).val / 512 < cfg4.N := by rw [hN]; omega
  obtain ⟨-, -, -, -, -, -, -, -, -, -, -, -, e60, e61⟩ := idx_facts ⟨(i 0).val / 512, hlt⟩
  refine ⟨⟨(i 0).val / 512, hlt⟩, Gen.flush4_6 _, ?_⟩
  rw [mem_blk]
  intro a
  match a with
  | ⟨0, _⟩ =>
    show win4_6.index ⟨(i 0).val / 512, hlt⟩ (0 : Fin 2) * 512 ≤ (i 0).val
      ∧ (i 0).val < win4_6.index ⟨(i 0).val / 512, hlt⟩ (0 : Fin 2) * 512 + 512
    rw [e60]
    show (i 0).val / 512 * 512 ≤ (i 0).val ∧ (i 0).val < (i 0).val / 512 * 512 + 512
    omega
  | ⟨1, _⟩ =>
    show win4_6.index ⟨(i 0).val / 512, hlt⟩ (1 : Fin 2) * 1024 ≤ (i 1).val
      ∧ (i 1).val < win4_6.index ⟨(i 0).val / 512, hlt⟩ (1 : Fin 2) * 1024 + 1024
    rw [e61]
    omega

/-- THE RESULT ARRAY after the run is the normalised array of the arrays as the region finds them. -/
theorem arr_eq (c : Dev nD) : (Gen.dat4 (F := Ideal) V c).arrAt 6 cfg4.N = normArr V c :=
  (Gen.dat4 (F := Ideal) V c).arrAt_eq_of_cover 6 (normArr V c) (fun t _ => flushed_eq V c t) cover

/-- THE RESULT AT AN INDEX: entry (r, e) of the result array after the run is the layer norm, at column e, of the residual
    row built from row r of the input and of the attention output, the weights and the bias row, with the gain and offset
    rows, all as the region finds them. -/
theorem out_at (c : Dev nD) (r : Fin 8192) (e : Fin 1024) :
    (Gen.dat4 (F := Ideal) V c).arrAt 6 cfg4.N (ix2 r e)
      = Cert.Mha.layerNorm
          (Cert.Mha.resid (fun e' => arr3 V c (ix2 r e')) (fun k => arr0 V c (ix2 r k)) (fun k e' => arr1 V c (ix2 k e'))
            (fun e' => arr2 V c (ix2 (0 : Fin 1) e')))
          (fun e' => arr4 V c (ix2 (0 : Fin 1) e')) (fun e' => arr5 V c (ix2 (0 : Fin 1) e')) e :=
  (congrFun (arr_eq V c) (ix2 r e)).trans rfl

end Cert.KernelIdeal.NormValue

end
-- ==== Proof.lean ====
/-
  The kernel computes multi-head attention with a residual layer norm in five regions: three tiled affine
  projections, one attention region that handles two heads of one 512-row query tile per grid point, and one region
  that fuses the output projection, the residual and the layer norm; the host between them only reshapes arrays and
  changes float formats. The reference computes the same thing on whole arrays, splitting heads by a reshape and a
  transpose. Over the extended reals a change of float format is the identity, a tiled matrix product is the whole
  product row by row, the kernel's factor 0.125 is the reference's division by 8, and both sides take the softmax and
  the layer norm by the same operations in the same order; sums are only regrouped, so no finiteness is used. Both
  programs' results are therefore the same two functions of the thirteen argument arrays (`Cert.Mha.Yof`,
  `Cert.Mha.Wof`): the kernel's by the region-by-region value lemmas composed along @main, the reference's by its
  operations read one at a time. The ideal pass rewrote nothing, so the idealization conjunct is `True`; the three
  frames are the generated frame proofs and the reference's run.
-/
import proofs.«132381_j65798898974762_2_alg».proof.Defs
import proofs.«132381_j65798898974762_2_alg».proof.Proof.Gen.Kernel
import proofs.«132381_j65798898974762_2_alg».proof.Proof.Gen.Kernel.Skeleton
import proofs.«132381_j65798898974762_2_alg».proof.Proof.Gen.Kernel.Launch
import proofs.«132381_j65798898974762_2_alg».proof.Proof.Gen.Kernel.Points
import proofs.«132381_j65798898974762_2_alg».proof.Proof.Gen.Kernel.Frame
import proofs.«132381_j65798898974762_2_alg».proof.Proof.Gen.KernelIdeal
import proofs.«132381_j65798898974762_2_alg».proof.Proof.Gen.KernelIdeal.Skeleton
import proofs.«132381_j65798898974762_2_alg».proof.Proof.Gen.KernelIdeal.Launch
import proofs.«132381_j65798898974762_2_alg».proof.Proof.Gen.KernelIdeal.Points
import proofs.«132381_j65798898974762_2_alg».proof.Proof.Gen.KernelIdeal.Frame
import proofs.«132381_j65798898974762_2_alg».proof.Proof.Gen.ReferenceIdeal
import proofs.«132381_j65798898974762_2_alg».proof.Proof.Gen.Pre_finite_inputs
import proofs.«132381_j65798898974762_2_alg».proof.Proof.Gen.ReferenceIdeal.Run
import proofs.«132381_j65798898974762_2_alg».proof.Proof.Gen.ReferenceIdeal.Read
import proofs.«132381_j65798898974762_2_alg».proof.Proof.Results
import proofs.«132381_j65798898974762_2_alg».proof.Proof.LinBlocks0
import proofs.«132381_j65798898974762_2_alg».proof.Proof.LinBlocks1
import proofs.«132381_j65798898974762_2_alg».proof.Proof.LinBlocks2
import proofs.«132381_j65798898974762_2_alg».proof.Proof.AttnWeights
import proofs.«132381_j65798898974762_2_alg».proof.Proof.AttnOutput
import proofs.«132381_j65798898974762_2_alg».proof.Proof.NormBlocks
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the normalised output and the attention
    weights of those arguments. -/
theorem algebraic : Cert.algebraic_KernelIdeal_ReferenceIdeal := by
  intro m ρ m' ρ' _ hagree
  refine ⟨_, _, Runs.kernel_run Cert.KernelIdeal.LinBlocks0.out_at Cert.KernelIdeal.LinBlocks1.out_at
    Cert.KernelIdeal.LinBlocks2.out_at Cert.KernelIdeal.AttnValue.weights_at Cert.KernelIdeal.AttnValue.out_at
    Cert.KernelIdeal.NormValue.out_at m ρ, ?_⟩
  refine (θ_run Cert.ReferenceIdeal.defs _ _).mono (fun r h c => ?_) (Runs.reference_run m' ρ')
  obtain ⟨e0, e1, e2, e3, e4, e5, e6, e7, e8, e9, e10, e11, e12⟩ := hagree c
  rw [← e0, ← e1, ← e2, ← e3, ← e4, ← e5, ← e6, ← e7, ← e8, ← e9, ← e10, ← e11, ← e12]
  exact h c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
